-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v131)) (v1 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_v132) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S64x128 : Shape := ⟨2, ![64, 128]⟩
abbrev S256x128 : Shape := ⟨2, ![256, 128]⟩
abbrev S2x600000 : Shape := ⟨2, ![2, 600000]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S100000x128 .f32) (main_arg1 : FVec F S64x128 .f32) (main_arg2 : FVec F S100000x128 .f32) (main_arg3 : FVec F S256x128 .f32) (main_arg4 : IVec S2x600000 32) (main_arg5 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S100000x128 : Shape := ⟨2, ![100000, 128]⟩
abbrev S64x128 : Shape := ⟨2, ![64, 128]⟩
abbrev S256x128 : Shape := ⟨2, ![256, 128]⟩
abbrev S2x600000 : Shape := ⟨2, ![2, 600000]⟩
abbrev S600000 : Shape := ⟨1, ![600000]⟩
abbrev S1x600000 : Shape := ⟨2, ![1, 600000]⟩
abbrev S_ : Shape := ⟨0, ![]⟩
abbrev S606208 : Shape := ⟨1, ![606208]⟩
abbrev S128x128 : Shape := ⟨2, ![128, 128]⟩
abbrev S606208x1 : Shape := ⟨2, ![606208, 1]⟩
abbrev S606208x128 : Shape := ⟨2, ![606208, 128]⟩
abbrev S8192x128 : Shape := ⟨2, ![8192, 128]⟩
abbrev S8192 : Shape := ⟨1, ![8192]⟩
abbrev S100001 : Shape := ⟨1, ![100001]⟩
abbrev S100001x128 : Shape := ⟨2, ![100001, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 175
  | .vmem => 44
  | .smem => 0
  | _ => 0

abbrev hbmTy0_0 (i : Nat) : BufTy := match i % 128 with
  | 0 => ⟨S100000x128, .f32⟩
  | 1 => ⟨S64x128, .f32⟩
  | 2 => ⟨S100000x128, .f32⟩
  | 3 => ⟨S256x128, .f32⟩
  | 4 => ⟨S2x600000, .i32⟩
  | 5 => ⟨S600000, .i32⟩
  | 6 => ⟨S1x600000, .i32⟩
  | 7 => ⟨S600000, .i32⟩
  | 8 => ⟨S1x600000, .i32⟩
  | 9 => ⟨S600000, .i32⟩
  | 10 => ⟨S_, .i32⟩
  | 11 => ⟨S_, .i32⟩
  | 12 => ⟨S606208, .i32⟩
  | 13 => ⟨S_, .i32⟩
  | 14 => ⟨S_, .i32⟩
  | 15 => ⟨S606208, .i32⟩
  | 16 => ⟨S_, .i32⟩
  | 17 => ⟨S_, .i32⟩
  | 18 => ⟨S606208, .i32⟩
  | 19 => ⟨S_, .i32⟩
  | 20 => ⟨S_, .i32⟩
  | 21 => ⟨S606208, .i32⟩
  | 22 => ⟨S_, .i32⟩
  | 23 => ⟨S_, .i32⟩
  | 24 => ⟨S606208, .i32⟩
  | 25 => ⟨S128x128, .f32⟩
  | 26 => ⟨S128x128, .f32⟩
  | 27 => ⟨S64x128, .bf16⟩
  | 28 => ⟨S_, .i32⟩
  | 29 => ⟨S606208, .i32⟩
  | 30 => ⟨S606208, .i1⟩
  | 31 => ⟨S_, .i32⟩
  | 32 => ⟨S606208, .i32⟩
  | 33 => ⟨S606208, .i32⟩
  | 34 => ⟨S606208, .i32⟩
  | 35 => ⟨S606208x1, .i32⟩
  | 36 => ⟨S606208x128, .bf16⟩
  | 37 => ⟨S100000x128, .bf16⟩
  | 38 => ⟨S100000x128, .bf16⟩
  | 39 => ⟨S_, .i32⟩
  | 40 => ⟨S606208, .i32⟩
  | 41 => ⟨S606208, .i1⟩
  | 42 => ⟨S_, .i32⟩
  | 43 => ⟨S606208, .i32⟩
  | 44 => ⟨S606208, .i32⟩
  | 45 => ⟨S606208, .i32⟩
  | 46 => ⟨S606208x1, .i32⟩
  | 47 => ⟨S606208x128, .bf16⟩
  | 48 => ⟨S_, .i32⟩
  | 49 => ⟨S606208, .i32⟩
  | 50 => ⟨S606208, .i1⟩
  | 51 => ⟨S_, .i32⟩
  | 52 => ⟨S606208, .i32⟩
  | 53 => ⟨S606208, .i32⟩
  | 54 => ⟨S606208, .i32⟩
  | 55 => ⟨S606208x1, .i32⟩
  | 56 => ⟨S606208x128, .bf16⟩
  | 57 => ⟨S606208, .f32⟩
  | 58 => ⟨S_, .f32⟩
  | 59 => ⟨S100001, .f32⟩
  | 60 => ⟨S606208x1, .i32⟩
  | 61 => ⟨S100001, .f32⟩
  | 62 => ⟨S_, .f32⟩
  | 63 => ⟨S100001, .f32⟩
  | 64 => ⟨S606208x1, .i32⟩
  | 65 => ⟨S100001, .f32⟩
  | 66 => ⟨S_, .i32⟩
  | 67 => ⟨S606208, .i32⟩
  | 68 => ⟨S606208, .i1⟩
  | 69 => ⟨S_, .i32⟩
  | 70 => ⟨S606208, .i32⟩
  | 71 => ⟨S606208, .i32⟩
  | 72 => ⟨S606208, .i32⟩
  | 73 => ⟨S606208x1, .i32⟩
  | 74 => ⟨S606208, .f32⟩
  | 75 => ⟨S606208, .f32⟩
  | 76 => ⟨S_, .i32⟩
  | 77 => ⟨S606208, .i32⟩
  | 78 => ⟨S606208, .i1⟩
  | 79 => ⟨S_, .i32⟩
  | 80 => ⟨S606208, .i32⟩
  | 81 => ⟨S606208, .i32⟩
  | 82 => ⟨S606208, .i32⟩
  | 83 => ⟨S606208x1, .i32⟩
  | 84 => ⟨S606208, .f32⟩
  | 85 => ⟨S606208, .f32⟩
  | 86 => ⟨S606208x128, .f32⟩
  | 87 => ⟨S606208x1, .f32⟩
  | 88 => ⟨S606208x128, .f32⟩
  | 89 => ⟨S606208x128, .f32⟩
  | 90 => ⟨S606208x128, .f32⟩
  | 91 => ⟨S606208x1, .f32⟩
  | 92 => ⟨S606208x128, .f32⟩
  | 93 => ⟨S606208x128, .f32⟩
  | 94 => ⟨S_, .f32⟩
  | 95 => ⟨S100001x128, .f32⟩
  | 96 => ⟨S606208x1, .i32⟩
  | 97 => ⟨S100001x128, .f32⟩
  | 98 => ⟨S100000x128, .f32⟩
  | 99 => ⟨S_, .f32⟩
  | 100 => ⟨S100001x128, .f32⟩
  | 101 => ⟨S606208x1, .i32⟩
  | 102 => ⟨S100001x128, .f32⟩
  | 103 => ⟨S100000x128, .f32⟩
  | 104 => ⟨S100000x128, .f32⟩
  | 105 => ⟨S100000x128, .f32⟩
  | 106 => ⟨S100000x128, .bf16⟩
  | 107 => ⟨S100000x128, .bf16⟩
  | 108 => ⟨S_, .i32⟩
  | 109 => ⟨S606208, .i32⟩
  | 110 => ⟨S606208, .i1⟩
  | 111 => ⟨S_, .i32⟩
  | 112 => ⟨S606208, .i32⟩
  | 113 => ⟨S606208, .i32⟩
  | 114 => ⟨S606208, .i32⟩
  | 115 => ⟨S606208x1, .i32⟩
  | 116 => ⟨S606208x128, .bf16⟩
  | 117 => ⟨S_, .i32⟩
  | 118 => ⟨S606208, .i32⟩
  | 119 => ⟨S606208, .i1⟩
  | 120 => ⟨S_, .i32⟩
  | 121 => ⟨S606208, .i32⟩
  | 122 => ⟨S606208, .i32⟩
  | 123 => ⟨S606208, .i32⟩
  | 124 => ⟨S606208x1, .i32⟩
  | 125 => ⟨S606208x128, .bf16⟩
  | 126 => ⟨S606208, .f32⟩
  | 127 => ⟨S_, .f32⟩
  | _ => ⟨S100000x128, .f32⟩

abbrev hbmTy0_1 (i : Nat) : BufTy := match i % 128 with
  | 0 => ⟨S100001, .f32⟩
  | 1 => ⟨S606208x1, .i32⟩
  | 2 => ⟨S100001, .f32⟩
  | 3 => ⟨S_, .f32⟩
  | 4 => ⟨S100001, .f32⟩
  | 5 => ⟨S606208x1, .i32⟩
  | 6 => ⟨S100001, .f32⟩
  | 7 => ⟨S_, .i32⟩
  | 8 => ⟨S606208, .i32⟩
  | 9 => ⟨S606208, .i1⟩
  | 10 => ⟨S_, .i32⟩
  | 11 => ⟨S606208, .i32⟩
  | 12 => ⟨S606208, .i32⟩
  | 13 => ⟨S606208, .i32⟩
  | 14 => ⟨S606208x1, .i32⟩
  | 15 => ⟨S606208, .f32⟩
  | 16 => ⟨S606208, .f32⟩
  | 17 => ⟨S_, .i32⟩
  | 18 => ⟨S606208, .i32⟩
  | 19 => ⟨S606208, .i1⟩
  | 20 => ⟨S_, .i32⟩
  | 21 => ⟨S606208, .i32⟩
  | 22 => ⟨S606208, .i32⟩
  | 23 => ⟨S606208, .i32⟩
  | 24 => ⟨S606208x1, .i32⟩
  | 25 => ⟨S606208, .f32⟩
  | 26 => ⟨S606208, .f32⟩
  | 27 => ⟨S606208x128, .f32⟩
  | 28 => ⟨S606208x1, .f32⟩
  | 29 => ⟨S606208x128, .f32⟩
  | 30 => ⟨S606208x128, .f32⟩
  | 31 => ⟨S606208x128, .f32⟩
  | 32 => ⟨S606208x1, .f32⟩
  | 33 => ⟨S606208x128, .f32⟩
  | 34 => ⟨S606208x128, .f32⟩
  | 35 => ⟨S_, .f32⟩
  | 36 => ⟨S100001x128, .f32⟩
  | 37 => ⟨S606208x1, .i32⟩
  | 38 => ⟨S100001x128, .f32⟩
  | 39 => ⟨S100000x128, .f32⟩
  | 40 => ⟨S_, .f32⟩
  | 41 => ⟨S100001x128, .f32⟩
  | 42 => ⟨S606208x1, .i32⟩
  | 43 => ⟨S100001x128, .f32⟩
  | 44 => ⟨S100000x128, .f32⟩
  | 45 => ⟨S100000x128, .f32⟩
  | 46 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S128x128, .f32⟩
  | .local _ .vmem, ⟨7, _⟩ => ⟨S128x128, .f32⟩
  | .local _ .vmem, ⟨8, _⟩ => ⟨S8192, .f32⟩
  | .local _ .vmem, ⟨9, _⟩ => ⟨S8192, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S8192x128, .bf16⟩
  | .local _ .vmem, ⟨23, _⟩ => ⟨S8192x128, .bf16⟩
  | .local _ .vmem, ⟨24, _⟩ => ⟨S8192x128, .bf16⟩
  | .local _ .vmem, ⟨25, _⟩ => ⟨S8192x128, .bf16⟩
  | .local _ .vmem, ⟨26, _⟩ => ⟨S8192x128, .bf16⟩
  | .local _ .vmem, ⟨27, _⟩ => ⟨S8192x128, .bf16⟩
  | .local _ .vmem, ⟨28, _⟩ => ⟨S128x128, .f32⟩
  | .local _ .vmem, ⟨29, _⟩ => ⟨S128x128, .f32⟩
  | .local _ .vmem, ⟨30, _⟩ => ⟨S8192, .f32⟩
  | .local _ .vmem, ⟨31, _⟩ => ⟨S8192, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_c_2 : Ref sig .tc := ⟨.hbm, 19, rfl⟩
abbrev main_call3_v0 : Ref sig .tc := ⟨.hbm, 20, rfl⟩
abbrev main_v7 : Ref sig .tc := ⟨.hbm, 21, rfl⟩
abbrev main_c_3 : Ref sig .tc := ⟨.hbm, 22, rfl⟩
abbrev main_call4_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_c_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_c_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_17 : Ref sig .tc := ⟨.hbm, 108, rfl⟩
abbrev main_v78 : Ref sig .tc := ⟨.hbm, 109, rfl⟩
abbrev main_v79 : Ref sig .tc := ⟨.hbm, 110, rfl⟩
abbrev main_c_18 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_19 : Ref sig .tc := ⟨.hbm, 117, rfl⟩
abbrev main_v85 : Ref sig .tc := ⟨.hbm, 118, rfl⟩
abbrev main_v86 : Ref sig .tc := ⟨.hbm, 119, rfl⟩
abbrev main_c_20 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_21 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_22 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_23 : Ref sig .tc := ⟨.hbm, 135, rfl⟩
abbrev main_v99 : Ref sig .tc := ⟨.hbm, 136, rfl⟩
abbrev main_v100 : Ref sig .tc := ⟨.hbm, 137, rfl⟩
abbrev main_c_24 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_25 : Ref sig .tc := ⟨.hbm, 145, rfl⟩
abbrev main_v107 : Ref sig .tc := ⟨.hbm, 146, rfl⟩
abbrev main_v108 : Ref sig .tc := ⟨.hbm, 147, rfl⟩
abbrev main_c_26 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_27 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_28 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43

abbrev nD : Nat := 1
abbrev τ : Topo := Topo.v7x

variable {F : FTy → Type} [FloatOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![74], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S8192x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8192 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  pads_S600000_S606208_062080 : S600000.Pads (![0] : Fin 1 → Nat) ![6208] ![0] S606208
  h_S_ : 0 < S_.numel
  slices_S256x128_S128x128_0_0 : S256x128.Slices ![0, 0] S128x128
  slices_S256x128_S128x128_128_0 : S256x128.Slices ![128, 0] S128x128
  bitsLt_bf16_f32 : FTy.bits .bf16 < FTy.bits .f32
  bcast_S_S606208 : S_.BroadcastsInDim S606208 (![] : Fin 0 → Fin S606208.rank)
  bcast_S606208_S606208x1_0 : S606208.BroadcastsInDim S606208x1 (![0] : Fin 1 → Fin S606208x1.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S8192x128_S8192 : S8192x128.Reduces [1] S8192
  inb_S8192_S8192_0 : ∀ a, (![0] : Fin 1 → Nat) a + S8192.size a ≤ S8192.size a
  h_S8192 : 0 < S8192.numel
  bcast_S_S100001 : S_.BroadcastsInDim S100001 (![] : Fin 0 → Fin S100001.rank)
  bcast_S606208x1_S606208x128_0_1 : S606208x1.BroadcastsInDim S606208x128 (![0, 1] : Fin 2 → Fin S606208x128.rank)
  bcast_S_S100001x128 : S_.BroadcastsInDim S100001x128 (![] : Fin 0 → Fin S100001x128.rank)
  slices_S100001x128_S100000x128_0_0 : S100001x128.Slices ![0, 0] S100000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  gather_S64x128_S606208x1_S606208x128_1_0_n_n_0_1_1128_wf : GatherDims.WF S64x128 S606208x1 S606208x128 [1] [0] [] [0] [] 1 ![1, 128]
  gather_S100000x128_S606208x1_S606208x128_1_0_n_n_0_1_1128_wf : GatherDims.WF S100000x128 S606208x1 S606208x128 [1] [0] [] [0] [] 1 ![1, 128]
  dot_S8192x128_S128x128_S8192x128_1_0_0_1_n_n_wf : DotDims.WF S8192x128 S128x128 S8192x128 [1] [0] [0] [1] [] []
  scatter_S100001_S606208x1_S606208_n_0_0_1_wf : ScatterDims.WF S100001 S606208x1 S606208 [] [0] [0] 1
  gather_S100001_S606208x1_S606208_n_0_n_n_0_1_1_wf : GatherDims.WF S100001 S606208x1 S606208 [] [0] [] [0] [] 1 ![1]
  scatter_S100001x128_S606208x1_S606208x128_1_0_0_1_wf : ScatterDims.WF S100001x128 S606208x1 S606208x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S606208x128.size a
  hwx0_0 : ∀ i : grid0.Coords, EltTy.bits .bf16 = 32 ∨ (Rect.block (s := S606208x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S606208x128.size a
  hwx0_1 : ∀ i : grid0.Coords, EltTy.bits .bf16 = 32 ∨ (Rect.block (s := S606208x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S606208x128.size a
  hwx0_2 : ∀ i : grid0.Coords, EltTy.bits .bf16 = 32 ∨ (Rect.block (s := S606208x128) S8192x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S606208.size a
  hwx0_5 : ∀ i : grid0.Coords, EltTy.bits .f32 = 32 ∨ (Rect.block (s := S606208) S8192.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S606208x128.size a
  hwx3_0 : ∀ i : grid3.Coords, EltTy.bits .bf16 = 32 ∨ (Rect.block (s := S606208x128) S8192x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S606208x128.size a
  hwx3_1 : ∀ i : grid3.Coords, EltTy.bits .bf16 = 32 ∨ (Rect.block (s := S606208x128) S8192x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x128.size a ≤ S606208x128.size a
  hwx3_2 : ∀ i : grid3.Coords, EltTy.bits .bf16 = 32 ∨ (Rect.block (s := S606208x128) S8192x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8192.size a ≤ S606208.size a
  hwx3_5 : ∀ i : grid3.Coords, EltTy.bits .f32 = 32 ∨ (Rect.block (s := S606208) S8192.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def gather_S64x128_S606208x1_S606208x128_1_0_n_n_0_1_1128 : GatherDims S64x128 S606208x1 S606208x128 where
  offsetDims := [1]
  collapsedSliceDims := [0]
  operandBatchingDims := []
  startIndicesBatchingDims := []
  startIndexMap := [0]
  indexVectorDim := 1
  sliceSizes := ![1, 128]
  wf := gather_S64x128_S606208x1_S606208x128_1_0_n_n_0_1_1128_wf
def gather_S100000x128_S606208x1_S606208x128_1_0_n_n_0_1_1128 : GatherDims S100000x128 S606208x1 S606208x128 where
  offsetDims := [1]
  collapsedSliceDims := [0]
  operandBatchingDims := []
  startIndicesBatchingDims := []
  startIndexMap := [0]
  indexVectorDim := 1
  sliceSizes := ![1, 128]
  wf := gather_S100000x128_S606208x1_S606208x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S100001_S606208x1_S606208_n_0_0_1 : ScatterDims S100001 S606208x1 S606208 where
  updateWindowDims := []
  insertedWindowDims := [0]
  scatterDimsToOperandDims := [0]
  indexVectorDim := 1
  wf := scatter_S100001_S606208x1_S606208_n_0_0_1_wf
def gather_S100001_S606208x1_S606208_n_0_n_n_0_1_1 : GatherDims S100001 S606208x1 S606208 where
  offsetDims := []
  collapsedSliceDims := [0]
  operandBatchingDims := []
  startIndicesBatchingDims := []
  startIndexMap := [0]
  indexVectorDim := 1
  sliceSizes := ![1]
  wf := gather_S100001_S606208x1_S606208_n_0_n_n_0_1_1_wf
def scatter_S100001x128_S606208x1_S606208x128_1_0_0_1 : ScatterDims S100001x128 S606208x1 S606208x128 where
  updateWindowDims := [1]
  insertedWindowDims := [0]
  scatterDimsToOperandDims := [0]
  indexVectorDim := 1
  wf := scatter_S100001x128_S606208x1_S606208x128_1_0_0_1_wf

abbrev win0_0 : Pipeline.Window sig grid0 :=
  Pipeline.Window.ofSpec (Memref.whole main_v27) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v74) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S8192x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S8192x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v92) S8192.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v74) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v126) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v131) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v130) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v132) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where
  halias1_2 : Pipeline.Aliased win1 0 2
  halias2_2 : Pipeline.Aliased win2 0 2
  halias4_2 : Pipeline.Aliased win4 0 2
  halias5_2 : Pipeline.Aliased win5 0 2

variable [Facts]
-- ==== ReferenceIdeal.lean ====
abbrev S100000x128 : Shape := ⟨2, ![100000, 128]⟩
abbrev S64x128 : Shape := ⟨2, ![64, 128]⟩
abbrev S256x128 : Shape := ⟨2, ![256, 128]⟩
abbrev S2x600000 : Shape := ⟨2, ![2, 600000]⟩
abbrev S600000 : Shape := ⟨1, ![600000]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S100000 : Shape := ⟨1, ![100000]⟩
abbrev S100000x1 : Shape := ⟨2, ![100000, 1]⟩

abbrev nBuf : Space → Nat
  | .hbm => 213
  | .vmem => 0
  | .smem => 0
  | _ => 0

abbrev hbmTy0_0 (i : Nat) : BufTy := match i % 128 with
  | 0 => ⟨S100000x128, .f32⟩
  | 1 => ⟨S64x128, .f32⟩
  | 2 => ⟨S100000x128, .f32⟩
  | 3 => ⟨S256x128, .f32⟩
  | 4 => ⟨S2x600000, .i32⟩
  | 5 => ⟨S600000, .i32⟩
  | 6 => ⟨S1x600000, .i32⟩
  | 7 => ⟨S600000, .i32⟩
  | 8 => ⟨S1x600000, .i32⟩
  | 9 => ⟨S600000, .i32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S600000x256, .f32⟩
  | 38 => ⟨S600000x128, .f32⟩
  | 39 => ⟨S600000x128, .f32⟩
  | 40 => ⟨S_, .f32⟩
  | 41 => ⟨S600000, .f32⟩
  | 42 => ⟨S_, .f32⟩
  | 43 => ⟨S600000, .f32⟩
  | 44 => ⟨S600000, .i1⟩
  | 45 => ⟨S_, .f32⟩
  | 46 => ⟨S600000, .f32⟩
  | 47 => ⟨S600000, .f32⟩
  | 48 => ⟨S600000, .f32⟩
  | 49 => ⟨S600000, .f32⟩
  | 50 => ⟨S_, .f32⟩
  | 51 => ⟨S100000, .f32⟩
  | 52 => ⟨S600000x1, .i32⟩
  | 53 => ⟨S100000, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000, .f32⟩
  | 63 => ⟨S600000, .f32⟩
  | 64 => ⟨S600000x1, .f32⟩
  | 65 => ⟨S600000x128, .f32⟩
  | 66 => ⟨S600000x128, .f32⟩
  | 67 => ⟨S_, .f32⟩
  | 68 => ⟨S100000x128, .f32⟩
  | 69 => ⟨S600000x1, .i32⟩
  | 70 => ⟨S100000x128, .f32⟩
  | 71 => ⟨S100000x128, .f32⟩
  | 72 => ⟨S_, .f32⟩
  | 73 => ⟨S100000, .f32⟩
  | 74 => ⟨S600000x1, .i32⟩
  | 75 => ⟨S100000, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000, .f32⟩
  | 85 => ⟨S600000, .f32⟩
  | 86 => ⟨S600000x1, .f32⟩
  | 87 => ⟨S600000x128, .f32⟩
  | 88 => ⟨S600000x128, .f32⟩
  | 89 => ⟨S_, .f32⟩
  | 90 => ⟨S100000x128, .f32⟩
  | 91 => ⟨S600000x1, .i32⟩
  | 92 => ⟨S100000x128, .f32⟩
  | 93 => ⟨S100000x128, .f32⟩
  | 94 => ⟨S100000x128, .f32⟩
  | 95 => ⟨S_, .f32⟩
  | 96 => ⟨S100000, .f32⟩
  | 97 => ⟨S100000x1, .f32⟩
  | 98 => ⟨S100000x1, .f32⟩
  | 99 => ⟨S_, .f32⟩
  | 100 => ⟨S100000x1, .f32⟩
  | 101 => ⟨S100000x1, .f32⟩
  | 102 => ⟨S100000x128, .f32⟩
  | 103 => ⟨S100000x128, .f32⟩
  | 104 => ⟨S100000x128, .f32⟩
  | 105 => ⟨S_, .f32⟩
  | 106 => ⟨S100000, .f32⟩
  | 107 => ⟨S100000x1, .f32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S100000x128, .f32⟩
  | 115 => ⟨S100000x128, .f32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x128, .f32⟩
  | 125 => ⟨S_, .i32⟩
  | 126 => ⟨S600000, .i32⟩
  | 127 => ⟨S600000, .i1⟩
  | _ => ⟨S100000x128, .f32⟩

abbrev hbmTy0_1 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .f32⟩
  | 6 => ⟨S600000x256, .f32⟩
  | 7 => ⟨S600000x128, .f32⟩
  | 8 => ⟨S600000x128, .f32⟩
  | 9 => ⟨S_, .f32⟩
  | 10 => ⟨S600000, .f32⟩
  | 11 => ⟨S_, .f32⟩
  | 12 => ⟨S600000, .f32⟩
  | 13 => ⟨S600000, .i1⟩
  | 14 => ⟨S_, .f32⟩
  | 15 => ⟨S600000, .f32⟩
  | 16 => ⟨S600000, .f32⟩
  | 17 => ⟨S600000, .f32⟩
  | 18 => ⟨S600000, .f32⟩
  | 19 => ⟨S_, .f32⟩
  | 20 => ⟨S100000, .f32⟩
  | 21 => ⟨S600000x1, .i32⟩
  | 22 => ⟨S100000, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000, .f32⟩
  | 32 => ⟨S600000, .f32⟩
  | 33 => ⟨S600000x1, .f32⟩
  | 34 => ⟨S600000x128, .f32⟩
  | 35 => ⟨S600000x128, .f32⟩
  | 36 => ⟨S_, .f32⟩
  | 37 => ⟨S100000x128, .f32⟩
  | 38 => ⟨S600000x1, .i32⟩
  | 39 => ⟨S100000x128, .f32⟩
  | 40 => ⟨S100000x128, .f32⟩
  | 41 => ⟨S_, .f32⟩
  | 42 => ⟨S100000, .f32⟩
  | 43 => ⟨S600000x1, .i32⟩
  | 44 => ⟨S100000, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000, .f32⟩
  | 54 => ⟨S600000, .f32⟩
  | 55 => ⟨S600000x1, .f32⟩
  | 56 => ⟨S600000x128, .f32⟩
  | 57 => ⟨S600000x128, .f32⟩
  | 58 => ⟨S_, .f32⟩
  | 59 => ⟨S100000x128, .f32⟩
  | 60 => ⟨S600000x1, .i32⟩
  | 61 => ⟨S100000x128, .f32⟩
  | 62 => ⟨S100000x128, .f32⟩
  | 63 => ⟨S100000x128, .f32⟩
  | 64 => ⟨S_, .f32⟩
  | 65 => ⟨S100000, .f32⟩
  | 66 => ⟨S100000x1, .f32⟩
  | 67 => ⟨S100000x1, .f32⟩
  | 68 => ⟨S_, .f32⟩
  | 69 => ⟨S100000x1, .f32⟩
  | 70 => ⟨S100000x1, .f32⟩
  | 71 => ⟨S100000x128, .f32⟩
  | 72 => ⟨S100000x128, .f32⟩
  | 73 => ⟨S100000x128, .f32⟩
  | 74 => ⟨S_, .f32⟩
  | 75 => ⟨S100000, .f32⟩
  | 76 => ⟨S100000x1, .f32⟩
  | 77 => ⟨S100000x1, .f32⟩
  | 78 => ⟨S_, .f32⟩
  | 79 => ⟨S100000x1, .f32⟩
  | 80 => ⟨S100000x1, .f32⟩
  | 81 => ⟨S100000x128, .f32⟩
  | 82 => ⟨S100000x128, .f32⟩
  | 83 => ⟨S100000x128, .f32⟩
  | 84 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_c_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call1_v0 : Ref sig .tc := ⟨.hbm, 94, rfl⟩
abbrev main_call1_cst : Ref sig .tc := ⟨.hbm, 95, rfl⟩
abbrev main_call1_v1 : Ref sig .tc := ⟨.hbm, 96, rfl⟩
abbrev main_call1_v2 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_call2_v0 : Ref sig .tc := ⟨.hbm, 104, rfl⟩
abbrev main_call2_cst : Ref sig .tc := ⟨.hbm, 105, rfl⟩
abbrev main_call2_v1 : Ref sig .tc := ⟨.hbm, 106, rfl⟩
abbrev main_call2_v2 : Ref sig .tc := ⟨.hbm, 107, rfl⟩
abbrev main_v76 : Ref sig .tc := ⟨.hbm, 108, rfl⟩
abbrev main_cst_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_17 : Ref sig .tc := ⟨.hbm, 116, rfl⟩
abbrev main_v83 : Ref sig .tc := ⟨.hbm, 117, rfl⟩
abbrev main_v84 : Ref sig .tc := ⟨.hbm, 118, rfl⟩
abbrev main_c_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_19 : Ref sig .tc := ⟨.hbm, 125, rfl⟩
abbrev main_v90 : Ref sig .tc := ⟨.hbm, 126, rfl⟩
abbrev main_v91 : Ref sig .tc := ⟨.hbm, 127, rfl⟩
abbrev main_c_20 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_21 : Ref sig .tc := ⟨.hbm, 137, rfl⟩
abbrev main_v100 : Ref sig .tc := ⟨.hbm, 138, rfl⟩
abbrev main_cst_22 : Ref sig .tc := ⟨.hbm, 139, rfl⟩
abbrev main_v101 : Ref sig .tc := ⟨.hbm, 140, rfl⟩
abbrev main_v102 : Ref sig .tc := ⟨.hbm, 141, rfl⟩
abbrev main_cst_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_24 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_25 : Ref sig .tc := ⟨.hbm, 151, rfl⟩
abbrev main_v110 : Ref sig .tc := ⟨.hbm, 152, rfl⟩
abbrev main_v111 : Ref sig .tc := ⟨.hbm, 153, rfl⟩
abbrev main_c_26 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_27 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_28 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_c_29 : Ref sig .tc := ⟨.hbm, 173, rfl⟩
abbrev main_v128 : Ref sig .tc := ⟨.hbm, 174, rfl⟩
abbrev main_v129 : Ref sig .tc := ⟨.hbm, 175, rfl⟩
abbrev main_c_30 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_31 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_call4_v0 : Ref sig .tc := ⟨.hbm, 191, rfl⟩
abbrev main_call4_cst : Ref sig .tc := ⟨.hbm, 192, rfl⟩
abbrev main_call4_v1 : Ref sig .tc := ⟨.hbm, 193, rfl⟩
abbrev main_call4_v2 : Ref sig .tc := ⟨.hbm, 194, rfl⟩
abbrev main_v143 : Ref sig .tc := ⟨.hbm, 195, rfl⟩
abbrev main_cst_32 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_call5_v0 : Ref sig .tc := ⟨.hbm, 201, rfl⟩
abbrev main_call5_cst : Ref sig .tc := ⟨.hbm, 202, rfl⟩
abbrev main_call5_v1 : Ref sig .tc := ⟨.hbm, 203, rfl⟩
abbrev main_call5_v2 : Ref sig .tc := ⟨.hbm, 204, rfl⟩
abbrev main_v148 : Ref sig .tc := ⟨.hbm, 205, rfl⟩
abbrev main_cst_33 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  reducesTo_S600000x128_S600000_d1 : S600000x128.ReducesTo [1] S600000
  h_S_ : 0 < S_.numel
  bcast_S_S100000 : S_.BroadcastsInDim S100000 (![] : Fin 0 → Fin S100000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S64x128_S600000x1_S600000x128_1_0_n_n_0_1_1128_wf : GatherDims.WF S64x128 S600000x1 S600000x128 [1] [0] [] [0] [] 1 ![1, 128]
  gather_S100000x128_S600000x1_S600000x128_1_0_n_n_0_1_1128_wf : GatherDims.WF S100000x128 S600000x1 S600000x128 [1] [0] [] [0] [] 1 ![1, 128]
  dot_S600000x256_S256x128_S600000x128_1_0_0_1_n_n_wf : DotDims.WF S600000x256 S256x128 S600000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  scatter_S100000x128_S600000x1_S600000x128_1_0_0_1_wf : ScatterDims.WF S100000x128 S600000x1 S600000x128 [1] [0] [0] 1

variable [Facts₀]

def gather_S64x128_S600000x1_S600000x128_1_0_n_n_0_1_1128 : GatherDims S64x128 S600000x1 S600000x128 where
  offsetDims := [1]
  collapsedSliceDims := [0]
  operandBatchingDims := []
  startIndicesBatchingDims := []
  startIndexMap := [0]
  indexVectorDim := 1
  sliceSizes := ![1, 128]
  wf := gather_S64x128_S600000x1_S600000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KernelRun.lean ====
/-
  The idealized kernel's run with its two result arrays named: every weakly fair execution ends with each result
  buffer at the last boundary's contents of the fold through the program's stretches and regions, and the six
  argument arrays as launched.
-/
import proofs.«131266_j69483980915102_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: both results at what the last region and the last stretch leave, the arguments unchanged. -/
theorem run_values : θ_run defs (onTc (τ := τ) (main (F := F))) ⟨m, fun _ => 0, ρ⟩ (fun r => ∀ c : Dev nD,
      r.2.mem ((c.tc : Thread nD τ).loc main_v131) = W22 m ρ c (Proc.devRef .tc main_v131)
      ∧ r.2.mem ((c.tc : Thread nD τ).loc main_v132) = W22 m ρ c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v131 (by decide)),
       h c _ (mem_uc main_v132 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c)⟩)

end Cert.KernelIdeal.RunValues

end
-- ==== Proof.Spec.lean ====
/-
  The mathematics both programs compute, as plain functions of the argument arrays.

  Nodes are the rows of two [100000, 128] tables (users, entities); an edge `e` of the 600000 names a user row
  `head e`, an entity row `tail e` and a relation row `etype e` by 32-bit signed integers. One hop:
    h_e = users[head e], t_e = entities[tail e], r_e = relations[etype e]          (rows read as a gather reads them)
    a_e = exp (leaky (∑_j (∑_k h_e[k]·W[k,j] + ∑_k t_e[k]·W[128+k,j]) · r_e[j]))
    users'[n]    = users[n]    + normalise (users[n]    + ∑_{e : head e = n} t_e · (a_e / D_head(head e)))
    entities'[n] = entities[n] + normalise (entities[n] + ∑_{e : tail e = n} h_e · (a_e / D_tail(tail e)))
  with D_head(n) = ∑_{e : head e = n} a_e, D_tail likewise, and normalise x = x / max(‖x‖₂, ε).
  The result is two hops. An index that names no row contributes to no sum (a scatter drops it); a gather reads
  the row it is wrapped (if negative) and then clamped to.
-/
import Idealize.ShloMosaic.PureOps.Ideal
import Idealize.ShloMosaic.Lib.ValueIdx

noncomputable section

namespace Cert.Rgat

open Idealize.ShloMosaic Idealize.ShloMosaic.ValueIdx

/-- A node table, `[100000, 128]`, row by row. -/
abbrev Tab := Fin 100000 → Fin 128 → EReal
/-- A per-edge table, `[600000, 128]`. -/
abbrev ETab := Fin 600000 → Fin 128 → EReal

/-- The smallest admissible norm, the f32 nearest 1e-8. -/
def eps : EReal := Ideal.ofBits .f32 0x322BCC77#32
/-- The slope of the leaky rectifier on the negative side, the f32 nearest 0.2. -/
def slope : EReal := Ideal.ofBits .f32 0x3E4CCCCD#32

/-- A negative index counts from the end of an axis of extent `n`. -/
def wrap (n : Nat) (v : BitVec 32) : BitVec 32 :=
  Scalar.select (IntOp.cmpi .slt v 0#32) (IntOp.addi v (BitVec.ofNat 32 n)) v

/-- The row of an axis of extent `n` that a gather reads at the index `v`: wrapped, read signed, clamped. -/
def row (n : Nat) (v : BitVec 32) : Nat := min (wrap n v).toInt.toNat (n - 1)

theorem row_lt {n : Nat} (hn : 0 < n) (v : BitVec 32) : row n v < n := by
  unfold row; omega

/-- The row of a table of `n` rows that a gather reads. -/
def rowFin (n : Nat) (hn : 0 < n) (v : BitVec 32) : Fin n := ⟨row n v, row_lt hn v⟩

/-- The leaky rectifier: `x` where positive, `slope · x` elsewhere. -/
def leaky (x : EReal) : EReal := Scalar.select (Ideal.cmp .ogt x 0) x (slope * x)

/-- Rows scaled to Euclidean length one (lengths under `eps` counted as `eps`) and added to the table:
    `all + (agg + all) / max (‖agg + all‖, eps)`, row by row. -/
def nodeUpd (all agg : Tab) : Tab := fun n k =>
  all n k + Ideal.div (agg n k + all n k)
    (max (Ideal.sqrt (∑ j : Fin 128, (agg n j + all n j) * (agg n j + all n j))) eps)

/-- An edge's attention weight before normalisation, from its three rows and the two `[128, 128]` halves of the matrix. -/
def attn2 (w1 w2 : Fin 128 → Fin 128 → EReal) (h t r : Fin 128 → EReal) : EReal :=
  Ideal.exp (leaky (∑ j : Fin 128, ((∑ k : Fin 128, h k * w1 k j) + (∑ k : Fin 128, t k * w2 k j)) * r j))

/-- The same from the whole `[256, 128]` matrix: its first 128 rows meet the user row, its last 128 the entity row. -/
def attn (W : Fin 256 → Fin 128 → EReal) (h t r : Fin 128 → EReal) : EReal :=
  attn2 (fun k j => W ⟨k.val, by omega⟩ j) (fun k j => W ⟨128 + k.val, by omega⟩ j) h t r

/-- The sum of a per-edge quantity over the edges whose index `ids e`, read signed and as it stands, is row `n`. -/
def seg (ids : Fin 600000 → BitVec 32) (x : Fin 600000 → EReal) (n : Fin 100000) : EReal :=
  ∑ e ∈ Finset.univ.filter (fun e : Fin 600000 => (ids e).toInt = (n.val : Int)), x e

/-- The fixed arguments of a hop: each edge's relation row, the matrix, and the two index lists. -/
structure Graph where
  rE : ETab
  W : Fin 256 → Fin 128 → EReal
  head : Fin 600000 → BitVec 32
  tail : Fin 600000 → BitVec 32

namespace Graph
variable (G : Graph)

/-- The user row each edge reads. -/
def hU (u : Tab) : ETab := fun e => u (rowFin 100000 (by decide) (G.head e))
/-- The entity row each edge reads. -/
def tE (v : Tab) : ETab := fun e => v (rowFin 100000 (by decide) (G.tail e))
/-- Each edge's weight. -/
def a (u v : Tab) (e : Fin 600000) : EReal := attn G.W (G.hU u e) (G.tE v e) (G.rE e)
/-- An edge's weight over the total weight of its user row's edges. -/
def eU (u v : Tab) (e : Fin 600000) : EReal :=
  Ideal.div (G.a u v e) (seg G.head (G.a u v) (rowFin 100000 (by decide) (G.head e)))
/-- An edge's weight over the total weight of its entity row's edges. -/
def eI (u v : Tab) (e : Fin 600000) : EReal :=
  Ideal.div (G.a u v e) (seg G.tail (G.a u v) (rowFin 100000 (by decide) (G.tail e)))
/-- What the edges send to each user row. -/
def aggU (u v : Tab) : Tab := fun n k => seg G.head (fun e => G.tE v e k * G.eU u v e) n
/-- What the edges send to each entity row. -/
def aggI (u v : Tab) : Tab := fun n k => seg G.tail (fun e => G.hU u e k * G.eI u v e) n
/-- One hop on the two tables. -/
def hop (uv : Tab × Tab) : Tab × Tab :=
  (nodeUpd uv.1 (G.aggU uv.1 uv.2), nodeUpd uv.2 (G.aggI uv.1 uv.2))

end Graph

/-- A `[100000, 128]` array as a table and back. -/
def toTab (x : (⟨2, ![100000, 128]⟩ : Shape).Idx → EReal) : Tab := fun n k => x (ix2 n k)
def ofTab (f : Tab) : (⟨2, ![100000, 128]⟩ : Shape).Idx → EReal := fun i => f (i 0) (i 1)

theorem ofTab_toTab (x : (⟨2, ![100000, 128]⟩ : Shape).Idx → EReal) : ofTab (toTab x) = x := by
  funext i; exact congrArg x (eq_ix2 i).symm

/-- The graph the six argument arrays describe. -/
def graphOf (rel : (⟨2, ![64, 128]⟩ : Shape).Idx → EReal) (W : (⟨2, ![256, 128]⟩ : Shape).Idx → EReal)
    (ei : (⟨2, ![2, 600000]⟩ : Shape).Idx → BitVec 32) (et : (⟨1, ![600000]⟩ : Shape).Idx → BitVec 32) : Graph where
  rE := fun e k => rel (ix2 (rowFin 64 (by decide) (et (ix1 e))) k)
  W := fun r k => W (ix2 r k)
  head := fun e => ei (ix2 0 e)
  tail := fun e => ei (ix2 1 e)

/-- Both results: two hops from the argument tables. -/
def result (usr ent : (⟨2, ![100000, 128]⟩ : Shape).Idx → EReal) (rel : (⟨2, ![64, 128]⟩ : Shape).Idx → EReal)
    (W : (⟨2, ![256, 128]⟩ : Shape).Idx → EReal) (ei : (⟨2, ![2, 600000]⟩ : Shape).Idx → BitVec 32)
    (et : (⟨1, ![600000]⟩ : Shape).Idx → BitVec 32) : Tab × Tab :=
  (graphOf rel W ei et).hop ((graphOf rel W ei et).hop (toTab usr, toTab ent))

end Cert.Rgat

end
-- ==== Proof.KernelHop.lean ====
/-
  One hop of the idealized kernel as a function of whole arrays, in the program's own host operations around its
  three kernels' results: the index lists padded to 606208 entries (a gather index 0, a scatter index 100000 — the
  row past the last — on the padding), the rows the padded edges read, the edge kernel's weights, the weights' shares
  of their rows' totals over 100001 rows, what the edges send to each of 100001 rows cut back to 100000, and the node
  kernel's rescaled sum.
-/
import proofs.«131266_j69483980915102_2_alg».proof.Proof.Gen.KernelIdeal
import proofs.«131266_j69483980915102_2_alg».proof.Proof.Spec

noncomputable section

namespace Cert.KernelIdeal.Hop

open Cert.KernelIdeal Cert.KernelIdeal.Gen Idealize.ShloMosaic Idealize.ShloMosaic.ValueIdx Cert.Rgat

/-- An index list padded with `c` to the edge kernel's 74 blocks of 8192. -/
def padTo (x : IVec S600000 32) (c : BitVec 32) : IVec S606208 32 :=
  pad S606208 ![0] ![6208] ![0] x (id (constantI S_ 32 c)) pads_S600000_S606208_062080 h_S_

/-- A padded index list as the column a gather from `n` rows reads: negative entries counted from the end. -/
def gcolP (n : BitVec 32) (x : IVec S606208 32) : IVec S606208x1 32 :=
  broadcastInDim S606208x1 ![0] bcast_S606208_S606208x1_0
    (select (cmpi .slt x (broadcastInDim S606208 ![] bcast_S_S606208 (constantI S_ 32 0#32)))
      (addi x (broadcastInDim S606208 ![] bcast_S_S606208 (constantI S_ 32 n))) x)

/-- A padded index list as the column a scatter reads: as it stands. -/
def scolP (x : IVec S606208 32) : IVec S606208x1 32 := broadcastInDim S606208x1 ![0] bcast_S606208_S606208x1_0 x

/-- The rows of a node table the padded edges read (the table narrowed to bf16 first: the identity here). -/
def rowsP (u : FVec Ideal S100000x128 .f32) (x : IVec S606208 32) : FVec Ideal S606208x128 .bf16 :=
  Host.gather gather_S100000x128_S606208x1_S606208x128_1_0_n_n_0_1_1128 (truncf .bf16 u bitsLt_bf16_f32) (gcolP 100000#32 x)

/-- Each padded edge's relation row. -/
def relP (rel : FVec Ideal S64x128 .f32) (et : IVec S606208 32) : FVec Ideal S606208x128 .bf16 :=
  Host.gather gather_S64x128_S606208x1_S606208x128_1_0_n_n_0_1_1128 (truncf .bf16 rel bitsLt_bf16_f32) (gcolP 64#32 et)

/-- The edge kernel's result: each padded edge's weight from its three rows and the two halves of the matrix. -/
def edgeArr (h t r : FVec Ideal S606208x128 .bf16) (w1 w2 : FVec Ideal S128x128 .f32) : FVec Ideal S606208 .f32 :=
  fun i => attn2 (fun k j => w1 (ix2 k j)) (fun k j => w2 (ix2 k j)) (fun k => h (ix2 (i 0) k)) (fun k => t (ix2 (i 0) k))
    (fun k => r (ix2 (i 0) k))

/-- The node kernel's result. -/
def nodeArr (all agg : FVec Ideal S100000x128 .f32) : FVec Ideal S100000x128 .f32 := ofTab (nodeUpd (toTab all) (toTab agg))

/-- Each padded edge's weight over the total weight of the edges of its row, over 100001 rows. -/
def shareP (a : FVec Ideal S606208 .f32) (x : IVec S606208 32) : FVec Ideal S606208 .f32 :=
  Host.divf a (Host.gather gather_S100001_S606208x1_S606208_n_0_n_n_0_1_1
    (Host.scatterAdd scatter_S100001_S606208x1_S606208_n_0_0_1
      (broadcastInDim S100001 ![] bcast_S_S100001 (constant S_ .f32 0x00000000#32)) (scolP x) a) (gcolP 100001#32 x))

/-- What the padded edges send to each of 100001 rows, the last row cut off. -/
def spreadP (r : FVec Ideal S606208x128 .bf16) (s : FVec Ideal S606208 .f32) (x : IVec S606208 32) : FVec Ideal S100000x128 .f32 :=
  extractStridedSlice S100000x128 ![0, 0]
    (Host.scatterAdd scatter_S100001x128_S606208x1_S606208x128_1_0_0_1
      (broadcastInDim S100001x128 ![] bcast_S_S100001x128 (constant S_ .f32 0x00000000#32)) (scolP x)
      (mulf (extf .f32 r bitsLt_bf16_f32)
        (broadcastInDim S606208x128 ![0, 1] bcast_S606208x1_S606208x128_0_1 (broadcastInDim S606208x1 ![0] bcast_S606208_S606208x1_0 s))))
    slices_S100001x128_S100000x128_0_0

/-- The fixed arrays of a hop: the four padded index lists, the padded edges' relation rows, the matrix's halves. -/
structure Fixed where
  hdG : IVec S606208 32
  tlG : IVec S606208 32
  hdS : IVec S606208 32
  tlS : IVec S606208 32
  relE : FVec Ideal S606208x128 .bf16
  w1 : FVec Ideal S128x128 .f32
  w2 : FVec Ideal S128x128 .f32

/-- The user-row index list, out of the `[2, 600000]` argument. -/
def headK (ei : IVec S2x600000 32) : IVec S600000 32 :=
  shapeCast _ (extractStridedSlice S1x600000 ![0, 0] ei slices_S2x600000_S1x600000_0_0) shapeCasts_S1x600000_S600000
/-- The entity-row index list. -/
def tailK (ei : IVec S2x600000 32) : IVec S600000 32 :=
  shapeCast _ (extractStridedSlice S1x600000 ![1, 0] ei slices_S2x600000_S1x600000_1_0) shapeCasts_S1x600000_S600000

/-- The arrays both hops read, from the relation table, the matrix and the two index arguments. -/
def fixedArgs (rel : FVec Ideal S64x128 .f32) (W : FVec Ideal S256x128 .f32) (ei : IVec S2x600000 32) (et : IVec S600000 32) : Fixed where
  hdG := padTo (headK ei) 0#32
  tlG := padTo (tailK ei) 0#32
  hdS := padTo (headK ei) 100000#32
  tlS := padTo (tailK ei) 100000#32
  relE := relP rel (padTo et 0#32)
  w1 := extractStridedSlice S128x128 ![0, 0] W slices_S256x128_S128x128_0_0
  w2 := extractStridedSlice S128x128 ![128, 0] W slices_S256x128_S128x128_128_0

/-- The padded edges' weights. -/
def weights (X : Fixed) (u v : FVec Ideal S100000x128 .f32) : FVec Ideal S606208 .f32 :=
  edgeArr (rowsP u X.hdG) (rowsP v X.tlG) X.relE X.w1 X.w2

/-- The user table after one hop. -/
def hopU (X : Fixed) (u v : FVec Ideal S100000x128 .f32) : FVec Ideal S100000x128 .f32 :=
  nodeArr u (spreadP (rowsP v X.tlG) (shareP (weights X u v) X.hdS) X.hdS)

/-- The entity table after one hop. -/
def hopI (X : Fixed) (u v : FVec Ideal S100000x128 .f32) : FVec Ideal S100000x128 .f32 :=
  nodeArr v (spreadP (rowsP u X.hdG) (shareP (weights X u v) X.tlS) X.tlS)

end Cert.KernelIdeal.Hop

end
-- ==== Proof.KernelStages.lean ====
/-
  The idealized kernel's buffers at each boundary between its stretches of host operations and its six kernels,
  followed from the launch to the return: the padded index lists, relation rows and matrix halves are fixed before the
  first kernel and kept; each pass through an edge kernel, the sums by row, and the two node kernels is one hop on the
  two tables. The six kernels' results are taken as hypotheses here, each the stated function of its entry arrays.
-/
import proofs.«131266_j69483980915102_2_alg».proof.Proof.KernelRun
import proofs.«131266_j69483980915102_2_alg».proof.Proof.KernelHop

set_option maxRecDepth 16384

noncomputable section

namespace Cert.KernelIdeal.Stages

open Cert.KernelIdeal Cert.KernelIdeal.Gen Cert.KernelIdeal.Hop Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The arrays both hops read, from the launch contents. -/
abbrev fixedOf : Fixed :=
  fixedArgs (m ((c : Thread nD τ).loc main_arg1)) (m ((c : Thread nD τ).loc main_arg3)) (m ((c : Thread nD τ).loc main_arg4)) (m ((c : Thread nD τ).loc main_arg5))

/-- A buffer that no operation of a stretch writes keeps its contents through it. -/
local macro "not_written" : tactic => `(tactic| (
  refine StableHlo.after_of_forall_not_mem _ _ (List.forall_iff_forall_mem.mp ?_)
  simp only [hostOps1, hostOps2, hostOps3, hostOps4, hostOps5, List.Forall, StableHlo.nullary_writes, StableHlo.unary_writes,
    StableHlo.binary_writes, StableHlo.ternary_writes, StableHlo.quaternary_writes, StableHlo.reshape_writes, Finset.mem_singleton]
  repeat' apply And.intro
  all_goals exact StableHlo.devRef_ne_of_ne (by decide)))

/-! ## Before the first kernel -/

set_option maxHeartbeats 4000000 in
theorem at11_v4 : W11 m ρ c (Proc.devRef .tc main_v4) = (fixedOf m c).hdG := by
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results_simp <;> rfl
set_option maxHeartbeats 4000000 in
theorem at11_v5 : W11 m ρ c (Proc.devRef .tc main_v5) = (fixedOf m c).tlG := by
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results_simp <;> rfl
set_option maxHeartbeats 4000000 in
theorem at11_v7 : W11 m ρ c (Proc.devRef .tc main_v7) = (fixedOf m c).hdS := by
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results_simp <;> rfl
set_option maxHeartbeats 4000000 in
theorem at11_v8 : W11 m ρ c (Proc.devRef .tc main_v8) = (fixedOf m c).tlS := by
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results_simp <;> rfl
set_option maxHeartbeats 4000000 in
theorem at11_v9 : W11 m ρ c (Proc.devRef .tc main_v9) = (fixedOf m c).w1 := by
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results_simp <;> rfl
set_option maxHeartbeats 4000000 in
theorem at11_v10 : W11 m ρ c (Proc.devRef .tc main_v10) = (fixedOf m c).w2 := by
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results_simp <;> rfl
set_option maxHeartbeats 4000000 in
theorem at11_v18 : W11 m ρ c (Proc.devRef .tc main_v18) = (fixedOf m c).relE := by
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results_simp <;> rfl
set_option maxHeartbeats 4000000 in
theorem at11_v27 : W11 m ρ c (Proc.devRef .tc main_v27) = rowsP (m ((c : Thread nD τ).loc main_arg0)) (fixedOf m c).hdG := by
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results_simp <;> rfl
set_option maxHeartbeats 4000000 in
theorem at11_v34 : W11 m ρ c (Proc.devRef .tc main_v34) = rowsP (m ((c : Thread nD τ).loc main_arg2)) (fixedOf m c).tlG := by
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results_simp <;> rfl
set_option maxHeartbeats 4000000 in
theorem at11_arg0 : W11 m ρ c (Proc.devRef .tc main_arg0) = m ((c : Thread nD τ).loc main_arg0) := by
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results_simp <;> rfl
set_option maxHeartbeats 4000000 in
theorem at11_arg2 : W11 m ρ c (Proc.devRef .tc main_arg2) = m ((c : Thread nD τ).loc main_arg2) := by
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results_simp <;> rfl

/-! ## What each later stretch and kernel leaves alone -/

theorem keep_v74_16 : W16 m ρ c (Proc.devRef .tc main_v74) = W15 m ρ c (Proc.devRef .tc main_v74) :=
  W16_of_ne m ρ c main_v74 (by decide)
theorem keep_v74_15 : W15 m ρ c (Proc.devRef .tc main_v74) = W14 m ρ c (Proc.devRef .tc main_v74) := by
  show StableHlo.after hostOps2 (W14 m ρ c) (Proc.devRef .tc main_v74) = _
  not_written
theorem keep_arg0_13 : W13 m ρ c (Proc.devRef .tc main_arg0) = W12 m ρ c (Proc.devRef .tc main_arg0) := by
  show StableHlo.after hostOps1 (W12 m ρ c) (Proc.devRef .tc main_arg0) = _
  not_written
theorem keep_arg0_12 : W12 m ρ c (Proc.devRef .tc main_arg0) = W11 m ρ c (Proc.devRef .tc main_arg0) :=
  W12_of_ne m ρ c main_arg0 (by decide)
theorem keep_arg2_15 : W15 m ρ c (Proc.devRef .tc main_arg2) = W14 m ρ c (Proc.devRef .tc main_arg2) := by
  show StableHlo.after hostOps2 (W14 m ρ c) (Proc.devRef .tc main_arg2) = _
  not_written
theorem keep_arg2_14 : W14 m ρ c (Proc.devRef .tc main_arg2) = W13 m ρ c (Proc.devRef .tc main_arg2) :=
  W14_of_ne m ρ c main_arg2 (by decide)
theorem keep_arg2_13 : W13 m ρ c (Proc.devRef .tc main_arg2) = W12 m ρ c (Proc.devRef .tc main_arg2) := by
  show StableHlo.after hostOps1 (W12 m ρ c) (Proc.devRef .tc main_arg2) = _
  not_written
theorem keep_arg2_12 : W12 m ρ c (Proc.devRef .tc main_arg2) = W11 m ρ c (Proc.devRef .tc main_arg2) :=
  W12_of_ne m ρ c main_arg2 (by decide)
theorem keep_v73_15 : W15 m ρ c (Proc.devRef .tc main_v73) = W14 m ρ c (Proc.devRef .tc main_v73) := by
  show StableHlo.after hostOps2 (W14 m ρ c) (Proc.devRef .tc main_v73) = _
  not_written
theorem keep_v73_14 : W14 m ρ c (Proc.devRef .tc main_v73) = W13 m ρ c (Proc.devRef .tc main_v73) :=
  W14_of_ne m ρ c main_v73 (by decide)
theorem keep_v34_12 : W12 m ρ c (Proc.devRef .tc main_v34) = W11 m ρ c (Proc.devRef .tc main_v34) :=
  (W12_arr m ρ c 1).trans (((dat0 (V11 m ρ) c).arrAt_in 1 rfl cfg0.N).trans (A_eq0 (V11 m ρ) c 1))
theorem keep_v27_12 : W12 m ρ c (Proc.devRef .tc main_v27) = W11 m ρ c (Proc.devRef .tc main_v27) :=
  (W12_arr m ρ c 0).trans (((dat0 (V11 m ρ) c).arrAt_in 0 rfl cfg0.N).trans (A_eq0 (V11 m ρ) c 0))
theorem keep_v4_16 : W16 m ρ c (Proc.devRef .tc main_v4) = W15 m ρ c (Proc.devRef .tc main_v4) :=
  W16_of_ne m ρ c main_v4 (by decide)
theorem keep_v4_15 : W15 m ρ c (Proc.devRef .tc main_v4) = W14 m ρ c (Proc.devRef .tc main_v4) := by
  show StableHlo.after hostOps2 (W14 m ρ c) (Proc.devRef .tc main_v4) = _
  not_written
theorem keep_v4_14 : W14 m ρ c (Proc.devRef .tc main_v4) = W13 m ρ c (Proc.devRef .tc main_v4) :=
  W14_of_ne m ρ c main_v4 (by decide)
theorem keep_v4_13 : W13 m ρ c (Proc.devRef .tc main_v4) = W12 m ρ c (Proc.devRef .tc main_v4) := by
  show StableHlo.after hostOps1 (W12 m ρ c) (Proc.devRef .tc main_v4) = _
  not_written
theorem keep_v4_12 : W12 m ρ c (Proc.devRef .tc main_v4) = W11 m ρ c (Proc.devRef .tc main_v4) :=
  W12_of_ne m ρ c main_v4 (by decide)
theorem keep_v5_16 : W16 m ρ c (Proc.devRef .tc main_v5) = W15 m ρ c (Proc.devRef .tc main_v5) :=
  W16_of_ne m ρ c main_v5 (by decide)
theorem keep_v5_15 : W15 m ρ c (Proc.devRef .tc main_v5) = W14 m ρ c (Proc.devRef .tc main_v5) := by
  show StableHlo.after hostOps2 (W14 m ρ c) (Proc.devRef .tc main_v5) = _
  not_written
theorem keep_v5_14 : W14 m ρ c (Proc.devRef .tc main_v5) = W13 m ρ c (Proc.devRef .tc main_v5) :=
  W14_of_ne m ρ c main_v5 (by decide)
theorem keep_v5_13 : W13 m ρ c (Proc.devRef .tc main_v5) = W12 m ρ c (Proc.devRef .tc main_v5) := by
  show StableHlo.after hostOps1 (W12 m ρ c) (Proc.devRef .tc main_v5) = _
  not_written
theorem keep_v5_12 : W12 m ρ c (Proc.devRef .tc main_v5) = W11 m ρ c (Proc.devRef .tc main_v5) :=
  W12_of_ne m ρ c main_v5 (by decide)
theorem keep_v7_16 : W16 m ρ c (Proc.devRef .tc main_v7) = W15 m ρ c (Proc.devRef .tc main_v7) :=
  W16_of_ne m ρ c main_v7 (by decide)
theorem keep_v7_15 : W15 m ρ c (Proc.devRef .tc main_v7) = W14 m ρ c (Proc.devRef .tc main_v7) := by
  show StableHlo.after hostOps2 (W14 m ρ c) (Proc.devRef .tc main_v7) = _
  not_written
theorem keep_v7_14 : W14 m ρ c (Proc.devRef .tc main_v7) = W13 m ρ c (Proc.devRef .tc main_v7) :=
  W14_of_ne m ρ c main_v7 (by decide)
theorem keep_v7_13 : W13 m ρ c (Proc.devRef .tc main_v7) = W12 m ρ c (Proc.devRef .tc main_v7) := by
  show StableHlo.after hostOps1 (W12 m ρ c) (Proc.devRef .tc main_v7) = _
  not_written
theorem keep_v7_12 : W12 m ρ c (Proc.devRef .tc main_v7) = W11 m ρ c (Proc.devRef .tc main_v7) :=
  W12_of_ne m ρ c main_v7 (by decide)
theorem keep_v8_16 : W16 m ρ c (Proc.devRef .tc main_v8) = W15 m ρ c (Proc.devRef .tc main_v8) :=
  W16_of_ne m ρ c main_v8 (by decide)
theorem keep_v8_15 : W15 m ρ c (Proc.devRef .tc main_v8) = W14 m ρ c (Proc.devRef .tc main_v8) := by
  show StableHlo.after hostOps2 (W14 m ρ c) (Proc.devRef .tc main_v8) = _
  not_written
theorem keep_v8_14 : W14 m ρ c (Proc.devRef .tc main_v8) = W13 m ρ c (Proc.devRef .tc main_v8) :=
  W14_of_ne m ρ c main_v8 (by decide)
theorem keep_v8_13 : W13 m ρ c (Proc.devRef .tc main_v8) = W12 m ρ c (Proc.devRef .tc main_v8) := by
  show StableHlo.after hostOps1 (W12 m ρ c) (Proc.devRef .tc main_v8) = _
  not_written
theorem keep_v8_12 : W12 m ρ c (Proc.devRef .tc main_v8) = W11 m ρ c (Proc.devRef .tc main_v8) :=
  W12_of_ne m ρ c main_v8 (by decide)
theorem keep_v9_16 : W16 m ρ c (Proc.devRef .tc main_v9) = W15 m ρ c (Proc.devRef .tc main_v9) :=
  W16_of_ne m ρ c main_v9 (by decide)
theorem keep_v9_15 : W15 m ρ c (Proc.devRef .tc main_v9) = W14 m ρ c (Proc.devRef .tc main_v9) := by
  show StableHlo.after hostOps2 (W14 m ρ c) (Proc.devRef .tc main_v9) = _
  not_written
theorem keep_v9_14 : W14 m ρ c (Proc.devRef .tc main_v9) = W13 m ρ c (Proc.devRef .tc main_v9) :=
  W14_of_ne m ρ c main_v9 (by decide)
theorem keep_v9_13 : W13 m ρ c (Proc.devRef .tc main_v9) = W12 m ρ c (Proc.devRef .tc main_v9) := by
  show StableHlo.after hostOps1 (W12 m ρ c) (Proc.devRef .tc main_v9) = _
  not_written
theorem keep_v9_12 : W12 m ρ c (Proc.devRef .tc main_v9) = W11 m ρ c (Proc.devRef .tc main_v9) :=
  (W12_arr m ρ c 3).trans (((dat0 (V11 m ρ) c).arrAt_in 3 rfl cfg0.N).trans (A_eq0 (V11 m ρ) c 3))
theorem keep_v10_16 : W16 m ρ c (Proc.devRef .tc main_v10) = W15 m ρ c (Proc.devRef .tc main_v10) :=
  W16_of_ne m ρ c main_v10 (by decide)
theorem keep_v10_15 : W15 m ρ c (Proc.devRef .tc main_v10) = W14 m ρ c (Proc.devRef .tc main_v10) := by
  show StableHlo.after hostOps2 (W14 m ρ c) (Proc.devRef .tc main_v10) = _
  not_written
theorem keep_v10_14 : W14 m ρ c (Proc.devRef .tc main_v10) = W13 m ρ c (Proc.devRef .tc main_v10) :=
  W14_of_ne m ρ c main_v10 (by decide)
theorem keep_v10_13 : W13 m ρ c (Proc.devRef .tc main_v10) = W12 m ρ c (Proc.devRef .tc main_v10) := by
  show StableHlo.after hostOps1 (W12 m ρ c) (Proc.devRef .tc main_v10) = _
  not_written
theorem keep_v10_12 : W12 m ρ c (Proc.devRef .tc main_v10) = W11 m ρ c (Proc.devRef .tc main_v10) :=
  (W12_arr m ρ c 4).trans (((dat0 (V11 m ρ) c).arrAt_in 4 rfl cfg0.N).trans (A_eq0 (V11 m ρ) c 4))
theorem keep_v18_16 : W16 m ρ c (Proc.devRef .tc main_v18) = W15 m ρ c (Proc.devRef .tc main_v18) :=
  W16_of_ne m ρ c main_v18 (by decide)
theorem keep_v18_15 : W15 m ρ c (Proc.devRef .tc main_v18) = W14 m ρ c (Proc.devRef .tc main_v18) := by
  show StableHlo.after hostOps2 (W14 m ρ c) (Proc.devRef .tc main_v18) = _
  not_written
theorem keep_v18_14 : W14 m ρ c (Proc.devRef .tc main_v18) = W13 m ρ c (Proc.devRef .tc main_v18) :=
  W14_of_ne m ρ c main_v18 (by decide)
theorem keep_v18_13 : W13 m ρ c (Proc.devRef .tc main_v18) = W12 m ρ c (Proc.devRef .tc main_v18) := by
  show StableHlo.after hostOps1 (W12 m ρ c) (Proc.devRef .tc main_v18) = _
  not_written
theorem keep_v18_12 : W12 m ρ c (Proc.devRef .tc main_v18) = W11 m ρ c (Proc.devRef .tc main_v18) :=
  (W12_arr m ρ c 2).trans (((dat0 (V11 m ρ) c).arrAt_in 2 rfl cfg0.N).trans (A_eq0 (V11 m ρ) c 2))
theorem keep_v131_22 : W22 m ρ c (Proc.devRef .tc main_v131) = W21 m ρ c (Proc.devRef .tc main_v131) :=
  W22_of_ne m ρ c main_v131 (by decide)
theorem keep_v131_21 : W21 m ρ c (Proc.devRef .tc main_v131) = W20 m ρ c (Proc.devRef .tc main_v131) := by
  show StableHlo.after hostOps5 (W20 m ρ c) (Proc.devRef .tc main_v131) = _
  not_written
theorem keep_v74_19 : W19 m ρ c (Proc.devRef .tc main_v74) = W18 m ρ c (Proc.devRef .tc main_v74) := by
  show StableHlo.after hostOps4 (W18 m ρ c) (Proc.devRef .tc main_v74) = _
  not_written
theorem keep_v74_18 : W18 m ρ c (Proc.devRef .tc main_v74) = W17 m ρ c (Proc.devRef .tc main_v74) :=
  W18_of_ne m ρ c main_v74 (by decide)
theorem keep_v74_17 : W17 m ρ c (Proc.devRef .tc main_v74) = W16 m ρ c (Proc.devRef .tc main_v74) := by
  show StableHlo.after hostOps3 (W16 m ρ c) (Proc.devRef .tc main_v74) = _
  not_written
theorem keep_v91_18 : W18 m ρ c (Proc.devRef .tc main_v91) = W17 m ρ c (Proc.devRef .tc main_v91) :=
  (W18_arr m ρ c 1).trans (((dat3 (V17 m ρ) c).arrAt_in 1 rfl cfg3.N).trans (A_eq3 (V17 m ρ) c 1))
theorem keep_v84_18 : W18 m ρ c (Proc.devRef .tc main_v84) = W17 m ρ c (Proc.devRef .tc main_v84) :=
  (W18_arr m ρ c 0).trans (((dat3 (V17 m ρ) c).arrAt_in 0 rfl cfg3.N).trans (A_eq3 (V17 m ρ) c 0))
theorem keep_v7_18 : W18 m ρ c (Proc.devRef .tc main_v7) = W17 m ρ c (Proc.devRef .tc main_v7) :=
  W18_of_ne m ρ c main_v7 (by decide)
theorem keep_v7_17 : W17 m ρ c (Proc.devRef .tc main_v7) = W16 m ρ c (Proc.devRef .tc main_v7) := by
  show StableHlo.after hostOps3 (W16 m ρ c) (Proc.devRef .tc main_v7) = _
  not_written
theorem keep_v8_18 : W18 m ρ c (Proc.devRef .tc main_v8) = W17 m ρ c (Proc.devRef .tc main_v8) :=
  W18_of_ne m ρ c main_v8 (by decide)
theorem keep_v8_17 : W17 m ρ c (Proc.devRef .tc main_v8) = W16 m ρ c (Proc.devRef .tc main_v8) := by
  show StableHlo.after hostOps3 (W16 m ρ c) (Proc.devRef .tc main_v8) = _
  not_written
theorem keep_v18_17 : W17 m ρ c (Proc.devRef .tc main_v18) = W16 m ρ c (Proc.devRef .tc main_v18) := by
  show StableHlo.after hostOps3 (W16 m ρ c) (Proc.devRef .tc main_v18) = _
  not_written
theorem keep_v9_17 : W17 m ρ c (Proc.devRef .tc main_v9) = W16 m ρ c (Proc.devRef .tc main_v9) := by
  show StableHlo.after hostOps3 (W16 m ρ c) (Proc.devRef .tc main_v9) = _
  not_written
theorem keep_v10_17 : W17 m ρ c (Proc.devRef .tc main_v10) = W16 m ρ c (Proc.devRef .tc main_v10) := by
  show StableHlo.after hostOps3 (W16 m ρ c) (Proc.devRef .tc main_v10) = _
  not_written
theorem keep_v75_21 : W21 m ρ c (Proc.devRef .tc main_v75) = W20 m ρ c (Proc.devRef .tc main_v75) := by
  show StableHlo.after hostOps5 (W20 m ρ c) (Proc.devRef .tc main_v75) = _
  not_written
theorem keep_v75_20 : W20 m ρ c (Proc.devRef .tc main_v75) = W19 m ρ c (Proc.devRef .tc main_v75) :=
  W20_of_ne m ρ c main_v75 (by decide)
theorem keep_v75_19 : W19 m ρ c (Proc.devRef .tc main_v75) = W18 m ρ c (Proc.devRef .tc main_v75) := by
  show StableHlo.after hostOps4 (W18 m ρ c) (Proc.devRef .tc main_v75) = _
  not_written
theorem keep_v75_18 : W18 m ρ c (Proc.devRef .tc main_v75) = W17 m ρ c (Proc.devRef .tc main_v75) :=
  W18_of_ne m ρ c main_v75 (by decide)
theorem keep_v75_17 : W17 m ρ c (Proc.devRef .tc main_v75) = W16 m ρ c (Proc.devRef .tc main_v75) := by
  show StableHlo.after hostOps3 (W16 m ρ c) (Proc.devRef .tc main_v75) = _
  not_written
theorem keep_v130_21 : W21 m ρ c (Proc.devRef .tc main_v130) = W20 m ρ c (Proc.devRef .tc main_v130) := by
  show StableHlo.after hostOps5 (W20 m ρ c) (Proc.devRef .tc main_v130) = _
  not_written
theorem keep_v130_20 : W20 m ρ c (Proc.devRef .tc main_v130) = W19 m ρ c (Proc.devRef .tc main_v130) :=
  W20_of_ne m ρ c main_v130 (by decide)

/-! ## The host operations between the kernels -/

set_option maxHeartbeats 4000000 in
theorem at13_v69 : W13 m ρ c (Proc.devRef .tc main_v69) = spreadP (W12 m ρ c (Proc.devRef .tc main_v34)) (shareP (W12 m ρ c (Proc.devRef .tc main_v35)) (W12 m ρ c (Proc.devRef .tc main_v7))) (W12 m ρ c (Proc.devRef .tc main_v7)) := by
  show StableHlo.after hostOps1 (W12 m ρ c) (Proc.devRef .tc main_v69) = _
  dsimp only [hostOps1]
  after_results_simp <;> rfl
set_option maxHeartbeats 4000000 in
theorem at13_v73 : W13 m ρ c (Proc.devRef .tc main_v73) = spreadP (W12 m ρ c (Proc.devRef .tc main_v27)) (shareP (W12 m ρ c (Proc.devRef .tc main_v35)) (W12 m ρ c (Proc.devRef .tc main_v8))) (W12 m ρ c (Proc.devRef .tc main_v8)) := by
  show StableHlo.after hostOps1 (W12 m ρ c) (Proc.devRef .tc main_v73) = _
  dsimp only [hostOps1]
  after_results_simp <;> rfl
set_option maxHeartbeats 4000000 in
theorem at17_v84 : W17 m ρ c (Proc.devRef .tc main_v84) = rowsP (W16 m ρ c (Proc.devRef .tc main_v74)) (W16 m ρ c (Proc.devRef .tc main_v4)) := by
  show StableHlo.after hostOps3 (W16 m ρ c) (Proc.devRef .tc main_v84) = _
  dsimp only [hostOps3]
  after_results_simp <;> rfl
set_option maxHeartbeats 4000000 in
theorem at17_v91 : W17 m ρ c (Proc.devRef .tc main_v91) = rowsP (W16 m ρ c (Proc.devRef .tc main_v75)) (W16 m ρ c (Proc.devRef .tc main_v5)) := by
  show StableHlo.after hostOps3 (W16 m ρ c) (Proc.devRef .tc main_v91) = _
  dsimp only [hostOps3]
  after_results_simp <;> rfl
set_option maxHeartbeats 4000000 in
theorem at19_v126 : W19 m ρ c (Proc.devRef .tc main_v126) = spreadP (W18 m ρ c (Proc.devRef .tc main_v91)) (shareP (W18 m ρ c (Proc.devRef .tc main_v92)) (W18 m ρ c (Proc.devRef .tc main_v7))) (W18 m ρ c (Proc.devRef .tc main_v7)) := by
  show StableHlo.after hostOps4 (W18 m ρ c) (Proc.devRef .tc main_v126) = _
  dsimp only [hostOps4]
  after_results_simp <;> rfl
set_option maxHeartbeats 4000000 in
theorem at19_v130 : W19 m ρ c (Proc.devRef .tc main_v130) = spreadP (W18 m ρ c (Proc.devRef .tc main_v84)) (shareP (W18 m ρ c (Proc.devRef .tc main_v92)) (W18 m ρ c (Proc.devRef .tc main_v8))) (W18 m ρ c (Proc.devRef .tc main_v8)) := by
  show StableHlo.after hostOps4 (W18 m ρ c) (Proc.devRef .tc main_v130) = _
  dsimp only [hostOps4]
  after_results_simp <;> rfl

/-! ## The hops -/

section
-- what each kernel leaves in its output array, as a function of the arrays it is entered with
variable
  (hR0 : ∀ V : (c : Dev nD) → (b : Ref sig .tc) → Buf (Elt Ideal) ((c : Thread nD τ).loc b),
    (dat0 (F := Ideal) V c).arrAt 5 cfg0.N = edgeArr (V c main_v27) (V c main_v34) (V c main_v18) (V c main_v9) (V c main_v10))
  (hR1 : ∀ V : (c : Dev nD) → (b : Ref sig .tc) → Buf (Elt Ideal) ((c : Thread nD τ).loc b),
    (dat1 (F := Ideal) V c).arrAt 2 cfg1.N = nodeArr (V c main_arg0) (V c main_v69))
  (hR2 : ∀ V : (c : Dev nD) → (b : Ref sig .tc) → Buf (Elt Ideal) ((c : Thread nD τ).loc b),
    (dat2 (F := Ideal) V c).arrAt 2 cfg2.N = nodeArr (V c main_arg2) (V c main_v73))
  (hR3 : ∀ V : (c : Dev nD) → (b : Ref sig .tc) → Buf (Elt Ideal) ((c : Thread nD τ).loc b),
    (dat3 (F := Ideal) V c).arrAt 5 cfg3.N = edgeArr (V c main_v84) (V c main_v91) (V c main_v18) (V c main_v9) (V c main_v10))
  (hR4 : ∀ V : (c : Dev nD) → (b : Ref sig .tc) → Buf (Elt Ideal) ((c : Thread nD τ).loc b),
    (dat4 (F := Ideal) V c).arrAt 2 cfg4.N = nodeArr (V c main_v74) (V c main_v126))
  (hR5 : ∀ V : (c : Dev nD) → (b : Ref sig .tc) → Buf (Elt Ideal) ((c : Thread nD τ).loc b),
    (dat5 (F := Ideal) V c).arrAt 2 cfg5.N = nodeArr (V c main_v75) (V c main_v130))

include hR0 in
theorem at12_v35 : W12 m ρ c (Proc.devRef .tc main_v35) = weights (fixedOf m c) (m ((c : Thread nD τ).loc main_arg0)) (m ((c : Thread nD τ).loc main_arg2)) := by
  refine (W12_arr m ρ c 5).trans ((hR0 (V11 m ρ)).trans ?_)
  show edgeArr (W11 m ρ c (Proc.devRef .tc main_v27)) (W11 m ρ c (Proc.devRef .tc main_v34)) (W11 m ρ c (Proc.devRef .tc main_v18)) (W11 m ρ c (Proc.devRef .tc main_v9)) (W11 m ρ c (Proc.devRef .tc main_v10)) = _
  rw [at11_v27, at11_v34, at11_v18, at11_v9, at11_v10]; rfl

include hR0 hR1 in
/-- The user table after the first hop. -/
theorem first_u : W16 m ρ c (Proc.devRef .tc main_v74) = hopU (fixedOf m c) (m ((c : Thread nD τ).loc main_arg0)) (m ((c : Thread nD τ).loc main_arg2)) := by
  rw [(keep_v74_16 m ρ c).trans (keep_v74_15 m ρ c)]
  refine (W14_arr m ρ c 2).trans ((hR1 (V13 m ρ)).trans ?_)
  show nodeArr (W13 m ρ c (Proc.devRef .tc main_arg0)) (W13 m ρ c (Proc.devRef .tc main_v69)) = _
  rw [(keep_arg0_13 m ρ c).trans (keep_arg0_12 m ρ c), at11_arg0, at13_v69, at12_v35 m ρ c hR0, keep_v34_12, at11_v34, keep_v7_12, at11_v7]; rfl

include hR0 hR2 in
/-- The entity table after the first hop. -/
theorem first_i : W16 m ρ c (Proc.devRef .tc main_v75) = hopI (fixedOf m c) (m ((c : Thread nD τ).loc main_arg0)) (m ((c : Thread nD τ).loc main_arg2)) := by
  refine (W16_arr m ρ c 2).trans ((hR2 (V15 m ρ)).trans ?_)
  show nodeArr (W15 m ρ c (Proc.devRef .tc main_arg2)) (W15 m ρ c (Proc.devRef .tc main_v73)) = _
  rw [(((keep_arg2_15 m ρ c).trans (keep_arg2_14 m ρ c)).trans (keep_arg2_13 m ρ c)).trans (keep_arg2_12 m ρ c), at11_arg2, (keep_v73_15 m ρ c).trans (keep_v73_14 m ρ c), at13_v73, at12_v35 m ρ c hR0, keep_v27_12, at11_v27, keep_v8_12, at11_v8]; rfl

theorem at16_v4 : W16 m ρ c (Proc.devRef .tc main_v4) = W11 m ρ c (Proc.devRef .tc main_v4) :=
  ((((keep_v4_16 m ρ c).trans (keep_v4_15 m ρ c)).trans (keep_v4_14 m ρ c)).trans (keep_v4_13 m ρ c)).trans (keep_v4_12 m ρ c)
theorem at16_v5 : W16 m ρ c (Proc.devRef .tc main_v5) = W11 m ρ c (Proc.devRef .tc main_v5) :=
  ((((keep_v5_16 m ρ c).trans (keep_v5_15 m ρ c)).trans (keep_v5_14 m ρ c)).trans (keep_v5_13 m ρ c)).trans (keep_v5_12 m ρ c)
theorem at16_v7 : W16 m ρ c (Proc.devRef .tc main_v7) = W11 m ρ c (Proc.devRef .tc main_v7) :=
  ((((keep_v7_16 m ρ c).trans (keep_v7_15 m ρ c)).trans (keep_v7_14 m ρ c)).trans (keep_v7_13 m ρ c)).trans (keep_v7_12 m ρ c)
theorem at16_v8 : W16 m ρ c (Proc.devRef .tc main_v8) = W11 m ρ c (Proc.devRef .tc main_v8) :=
  ((((keep_v8_16 m ρ c).trans (keep_v8_15 m ρ c)).trans (keep_v8_14 m ρ c)).trans (keep_v8_13 m ρ c)).trans (keep_v8_12 m ρ c)
theorem at16_v9 : W16 m ρ c (Proc.devRef .tc main_v9) = W11 m ρ c (Proc.devRef .tc main_v9) :=
  ((((keep_v9_16 m ρ c).trans (keep_v9_15 m ρ c)).trans (keep_v9_14 m ρ c)).trans (keep_v9_13 m ρ c)).trans (keep_v9_12 m ρ c)
theorem at16_v10 : W16 m ρ c (Proc.devRef .tc main_v10) = W11 m ρ c (Proc.devRef .tc main_v10) :=
  ((((keep_v10_16 m ρ c).trans (keep_v10_15 m ρ c)).trans (keep_v10_14 m ρ c)).trans (keep_v10_13 m ρ c)).trans (keep_v10_12 m ρ c)
theorem at16_v18 : W16 m ρ c (Proc.devRef .tc main_v18) = W11 m ρ c (Proc.devRef .tc main_v18) :=
  ((((keep_v18_16 m ρ c).trans (keep_v18_15 m ρ c)).trans (keep_v18_14 m ρ c)).trans (keep_v18_13 m ρ c)).trans (keep_v18_12 m ρ c)

include hR3 in
theorem at18_v92 : W18 m ρ c (Proc.devRef .tc main_v92) = weights ⟨W16 m ρ c (Proc.devRef .tc main_v4), W16 m ρ c (Proc.devRef .tc main_v5), W16 m ρ c (Proc.devRef .tc main_v7), W16 m ρ c (Proc.devRef .tc main_v8), W16 m ρ c (Proc.devRef .tc main_v18), W16 m ρ c (Proc.devRef .tc main_v9), W16 m ρ c (Proc.devRef .tc main_v10)⟩ (W16 m ρ c (Proc.devRef .tc main_v74)) (W16 m ρ c (Proc.devRef .tc main_v75)) := by
  refine (W18_arr m ρ c 5).trans ((hR3 (V17 m ρ)).trans ?_)
  show edgeArr (W17 m ρ c (Proc.devRef .tc main_v84)) (W17 m ρ c (Proc.devRef .tc main_v91)) (W17 m ρ c (Proc.devRef .tc main_v18)) (W17 m ρ c (Proc.devRef .tc main_v9)) (W17 m ρ c (Proc.devRef .tc main_v10)) = _
  rw [at17_v84, at17_v91, keep_v18_17, keep_v9_17, keep_v10_17]; rfl

include hR3 hR4 in
/-- The user table after the second hop, from the tables after the first. -/
theorem second_u : W22 m ρ c (Proc.devRef .tc main_v131) = hopU ⟨W16 m ρ c (Proc.devRef .tc main_v4), W16 m ρ c (Proc.devRef .tc main_v5), W16 m ρ c (Proc.devRef .tc main_v7), W16 m ρ c (Proc.devRef .tc main_v8), W16 m ρ c (Proc.devRef .tc main_v18), W16 m ρ c (Proc.devRef .tc main_v9), W16 m ρ c (Proc.devRef .tc main_v10)⟩ (W16 m ρ c (Proc.devRef .tc main_v74)) (W16 m ρ c (Proc.devRef .tc main_v75)) := by
  rw [(keep_v131_22 m ρ c).trans (keep_v131_21 m ρ c)]
  refine (W20_arr m ρ c 2).trans ((hR4 (V19 m ρ)).trans ?_)
  show nodeArr (W19 m ρ c (Proc.devRef .tc main_v74)) (W19 m ρ c (Proc.devRef .tc main_v126)) = _
  rw [((keep_v74_19 m ρ c).trans (keep_v74_18 m ρ c)).trans (keep_v74_17 m ρ c), at19_v126, at18_v92 m ρ c hR3, keep_v91_18, at17_v91, (keep_v7_18 m ρ c).trans (keep_v7_17 m ρ c)]; rfl

include hR3 hR5 in
/-- The entity table after the second hop. -/
theorem second_i : W22 m ρ c (Proc.devRef .tc main_v132) = hopI ⟨W16 m ρ c (Proc.devRef .tc main_v4), W16 m ρ c (Proc.devRef .tc main_v5), W16 m ρ c (Proc.devRef .tc main_v7), W16 m ρ c (Proc.devRef .tc main_v8), W16 m ρ c (Proc.devRef .tc main_v18), W16 m ρ c (Proc.devRef .tc main_v9), W16 m ρ c (Proc.devRef .tc main_v10)⟩ (W16 m ρ c (Proc.devRef .tc main_v74)) (W16 m ρ c (Proc.devRef .tc main_v75)) := by
  refine (W22_arr m ρ c 2).trans ((hR5 (V21 m ρ)).trans ?_)
  show nodeArr (W21 m ρ c (Proc.devRef .tc main_v75)) (W21 m ρ c (Proc.devRef .tc main_v130)) = _
  rw [((((keep_v75_21 m ρ c).trans (keep_v75_20 m ρ c)).trans (keep_v75_19 m ρ c)).trans (keep_v75_18 m ρ c)).trans (keep_v75_17 m ρ c), (keep_v130_21 m ρ c).trans (keep_v130_20 m ρ c), at19_v130, at18_v92 m ρ c hR3, keep_v84_18, at17_v84, (keep_v8_18 m ρ c).trans (keep_v8_17 m ρ c)]; rfl

include hR0 hR1 hR2 hR3 hR4 hR5 in
/-- Both results: two hops of the argument tables. -/
theorem results :
    W22 m ρ c (Proc.devRef .tc main_v131) = hopU (fixedOf m c) (hopU (fixedOf m c) (m ((c : Thread nD τ).loc main_arg0)) (m ((c : Thread nD τ).loc main_arg2))) (hopI (fixedOf m c) (m ((c : Thread nD τ).loc main_arg0)) (m ((c : Thread nD τ).loc main_arg2)))
    ∧ W22 m ρ c (Proc.devRef .tc main_v132) = hopI (fixedOf m c) (hopU (fixedOf m c) (m ((c : Thread nD τ).loc main_arg0)) (m ((c : Thread nD τ).loc main_arg2))) (hopI (fixedOf m c) (m ((c : Thread nD τ).loc main_arg0)) (m ((c : Thread nD τ).loc main_arg2))) := by
  have hX : (⟨W16 m ρ c (Proc.devRef .tc main_v4), W16 m ρ c (Proc.devRef .tc main_v5), W16 m ρ c (Proc.devRef .tc main_v7), W16 m ρ c (Proc.devRef .tc main_v8), W16 m ρ c (Proc.devRef .tc main_v18), W16 m ρ c (Proc.devRef .tc main_v9), W16 m ρ c (Proc.devRef .tc main_v10)⟩ : Fixed) = fixedOf m c := by
    rw [at16_v4, at16_v5, at16_v7, at16_v8, at16_v9, at16_v10, at16_v18, at11_v4, at11_v5, at11_v7, at11_v8, at11_v9, at11_v10, at11_v18]
  constructor
  · rw [second_u m ρ c hR3 hR4, hX, first_u m ρ c hR0 hR1, first_i m ρ c hR0 hR2]
  · rw [second_i m ρ c hR3 hR5, hX, first_u m ρ c hR0 hR1, first_i m ρ c hR0 hR2]

end

end Cert.KernelIdeal.Stages

end
-- ==== Proof.RefRun.lean ====
/-
  The reference program's run, read back: its @main is one straight line of host operations, here in two
  stretches — the first hop (and the index lists and relation rows both hops read), then the second hop —, and
  every weakly fair execution ends with each buffer at the fold of the operations' results over the launch contents.
-/
import proofs.«131266_j69483980915102_2_alg».proof.Proof.Gen.ReferenceIdeal
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first hop's operations, in order (a called function's operations stand in its call's place). -/
abbrev opsA : List (HloOp τ sig (Elt F)) :=
  [ unary main_arg4 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg4 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_arg5 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 64#32),
    unary main_c_0 main_v6 (broadcastInDim S600000 ![] bcast_S_S600000 : (⟨S_, .i32⟩ : BufTy).Contents (Elt F) → (⟨S600000, .i32⟩ : BufTy).Contents (Elt F)),
    binary main_arg5 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_arg5 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg1 main_v9 main_v10 ((fun x i => Host.gather gather_S64x128_S600000x1_S600000x128_1_0_n_n_0_1_1128 x i) : (⟨S64x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v11 (broadcastInDim S600000 ![] bcast_S_S600000 : (⟨S_, .i32⟩ : BufTy).Contents (Elt F) → (⟨S600000, .i32⟩ : BufTy).Contents (Elt F)),
    binary main_v1 main_v11 main_v12 (cmpi .slt : (⟨S600000, .i32⟩ : BufTy).Contents (Elt F) → (⟨S600000, .i32⟩ : BufTy).Contents (Elt F) → (⟨S600000, .i1⟩ : BufTy).Contents (Elt F)),
    nullary main_c_2 (constantI S_ 32 100000#32),
    unary main_c_2 main_v13 (broadcastInDim S600000 ![] bcast_S_S600000 : (⟨S_, .i32⟩ : BufTy).Contents (Elt F) → (⟨S600000, .i32⟩ : BufTy).Contents (Elt F)),
    binary main_v1 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_v1 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_arg0 main_v16 main_v17 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_3 (constantI S_ 32 0#32),
    unary main_c_3 main_v18 (broadcastInDim S600000 ![] bcast_S_S600000 : (⟨S_, .i32⟩ : BufTy).Contents (Elt F) → (⟨S600000, .i32⟩ : BufTy).Contents (Elt F)),
    binary main_v3 main_v18 main_v19 (cmpi .slt : (⟨S600000, .i32⟩ : BufTy).Contents (Elt F) → (⟨S600000, .i32⟩ : BufTy).Contents (Elt F) → (⟨S600000, .i1⟩ : BufTy).Contents (Elt F)),
    nullary main_c_4 (constantI S_ 32 100000#32),
    unary main_c_4 main_v20 (broadcastInDim S600000 ![] bcast_S_S600000 : (⟨S_, .i32⟩ : BufTy).Contents (Elt F) → (⟨S600000, .i32⟩ : BufTy).Contents (Elt F)),
    binary main_v3 main_v20 main_v21 (addi : (⟨S600000, .i32⟩ : BufTy).Contents (Elt F) → (⟨S600000, .i32⟩ : BufTy).Contents (Elt F) → (⟨S600000, .i32⟩ : BufTy).Contents (Elt F)),
    ternary main_v19 main_v21 main_v3 main_v22 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v22 main_v23 (broadcastInDim S600000x1 ![0] bcast_S600000_S600000x1_0 : (⟨S600000, .i32⟩ : BufTy).Contents (Elt F) → (⟨S600000x1, .i32⟩ : BufTy).Contents (Elt F)),
    binary main_arg2 main_v23 main_v24 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v17 main_v24 main_v25 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    binary main_v25 main_arg3 main_v26 ((fun l r => Host.dotGeneral dot_S600000x256_S256x128_S600000x128_1_0_0_1_n_n none l r) : (⟨S600000x256, .f32⟩ : BufTy).Contents (Elt F) → (⟨S256x128, .f32⟩ : BufTy).Contents (Elt F) → (⟨S600000x128, .f32⟩ : BufTy).Contents (Elt F)),
    binary main_v26 main_v10 main_v27 (mulf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    binary main_v27 main_cst main_v28 ((fun x v => Host.reduceAdd x v reducesTo_S600000x128_S600000_d1 h_S_) : (⟨S600000x128, .f32⟩ : BufTy).Contents (Elt F) → (⟨S_, .f32⟩ : BufTy).Contents (Elt F) → (⟨S600000, .f32⟩ : BufTy).Contents (Elt F)),
    nullary main_cst_5 (constant S_ .f32 0x00000000#32),
    unary main_cst_5 main_v29 (broadcastInDim S600000 ![] bcast_S_S600000 : (⟨S_, .f32⟩ : BufTy).Contents (Elt F) → (⟨S600000, .f32⟩ : BufTy).Contents (Elt F)),
    binary main_v28 main_v29 main_v30 (cmpf .ogt : (⟨S600000, .f32⟩ : BufTy).Contents (Elt F) → (⟨S600000, .f32⟩ : BufTy).Contents (Elt F) → (⟨S600000, .i1⟩ : BufTy).Contents (Elt F)),
    nullary main_cst_6 (constant S_ .f32 0x3E4CCCCD#32),
    unary main_cst_6 main_v31 (broadcastInDim S600000 ![] bcast_S_S600000 : (⟨S_, .f32⟩ : BufTy).Contents (Elt F) → (⟨S600000, .f32⟩ : BufTy).Contents (Elt F)),
    binary main_v31 main_v28 main_v32 (mulf : (⟨S600000, .f32⟩ : BufTy).Contents (Elt F) → (⟨S600000, .f32⟩ : BufTy).Contents (Elt F) → (⟨S600000, .f32⟩ : BufTy).Contents (Elt F)),
    TRef.ternary (TRef.of (T := ⟨S600000, .i1⟩) main_v30) (TRef.of (T := ⟨S600000, .f32⟩) main_v28) (TRef.of (T := ⟨S600000, .f32⟩) main_v32) (TRef.of (T := ⟨S600000, .f32⟩) main_v33) select,
    unary main_v33 main_v34 (Host.exp : (⟨S600000, .f32⟩ : BufTy).Contents (Elt F) → (⟨S600000, .f32⟩ : BufTy).Contents (Elt F)),
    nullary main_cst_7 (constant S_ .f32 0x00000000#32),
    unary main_cst_7 main_v35 (broadcastInDim S100000 ![] bcast_S_S100000 : (⟨S_, .f32⟩ : BufTy).Contents (Elt F) → (⟨S100000, .f32⟩ : BufTy).Contents (Elt F)),
    unary main_v1 main_v36 (broadcastInDim S600000x1 ![0] bcast_S600000_S600000x1_0 : (⟨S600000, .i32⟩ : BufTy).Contents (Elt F) → (⟨S600000x1, .i32⟩ : BufTy).Contents (Elt F)),
    ternary main_v35 main_v36 main_v34 main_v37 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_c_8 (constantI S_ 32 0#32),
    unary main_c_8 main_v38 (broadcastInDim S600000 ![] bcast_S_S600000 : (⟨S_, .i32⟩ : BufTy).Contents (Elt F) → (⟨S600000, .i32⟩ : BufTy).Contents (Elt F)),
    binary main_v1 main_v38 main_v39 (cmpi .slt : (⟨S600000, .i32⟩ : BufTy).Contents (Elt F) → (⟨S600000, .i32⟩ : BufTy).Contents (Elt F) → (⟨S600000, .i1⟩ : BufTy).Contents (Elt F)),
    nullary main_c_9 (constantI S_ 32 100000#32),
    unary main_c_9 main_v40 (broadcastInDim S600000 ![] bcast_S_S600000 : (⟨S_, .i32⟩ : BufTy).Contents (Elt F) → (⟨S600000, .i32⟩ : BufTy).Contents (Elt F)),
    binary main_v1 main_v40 main_v41 (addi : (⟨S600000, .i32⟩ : BufTy).Contents (Elt F) → (⟨S600000, .i32⟩ : BufTy).Contents (Elt F) → (⟨S600000, .i32⟩ : BufTy).Contents (Elt F)),
    ternary main_v39 main_v41 main_v1 main_v42 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v42 main_v43 (broadcastInDim S600000x1 ![0] bcast_S600000_S600000x1_0 : (⟨S600000, .i32⟩ : BufTy).Contents (Elt F) → (⟨S600000x1, .i32⟩ : BufTy).Contents (Elt F)),
    binary main_v37 main_v43 main_v44 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v34 main_v44 main_v45 (Host.divf : (⟨S600000, .f32⟩ : BufTy).Contents (Elt F) → (⟨S600000, .f32⟩ : BufTy).Contents (Elt F) → (⟨S600000, .f32⟩ : BufTy).Contents (Elt F)),
    unary main_v45 main_v46 (broadcastInDim S600000x1 ![0] bcast_S600000_S600000x1_0 : (⟨S600000, .f32⟩ : BufTy).Contents (Elt F) → (⟨S600000x1, .f32⟩ : BufTy).Contents (Elt F)),
    unary main_v46 main_v47 (broadcastInDim S600000x128 ![0, 1] bcast_S600000x1_S600000x128_0_1 : (⟨S600000x1, .f32⟩ : BufTy).Contents (Elt F) → (⟨S600000x128, .f32⟩ : BufTy).Contents (Elt F)),
    binary main_v24 main_v47 main_v48 (mulf : (⟨S600000x128, .f32⟩ : BufTy).Contents (Elt F) → (⟨S600000x128, .f32⟩ : BufTy).Contents (Elt F) → (⟨S600000x128, .f32⟩ : BufTy).Contents (Elt F)),
    nullary main_cst_10 (constant S_ .f32 0x00000000#32),
    unary main_cst_10 main_v49 (broadcastInDim S100000x128 ![] bcast_S_S100000x128 : (⟨S_, .f32⟩ : BufTy).Contents (Elt F) → (⟨S100000x128, .f32⟩ : BufTy).Contents (Elt F)),
    unary main_v1 main_v50 (broadcastInDim S600000x1 ![0] bcast_S600000_S600000x1_0 : (⟨S600000, .i32⟩ : BufTy).Contents (Elt F) → (⟨S600000x1, .i32⟩ : BufTy).Contents (Elt F)),
    ternary main_v49 main_v50 main_v48 main_v51 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v51 main_arg0 main_v52 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    unary main_v3 main_v54 (broadcastInDim S600000x1 ![0] bcast_S600000_S600000x1_0 : (⟨S600000, .i32⟩ : BufTy).Contents (Elt F) → (⟨S600000x1, .i32⟩ : BufTy).Contents (Elt F)),
    ternary main_v53 main_v54 main_v34 main_v55 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_c_12 (constantI S_ 32 0#32),
    unary main_c_12 main_v56 (broadcastInDim S600000 ![] bcast_S_S600000 : (⟨S_, .i32⟩ : BufTy).Contents (Elt F) → (⟨S600000, .i32⟩ : BufTy).Contents (Elt F)),
    binary main_v3 main_v56 main_v57 (cmpi .slt : (⟨S600000, .i32⟩ : BufTy).Contents (Elt F) → (⟨S600000, .i32⟩ : BufTy).Contents (Elt F) → (⟨S600000, .i1⟩ : BufTy).Contents (Elt F)),
    nullary main_c_13 (constantI S_ 32 100000#32),
    unary main_c_13 main_v58 (broadcastInDim S600000 ![] bcast_S_S600000 : (⟨S_, .i32⟩ : BufTy).Contents (Elt F) → (⟨S600000, .i32⟩ : BufTy).Contents (Elt F)),
    binary main_v3 main_v58 main_v59 (addi : (⟨S600000, .i32⟩ : BufTy).Contents (Elt F) → (⟨S600000, .i32⟩ : BufTy).Contents (Elt F) → (⟨S600000, .i32⟩ : BufTy).Contents (Elt F)),
    ternary main_v57 main_v59 main_v3 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v60 main_v61 (broadcastInDim S600000x1 ![0] bcast_S600000_S600000x1_0 : (⟨S600000, .i32⟩ : BufTy).Contents (Elt F) → (⟨S600000x1, .i32⟩ : BufTy).Contents (Elt F)),
    binary main_v55 main_v61 main_v62 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v34 main_v62 main_v63 (Host.divf : (⟨S600000, .f32⟩ : BufTy).Contents (Elt F) → (⟨S600000, .f32⟩ : BufTy).Contents (Elt F) → (⟨S600000, .f32⟩ : BufTy).Contents (Elt F)),
    unary main_v63 main_v64 (broadcastInDim S600000x1 ![0] bcast_S600000_S600000x1_0 : (⟨S600000, .f32⟩ : BufTy).Contents (Elt F) → (⟨S600000x1, .f32⟩ : BufTy).Contents (Elt F)),
    unary main_v64 main_v65 (broadcastInDim S600000x128 ![0, 1] bcast_S600000x1_S600000x128_0_1 : (⟨S600000x1, .f32⟩ : BufTy).Contents (Elt F) → (⟨S600000x128, .f32⟩ : BufTy).Contents (Elt F)),
    binary main_v17 main_v65 main_v66 (mulf : (⟨S600000x128, .f32⟩ : BufTy).Contents (Elt F) → (⟨S600000x128, .f32⟩ : BufTy).Contents (Elt F) → (⟨S600000x128, .f32⟩ : BufTy).Contents (Elt F)),
    nullary main_cst_14 (constant S_ .f32 0x00000000#32),
    unary main_cst_14 main_v67 (broadcastInDim S100000x128 ![] bcast_S_S100000x128 : (⟨S_, .f32⟩ : BufTy).Contents (Elt F) → (⟨S100000x128, .f32⟩ : BufTy).Contents (Elt F)),
    unary main_v3 main_v68 (broadcastInDim S600000x1 ![0] bcast_S600000_S600000x1_0 : (⟨S600000, .i32⟩ : BufTy).Contents (Elt F) → (⟨S600000x1, .i32⟩ : BufTy).Contents (Elt F)),
    ternary main_v67 main_v68 main_v66 main_v69 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v69 main_arg2 main_v70 (addf : (⟨S100000x128, .f32⟩ : BufTy).Contents (Elt F) → (⟨S100000x128, .f32⟩ : BufTy).Contents (Elt F) → (⟨S100000x128, .f32⟩ : BufTy).Contents (Elt F)),
    TRef.binary (TRef.of (T := ⟨S100000x128, .f32⟩) main_v70) (TRef.of (T := ⟨S100000x128, .f32⟩) main_v70) (TRef.of (T := ⟨S100000x128, .f32⟩) main_call1_v0) mulf,
    TRef.nullary (TRef.of (T := ⟨S_, .f32⟩) main_call1_cst) (constant S_ .f32 0x00000000#32),
    TRef.binary (TRef.of (T := ⟨S100000x128, .f32⟩) main_call1_v0) (TRef.of (T := ⟨S_, .f32⟩) main_call1_cst) (TRef.of (T := ⟨S100000, .f32⟩) main_call1_v1) (fun x v => Host.reduceAdd x v reducesTo_S100000x128_S100000_d1 h_S_),
    TRef.unary (TRef.of (T := ⟨S100000, .f32⟩) main_call1_v1) (TRef.of (T := ⟨S100000x1, .f32⟩) main_call1_v2) (broadcastInDim S100000x1 ![0] bcast_S100000_S100000x1_0),
    TRef.unary (TRef.of (T := ⟨S100000x1, .f32⟩) main_call1_v2) (TRef.of (T := ⟨S100000x1, .f32⟩) main_v71) Host.sqrt,
    nullary main_cst_15 (constant S_ .f32 0x322BCC77#32),
    unary main_cst_15 main_v72 (broadcastInDim S100000x1 ![] bcast_S_S100000x1 : (⟨S_, .f32⟩ : BufTy).Contents (Elt F) → (⟨S100000x1, .f32⟩ : BufTy).Contents (Elt F)),
    binary main_v71 main_v72 main_v73 (maximumf : (⟨S100000x1, .f32⟩ : BufTy).Contents (Elt F) → (⟨S100000x1, .f32⟩ : BufTy).Contents (Elt F) → (⟨S100000x1, .f32⟩ : BufTy).Contents (Elt F)),
    unary main_v73 main_v74 (broadcastInDim S100000x128 ![0, 1] bcast_S100000x1_S100000x128_0_1 : (⟨S100000x1, .f32⟩ : BufTy).Contents (Elt F) → (⟨S100000x128, .f32⟩ : BufTy).Contents (Elt F)),
    binary main_v70 main_v74 main_v75 (Host.divf : (⟨S100000x128, .f32⟩ : BufTy).Contents (Elt F) → (⟨S100000x128, .f32⟩ : BufTy).Contents (Elt F) → (⟨S100000x128, .f32⟩ : BufTy).Contents (Elt F)),
    TRef.binary (TRef.of (T := ⟨S100000x128, .f32⟩) main_v52) (TRef.of (T := ⟨S100000x128, .f32⟩) main_v52) (TRef.of (T := ⟨S100000x128, .f32⟩) main_call2_v0) mulf,
    TRef.nullary (TRef.of (T := ⟨S_, .f32⟩) main_call2_cst) (constant S_ .f32 0x00000000#32),
    TRef.binary (TRef.of (T := ⟨S100000x128, .f32⟩) main_call2_v0) (TRef.of (T := ⟨S_, .f32⟩) main_call2_cst) (TRef.of (T := ⟨S100000, .f32⟩) main_call2_v1) (fun x v => Host.reduceAdd x v reducesTo_S100000x128_S100000_d1 h_S_),
    TRef.unary (TRef.of (T := ⟨S100000, .f32⟩) main_call2_v1) (TRef.of (T := ⟨S100000x1, .f32⟩) main_call2_v2) (broadcastInDim S100000x1 ![0] bcast_S100000_S100000x1_0),
    TRef.unary (TRef.of (T := ⟨S100000x1, .f32⟩) main_call2_v2) (TRef.of (T := ⟨S100000x1, .f32⟩) main_v76) Host.sqrt,
    nullary main_cst_16 (constant S_ .f32 0x322BCC77#32),
    unary main_cst_16 main_v77 (broadcastInDim S100000x1 ![] bcast_S_S100000x1 : (⟨S_, .f32⟩ : BufTy).Contents (Elt F) → (⟨S100000x1, .f32⟩ : BufTy).Contents (Elt F)),
    binary main_v76 main_v77 main_v78 (maximumf : (⟨S100000x1, .f32⟩ : BufTy).Contents (Elt F) → (⟨S100000x1, .f32⟩ : BufTy).Contents (Elt F) → (⟨S100000x1, .f32⟩ : BufTy).Contents (Elt F)),
    unary main_v78 main_v79 (broadcastInDim S100000x128 ![0, 1] bcast_S100000x1_S100000x128_0_1 : (⟨S100000x1, .f32⟩ : BufTy).Contents (Elt F) → (⟨S100000x128, .f32⟩ : BufTy).Contents (Elt F)),
    binary main_v52 main_v79 main_v80 (Host.divf : (⟨S100000x128, .f32⟩ : BufTy).Contents (Elt F) → (⟨S100000x128, .f32⟩ : BufTy).Contents (Elt F) → (⟨S100000x128, .f32⟩ : BufTy).Contents (Elt F)),
    binary main_arg2 main_v75 main_v81 (addf : (⟨S100000x128, .f32⟩ : BufTy).Contents (Elt F) → (⟨S100000x128, .f32⟩ : BufTy).Contents (Elt F) → (⟨S100000x128, .f32⟩ : BufTy).Contents (Elt F)),
    binary main_arg0 main_v80 main_v82 (addf : (⟨S100000x128, .f32⟩ : BufTy).Contents (Elt F) → (⟨S100000x128, .f32⟩ : BufTy).Contents (Elt F) → (⟨S100000x128, .f32⟩ : BufTy).Contents (Elt F)) ]

/-- The second hop's operations, in order. -/
abbrev opsB : List (HloOp τ sig (Elt F)) :=
  [ nullary main_c_17 (constantI S_ 32 0#32),
    unary main_c_17 main_v83 (broadcastInDim S600000 ![] bcast_S_S600000 : (⟨S_, .i32⟩ : BufTy).Contents (Elt F) → (⟨S600000, .i32⟩ : BufTy).Contents (Elt F)),
    binary main_v1 main_v83 main_v84 (cmpi .slt : (⟨S600000, .i32⟩ : BufTy).Contents (Elt F) → (⟨S600000, .i32⟩ : BufTy).Contents (Elt F) → (⟨S600000, .i1⟩ : BufTy).Contents (Elt F)),
    nullary main_c_18 (constantI S_ 32 100000#32),
    unary main_c_18 main_v85 (broadcastInDim S600000 ![] bcast_S_S600000 : (⟨S_, .i32⟩ : BufTy).Contents (Elt F) → (⟨S600000, .i32⟩ : BufTy).Contents (Elt F)),
    binary main_v1 main_v85 main_v86 (addi : (⟨S600000, .i32⟩ : BufTy).Contents (Elt F) → (⟨S600000, .i32⟩ : BufTy).Contents (Elt F) → (⟨S600000, .i32⟩ : BufTy).Contents (Elt F)),
    ternary main_v84 main_v86 main_v1 main_v87 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v87 main_v88 (broadcastInDim S600000x1 ![0] bcast_S600000_S600000x1_0 : (⟨S600000, .i32⟩ : BufTy).Contents (Elt F) → (⟨S600000x1, .i32⟩ : BufTy).Contents (Elt F)),
    binary main_v82 main_v88 main_v89 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_19 (constantI S_ 32 0#32),
    unary main_c_19 main_v90 (broadcastInDim S600000 ![] bcast_S_S600000 : (⟨S_, .i32⟩ : BufTy).Contents (Elt F) → (⟨S600000, .i32⟩ : BufTy).Contents (Elt F)),
    binary main_v3 main_v90 main_v91 (cmpi .slt : (⟨S600000, .i32⟩ : BufTy).Contents (Elt F) → (⟨S600000, .i32⟩ : BufTy).Contents (Elt F) → (⟨S600000, .i1⟩ : BufTy).Contents (Elt F)),
    nullary main_c_20 (constantI S_ 32 100000#32),
    unary main_c_20 main_v92 (broadcastInDim S600000 ![] bcast_S_S600000 : (⟨S_, .i32⟩ : BufTy).Contents (Elt F) → (⟨S600000, .i32⟩ : BufTy).Contents (Elt F)),
    binary main_v3 main_v92 main_v93 (addi : (⟨S600000, .i32⟩ : BufTy).Contents (Elt F) → (⟨S600000, .i32⟩ : BufTy).Contents (Elt F) → (⟨S600000, .i32⟩ : BufTy).Contents (Elt F)),
    ternary main_v91 main_v93 main_v3 main_v94 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v94 main_v95 (broadcastInDim S600000x1 ![0] bcast_S600000_S600000x1_0 : (⟨S600000, .i32⟩ : BufTy).Contents (Elt F) → (⟨S600000x1, .i32⟩ : BufTy).Contents (Elt F)),
    binary main_v81 main_v95 main_v96 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v89 main_v96 main_v97 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    binary main_v97 main_arg3 main_v98 ((fun l r => Host.dotGeneral dot_S600000x256_S256x128_S600000x128_1_0_0_1_n_n none l r) : (⟨S600000x256, .f32⟩ : BufTy).Contents (Elt F) → (⟨S256x128, .f32⟩ : BufTy).Contents (Elt F) → (⟨S600000x128, .f32⟩ : BufTy).Contents (Elt F)),
    binary main_v98 main_v10 main_v99 (mulf : (⟨S600000x128, .f32⟩ : BufTy).Contents (Elt F) → (⟨S600000x128, .f32⟩ : BufTy).Contents (Elt F) → (⟨S600000x128, .f32⟩ : BufTy).Contents (Elt F)),
    nullary main_cst_21 (constant S_ .f32 0x00000000#32),
    binary main_v99 main_cst_21 main_v100 ((fun x v => Host.reduceAdd x v reducesTo_S600000x128_S600000_d1 h_S_) : (⟨S600000x128, .f32⟩ : BufTy).Contents (Elt F) → (⟨S_, .f32⟩ : BufTy).Contents (Elt F) → (⟨S600000, .f32⟩ : BufTy).Contents (Elt F)),
    nullary main_cst_22 (constant S_ .f32 0x00000000#32),
    unary main_cst_22 main_v101 (broadcastInDim S600000 ![] bcast_S_S600000 : (⟨S_, .f32⟩ : BufTy).Contents (Elt F) → (⟨S600000, .f32⟩ : BufTy).Contents (Elt F)),
    binary main_v100 main_v101 main_v102 (cmpf .ogt : (⟨S600000, .f32⟩ : BufTy).Contents (Elt F) → (⟨S600000, .f32⟩ : BufTy).Contents (Elt F) → (⟨S600000, .i1⟩ : BufTy).Contents (Elt F)),
    nullary main_cst_23 (constant S_ .f32 0x3E4CCCCD#32),
    unary main_cst_23 main_v103 (broadcastInDim S600000 ![] bcast_S_S600000 : (⟨S_, .f32⟩ : BufTy).Contents (Elt F) → (⟨S600000, .f32⟩ : BufTy).Contents (Elt F)),
    binary main_v103 main_v100 main_v104 (mulf : (⟨S600000, .f32⟩ : BufTy).Contents (Elt F) → (⟨S600000, .f32⟩ : BufTy).Contents (Elt F) → (⟨S600000, .f32⟩ : BufTy).Contents (Elt F)),
    TRef.ternary (TRef.of (T := ⟨S600000, .i1⟩) main_v102) (TRef.of (T := ⟨S600000, .f32⟩) main_v100) (TRef.of (T := ⟨S600000, .f32⟩) main_v104) (TRef.of (T := ⟨S600000, .f32⟩) main_v105) select,
    unary main_v105 main_v106 (Host.exp : (⟨S600000, .f32⟩ : BufTy).Contents (Elt F) → (⟨S600000, .f32⟩ : BufTy).Contents (Elt F)),
    nullary main_cst_24 (constant S_ .f32 0x00000000#32),
    unary main_cst_24 main_v107 (broadcastInDim S100000 ![] bcast_S_S100000 : (⟨S_, .f32⟩ : BufTy).Contents (Elt F) → (⟨S100000, .f32⟩ : BufTy).Contents (Elt F)),
    unary main_v1 main_v108 (broadcastInDim S600000x1 ![0] bcast_S600000_S600000x1_0 : (⟨S600000, .i32⟩ : BufTy).Contents (Elt F) → (⟨S600000x1, .i32⟩ : BufTy).Contents (Elt F)),
    ternary main_v107 main_v108 main_v106 main_v109 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_c_25 (constantI S_ 32 0#32),
    unary main_c_25 main_v110 (broadcastInDim S600000 ![] bcast_S_S600000 : (⟨S_, .i32⟩ : BufTy).Contents (Elt F) → (⟨S600000, .i32⟩ : BufTy).Contents (Elt F)),
    binary main_v1 main_v110 main_v111 (cmpi .slt : (⟨S600000, .i32⟩ : BufTy).Contents (Elt F) → (⟨S600000, .i32⟩ : BufTy).Contents (Elt F) → (⟨S600000, .i1⟩ : BufTy).Contents (Elt F)),
    nullary main_c_26 (constantI S_ 32 100000#32),
    unary main_c_26 main_v112 (broadcastInDim S600000 ![] bcast_S_S600000 : (⟨S_, .i32⟩ : BufTy).Contents (Elt F) → (⟨S600000, .i32⟩ : BufTy).Contents (Elt F)),
    binary main_v1 main_v112 main_v113 (addi : (⟨S600000, .i32⟩ : BufTy).Contents (Elt F) → (⟨S600000, .i32⟩ : BufTy).Contents (Elt F) → (⟨S600000, .i32⟩ : BufTy).Contents (Elt F)),
    ternary main_v111 main_v113 main_v1 main_v114 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v114 main_v115 (broadcastInDim S600000x1 ![0] bcast_S600000_S600000x1_0 : (⟨S600000, .i32⟩ : BufTy).Contents (Elt F) → (⟨S600000x1, .i32⟩ : BufTy).Contents (Elt F)),
    binary main_v109 main_v115 main_v116 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v106 main_v116 main_v117 (Host.divf : (⟨S600000, .f32⟩ : BufTy).Contents (Elt F) → (⟨S600000, .f32⟩ : BufTy).Contents (Elt F) → (⟨S600000, .f32⟩ : BufTy).Contents (Elt F)),
    unary main_v117 main_v118 (broadcastInDim S600000x1 ![0] bcast_S600000_S600000x1_0 : (⟨S600000, .f32⟩ : BufTy).Contents (Elt F) → (⟨S600000x1, .f32⟩ : BufTy).Contents (Elt F)),
    unary main_v118 main_v119 (broadcastInDim S600000x128 ![0, 1] bcast_S600000x1_S600000x128_0_1 : (⟨S600000x1, .f32⟩ : BufTy).Contents (Elt F) → (⟨S600000x128, .f32⟩ : BufTy).Contents (Elt F)),
    binary main_v96 main_v119 main_v120 (mulf : (⟨S600000x128, .f32⟩ : BufTy).Contents (Elt F) → (⟨S600000x128, .f32⟩ : BufTy).Contents (Elt F) → (⟨S600000x128, .f32⟩ : BufTy).Contents (Elt F)),
    nullary main_cst_27 (constant S_ .f32 0x00000000#32),
    unary main_cst_27 main_v121 (broadcastInDim S100000x128 ![] bcast_S_S100000x128 : (⟨S_, .f32⟩ : BufTy).Contents (Elt F) → (⟨S100000x128, .f32⟩ : BufTy).Contents (Elt F)),
    unary main_v1 main_v122 (broadcastInDim S600000x1 ![0] bcast_S600000_S600000x1_0 : (⟨S600000, .i32⟩ : BufTy).Contents (Elt F) → (⟨S600000x1, .i32⟩ : BufTy).Contents (Elt F)),
    ternary main_v121 main_v122 main_v120 main_v123 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v123 main_v82 main_v124 (addf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x00000000#32),
    unary main_cst_28 main_v125 (broadcastInDim S100000 ![] bcast_S_S100000 : (⟨S_, .f32⟩ : BufTy).Contents (Elt F) → (⟨S100000, .f32⟩ : BufTy).Contents (Elt F)),
    unary main_v3 main_v126 (broadcastInDim S600000x1 ![0] bcast_S600000_S600000x1_0 : (⟨S600000, .i32⟩ : BufTy).Contents (Elt F) → (⟨S600000x1, .i32⟩ : BufTy).Contents (Elt F)),
    ternary main_v125 main_v126 main_v106 main_v127 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_c_29 (constantI S_ 32 0#32),
    unary main_c_29 main_v128 (broadcastInDim S600000 ![] bcast_S_S600000 : (⟨S_, .i32⟩ : BufTy).Contents (Elt F) → (⟨S600000, .i32⟩ : BufTy).Contents (Elt F)),
    binary main_v3 main_v128 main_v129 (cmpi .slt : (⟨S600000, .i32⟩ : BufTy).Contents (Elt F) → (⟨S600000, .i32⟩ : BufTy).Contents (Elt F) → (⟨S600000, .i1⟩ : BufTy).Contents (Elt F)),
    nullary main_c_30 (constantI S_ 32 100000#32),
    unary main_c_30 main_v130 (broadcastInDim S600000 ![] bcast_S_S600000 : (⟨S_, .i32⟩ : BufTy).Contents (Elt F) → (⟨S600000, .i32⟩ : BufTy).Contents (Elt F)),
    binary main_v3 main_v130 main_v131 (addi : (⟨S600000, .i32⟩ : BufTy).Contents (Elt F) → (⟨S600000, .i32⟩ : BufTy).Contents (Elt F) → (⟨S600000, .i32⟩ : BufTy).Contents (Elt F)),
    ternary main_v129 main_v131 main_v3 main_v132 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v132 main_v133 (broadcastInDim S600000x1 ![0] bcast_S600000_S600000x1_0 : (⟨S600000, .i32⟩ : BufTy).Contents (Elt F) → (⟨S600000x1, .i32⟩ : BufTy).Contents (Elt F)),
    binary main_v127 main_v133 main_v134 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v106 main_v134 main_v135 (Host.divf : (⟨S600000, .f32⟩ : BufTy).Contents (Elt F) → (⟨S600000, .f32⟩ : BufTy).Contents (Elt F) → (⟨S600000, .f32⟩ : BufTy).Contents (Elt F)),
    unary main_v135 main_v136 (broadcastInDim S600000x1 ![0] bcast_S600000_S600000x1_0 : (⟨S600000, .f32⟩ : BufTy).Contents (Elt F) → (⟨S600000x1, .f32⟩ : BufTy).Contents (Elt F)),
    unary main_v136 main_v137 (broadcastInDim S600000x128 ![0, 1] bcast_S600000x1_S600000x128_0_1 : (⟨S600000x1, .f32⟩ : BufTy).Contents (Elt F) → (⟨S600000x128, .f32⟩ : BufTy).Contents (Elt F)),
    binary main_v89 main_v137 main_v138 (mulf : (⟨S600000x128, .f32⟩ : BufTy).Contents (Elt F) → (⟨S600000x128, .f32⟩ : BufTy).Contents (Elt F) → (⟨S600000x128, .f32⟩ : BufTy).Contents (Elt F)),
    nullary main_cst_31 (constant S_ .f32 0x00000000#32),
    unary main_cst_31 main_v139 (broadcastInDim S100000x128 ![] bcast_S_S100000x128 : (⟨S_, .f32⟩ : BufTy).Contents (Elt F) → (⟨S100000x128, .f32⟩ : BufTy).Contents (Elt F)),
    unary main_v3 main_v140 (broadcastInDim S600000x1 ![0] bcast_S600000_S600000x1_0 : (⟨S600000, .i32⟩ : BufTy).Contents (Elt F) → (⟨S600000x1, .i32⟩ : BufTy).Contents (Elt F)),
    ternary main_v139 main_v140 main_v138 main_v141 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v141 main_v81 main_v142 (addf : (⟨S100000x128, .f32⟩ : BufTy).Contents (Elt F) → (⟨S100000x128, .f32⟩ : BufTy).Contents (Elt F) → (⟨S100000x128, .f32⟩ : BufTy).Contents (Elt F)),
    TRef.binary (TRef.of (T := ⟨S100000x128, .f32⟩) main_v142) (TRef.of (T := ⟨S100000x128, .f32⟩) main_v142) (TRef.of (T := ⟨S100000x128, .f32⟩) main_call4_v0) mulf,
    TRef.nullary (TRef.of (T := ⟨S_, .f32⟩) main_call4_cst) (constant S_ .f32 0x00000000#32),
    TRef.binary (TRef.of (T := ⟨S100000x128, .f32⟩) main_call4_v0) (TRef.of (T := ⟨S_, .f32⟩) main_call4_cst) (TRef.of (T := ⟨S100000, .f32⟩) main_call4_v1) (fun x v => Host.reduceAdd x v reducesTo_S100000x128_S100000_d1 h_S_),
    TRef.unary (TRef.of (T := ⟨S100000, .f32⟩) main_call4_v1) (TRef.of (T := ⟨S100000x1, .f32⟩) main_call4_v2) (broadcastInDim S100000x1 ![0] bcast_S100000_S100000x1_0),
    TRef.unary (TRef.of (T := ⟨S100000x1, .f32⟩) main_call4_v2) (TRef.of (T := ⟨S100000x1, .f32⟩) main_v143) Host.sqrt,
    nullary main_cst_32 (constant S_ .f32 0x322BCC77#32),
    unary main_cst_32 main_v144 (broadcastInDim S100000x1 ![] bcast_S_S100000x1 : (⟨S_, .f32⟩ : BufTy).Contents (Elt F) → (⟨S100000x1, .f32⟩ : BufTy).Contents (Elt F)),
    binary main_v143 main_v144 main_v145 (maximumf : (⟨S100000x1, .f32⟩ : BufTy).Contents (Elt F) → (⟨S100000x1, .f32⟩ : BufTy).Contents (Elt F) → (⟨S100000x1, .f32⟩ : BufTy).Contents (Elt F)),
    unary main_v145 main_v146 (broadcastInDim S100000x128 ![0, 1] bcast_S100000x1_S100000x128_0_1 : (⟨S100000x1, .f32⟩ : BufTy).Contents (Elt F) → (⟨S100000x128, .f32⟩ : BufTy).Contents (Elt F)),
    binary main_v142 main_v146 main_v147 (Host.divf : (⟨S100000x128, .f32⟩ : BufTy).Contents (Elt F) → (⟨S100000x128, .f32⟩ : BufTy).Contents (Elt F) → (⟨S100000x128, .f32⟩ : BufTy).Contents (Elt F)),
    TRef.binary (TRef.of (T := ⟨S100000x128, .f32⟩) main_v124) (TRef.of (T := ⟨S100000x128, .f32⟩) main_v124) (TRef.of (T := ⟨S100000x128, .f32⟩) main_call5_v0) mulf,
    TRef.nullary (TRef.of (T := ⟨S_, .f32⟩) main_call5_cst) (constant S_ .f32 0x00000000#32),
    TRef.binary (TRef.of (T := ⟨S100000x128, .f32⟩) main_call5_v0) (TRef.of (T := ⟨S_, .f32⟩) main_call5_cst) (TRef.of (T := ⟨S100000, .f32⟩) main_call5_v1) (fun x v => Host.reduceAdd x v reducesTo_S100000x128_S100000_d1 h_S_),
    TRef.unary (TRef.of (T := ⟨S100000, .f32⟩) main_call5_v1) (TRef.of (T := ⟨S100000x1, .f32⟩) main_call5_v2) (broadcastInDim S100000x1 ![0] bcast_S100000_S100000x1_0),
    TRef.unary (TRef.of (T := ⟨S100000x1, .f32⟩) main_call5_v2) (TRef.of (T := ⟨S100000x1, .f32⟩) main_v148) Host.sqrt,
    nullary main_cst_33 (constant S_ .f32 0x322BCC77#32),
    unary main_cst_33 main_v149 (broadcastInDim S100000x1 ![] bcast_S_S100000x1 : (⟨S_, .f32⟩ : BufTy).Contents (Elt F) → (⟨S100000x1, .f32⟩ : BufTy).Contents (Elt F)),
    binary main_v148 main_v149 main_v150 (maximumf : (⟨S100000x1, .f32⟩ : BufTy).Contents (Elt F) → (⟨S100000x1, .f32⟩ : BufTy).Contents (Elt F) → (⟨S100000x1, .f32⟩ : BufTy).Contents (Elt F)),
    unary main_v150 main_v151 (broadcastInDim S100000x128 ![0, 1] bcast_S100000x1_S100000x128_0_1 : (⟨S100000x1, .f32⟩ : BufTy).Contents (Elt F) → (⟨S100000x128, .f32⟩ : BufTy).Contents (Elt F)),
    binary main_v124 main_v151 main_v152 (Host.divf : (⟨S100000x128, .f32⟩ : BufTy).Contents (Elt F) → (⟨S100000x128, .f32⟩ : BufTy).Contents (Elt F) → (⟨S100000x128, .f32⟩ : BufTy).Contents (Elt F)),
    binary main_v81 main_v147 main_v153 (addf : (⟨S100000x128, .f32⟩ : BufTy).Contents (Elt F) → (⟨S100000x128, .f32⟩ : BufTy).Contents (Elt F) → (⟨S100000x128, .f32⟩ : BufTy).Contents (Elt F)),
    binary main_v82 main_v152 main_v154 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub ..⟩
set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub ..⟩
theorem ops_sub : (opsA ++ opsB : List (HloOp τ sig (Elt F))).Forall fun op => op.bufs ⊆ tcRefs τ sig :=
  List.forall_append.mpr ⟨opsA_sub, opsB_sub⟩
set_option maxRecDepth 8192 in
theorem opsA_fresh : (opsA : List (HloOp τ sig (Elt F))).Forall fun op => op.fresh = ∅ := by
  simp only [List.Forall]; repeat' constructor
set_option maxRecDepth 8192 in
theorem opsB_fresh : (opsB : List (HloOp τ sig (Elt F))).Forall fun op => op.fresh = ∅ := by
  simp only [List.Forall]; repeat' constructor

set_option maxRecDepth 8192 in
/-- On every device, from any memory with zero counters: every weakly fair execution of @main terminates with each
    buffer at the second stretch's results over the first stretch's results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsB (after opsA (launchContents m d)) (Proc.devRef .tc b) :=
  (θ_run defs _ _).mono (fun _ h d b => (h d b).trans (by rw [StableHlo.after_append]))
    (run_seq scopedRefs_eq scopedSems_eq defs main (fun _ => opsA ++ opsB) main_eq (fun _ => ops_sub) m ρ
      (fun _ op h => (List.mem_append.mp h).elim
        (fun h => (List.forall_iff_forall_mem.mp opsA_fresh) op h) (fun h => (List.forall_iff_forall_mem.mp opsB_fresh) op h)))

end Cert.ReferenceIdeal.HandRun

end
-- ==== Proof.RefHop.lean ====
/-
  One hop of the reference as a function of whole arrays, in the program's own operations: the rows the edges read,
  each edge's weight, the weights' shares of their rows' totals, what the edges send to each row, and the rows
  rescaled to length one and added to the table. The program's two stretches are this function twice.
-/
import proofs.«131266_j69483980915102_2_alg».proof.Proof.RefRun

noncomputable section

namespace Cert.ReferenceIdeal.Hop

open Cert.ReferenceIdeal Cert.ReferenceIdeal.Gen Cert.ReferenceIdeal.HandRun Idealize.ShloMosaic Idealize.ShloMosaic.TcCoe Idealize.ShloMosaic.StableHlo

variable {F : FTy → Type} [FloatOps F]

/-- An index list as the column a gather from `n` rows reads: negative entries counted from the end. -/
def gcol (n : BitVec 32) (x : IVec S600000 32) : IVec S600000x1 32 :=
  broadcastInDim S600000x1 ![0] bcast_S600000_S600000x1_0
    (select (cmpi .slt x (broadcastInDim S600000 ![] bcast_S_S600000 (constantI S_ 32 0#32)))
      (addi x (broadcastInDim S600000 ![] bcast_S_S600000 (constantI S_ 32 n))) x)

/-- An index list as the column a scatter reads: as it stands. -/
def scol (x : IVec S600000 32) : IVec S600000x1 32 := broadcastInDim S600000x1 ![0] bcast_S600000_S600000x1_0 x

/-- The rows of a node table the edges read. -/
def rows (u : FVec F S100000x128 .f32) (x : IVec S600000 32) : FVec F S600000x128 .f32 :=
  Host.gather gather_S100000x128_S600000x1_S600000x128_1_0_n_n_0_1_1128 u (gcol 100000#32 x)

/-- Each edge's score: its two rows side by side against the matrix, times its relation row, summed. -/
def score (hU tE relE : FVec F S600000x128 .f32) (W : FVec F S256x128 .f32) : FVec F S600000 .f32 :=
  Host.reduceAdd (mulf (Host.dotGeneral dot_S600000x256_S256x128_S600000x128_1_0_0_1_n_n none
      (concatenate S600000x256 1 [⟨S600000x128, hU⟩, ⟨S600000x128, tE⟩] concatenates_S600000x128_S600000x128_S600000x256_d1) W) relE)
    (constant S_ .f32 0x00000000#32) reducesTo_S600000x128_S600000_d1 h_S_

/-- Each edge's weight: the exponential of the leaky rectifier of its score. -/
def weight (s : FVec F S600000 .f32) : FVec F S600000 .f32 :=
  Host.exp (select (cmpf .ogt s (broadcastInDim S600000 ![] bcast_S_S600000 (constant S_ .f32 0x00000000#32))) s
    (mulf (broadcastInDim S600000 ![] bcast_S_S600000 (constant S_ .f32 0x3E4CCCCD#32)) s))

/-- Each edge's weight over the total weight of the edges of its row. -/
def share (a : FVec F S600000 .f32) (x : IVec S600000 32) : FVec F S600000 .f32 :=
  Host.divf a (Host.gather gather_S100000_S600000x1_S600000_n_0_n_n_0_1_1
    (Host.scatterAdd scatter_S100000_S600000x1_S600000_n_0_0_1
      (broadcastInDim S100000 ![] bcast_S_S100000 (constant S_ .f32 0x00000000#32)) (scol x) a) (gcol 100000#32 x))

/-- What the edges send to each row: their rows scaled by their shares, summed by row. -/
def spread (r : FVec F S600000x128 .f32) (s : FVec F S600000 .f32) (x : IVec S600000 32) : FVec F S100000x128 .f32 :=
  Host.scatterAdd scatter_S100000x128_S600000x1_S600000x128_1_0_0_1
    (broadcastInDim S100000x128 ![] bcast_S_S100000x128 (constant S_ .f32 0x00000000#32)) (scol x)
    (mulf r (broadcastInDim S600000x128 ![0, 1] bcast_S600000x1_S600000x128_0_1 (broadcastInDim S600000x1 ![0] bcast_S600000_S600000x1_0 s)))

/-- A table plus the rows of `x` scaled to length one. -/
def renorm (all x : FVec F S100000x128 .f32) : FVec F S100000x128 .f32 :=
  addf all (Host.divf x (broadcastInDim S100000x128 ![0, 1] bcast_S100000x1_S100000x128_0_1
    (maximumf (Host.sqrt (broadcastInDim S100000x1 ![0] bcast_S100000_S100000x1_0
        (Host.reduceAdd (mulf x x) (constant S_ .f32 0x00000000#32) reducesTo_S100000x128_S100000_d1 h_S_)))
      (broadcastInDim S100000x1 ![] bcast_S_S100000x1 (constant S_ .f32 0x322BCC77#32)))))

/-- The user table after one hop. -/
def hopU (u v : FVec F S100000x128 .f32) (hd tl : IVec S600000 32) (relE : FVec F S600000x128 .f32) (W : FVec F S256x128 .f32) :
    FVec F S100000x128 .f32 :=
  renorm u (addf (spread (rows v tl) (share (weight (score (rows u hd) (rows v tl) relE W)) hd) hd) u)

/-- The entity table after one hop. -/
def hopI (u v : FVec F S100000x128 .f32) (hd tl : IVec S600000 32) (relE : FVec F S600000x128 .f32) (W : FVec F S256x128 .f32) :
    FVec F S100000x128 .f32 :=
  renorm v (addf (spread (rows u hd) (share (weight (score (rows u hd) (rows v tl) relE W)) tl) tl) v)

/-- The user-row index list, out of the `[2, 600000]` argument. -/
def headOf (ei : IVec S2x600000 32) : IVec S600000 32 :=
  shapeCast _ (extractStridedSlice S1x600000 ![0, 0] ei slices_S2x600000_S1x600000_0_0) shapeCasts_S1x600000_S600000
/-- The entity-row index list. -/
def tailOf (ei : IVec S2x600000 32) : IVec S600000 32 :=
  shapeCast _ (extractStridedSlice S1x600000 ![1, 0] ei slices_S2x600000_S1x600000_1_0) shapeCasts_S1x600000_S600000
/-- Each edge's relation row. -/
def relOf (rel : FVec F S64x128 .f32) (et : IVec S600000 32) : FVec F S600000x128 .f32 :=
  Host.gather gather_S64x128_S600000x1_S600000x128_1_0_n_n_0_1_1128 rel (gcol 64#32 et)

variable (V : Valuation τ sig (Elt F))

set_option maxRecDepth 8192 in
set_option maxHeartbeats 4000000 in
theorem first_u : after opsA V (Proc.devRef .tc main_v82)
    = hopU (V (Proc.devRef .tc main_arg0)) (V (Proc.devRef .tc main_arg2)) (headOf (V (Proc.devRef .tc main_arg4)))
        (tailOf (V (Proc.devRef .tc main_arg4))) (relOf (V (Proc.devRef .tc main_arg1)) (V (Proc.devRef .tc main_arg5)))
        (V (Proc.devRef .tc main_arg3)) := by
  after_results_simp <;> rfl

set_option maxRecDepth 8192 in
set_option maxHeartbeats 4000000 in
theorem first_i : after opsA V (Proc.devRef .tc main_v81)
    = hopI (V (Proc.devRef .tc main_arg0)) (V (Proc.devRef .tc main_arg2)) (headOf (V (Proc.devRef .tc main_arg4)))
        (tailOf (V (Proc.devRef .tc main_arg4))) (relOf (V (Proc.devRef .tc main_arg1)) (V (Proc.devRef .tc main_arg5)))
        (V (Proc.devRef .tc main_arg3)) := by
  after_results_simp <;> rfl

set_option maxRecDepth 8192 in
set_option maxHeartbeats 4000000 in
theorem first_head : after opsA V (Proc.devRef .tc main_v1) = headOf (V (Proc.devRef .tc main_arg4)) := by
  after_results_simp <;> rfl

set_option maxRecDepth 8192 in
set_option maxHeartbeats 4000000 in
theorem first_tail : after opsA V (Proc.devRef .tc main_v3) = tailOf (V (Proc.devRef .tc main_arg4)) := by
  after_results_simp <;> rfl

set_option maxRecDepth 8192 in
set_option maxHeartbeats 4000000 in
theorem first_rel : after opsA V (Proc.devRef .tc main_v10)
    = relOf (V (Proc.devRef .tc main_arg1)) (V (Proc.devRef .tc main_arg5)) := by
  after_results_simp <;> rfl

set_option maxRecDepth 8192 in
set_option maxHeartbeats 4000000 in
theorem first_W : after opsA V (Proc.devRef .tc main_arg3) = V (Proc.devRef .tc main_arg3) := by
  after_results_simp <;> rfl

end Cert.ReferenceIdeal.Hop

end
-- ==== Proof.RefHop2.lean ====
/-
  The reference's second stretch is the same hop, from the first stretch's two tables, index lists and relation rows.
-/
import proofs.«131266_j69483980915102_2_alg».proof.Proof.RefHop

noncomputable section

namespace Cert.ReferenceIdeal.Hop

open Cert.ReferenceIdeal Cert.ReferenceIdeal.Gen Cert.ReferenceIdeal.HandRun Idealize.ShloMosaic Idealize.ShloMosaic.TcCoe Idealize.ShloMosaic.StableHlo

variable {F : FTy → Type} [FloatOps F] (V : Valuation τ sig (Elt F))

set_option maxRecDepth 8192 in
set_option maxHeartbeats 4000000 in
theorem second_u : after opsB V (Proc.devRef .tc main_v154)
    = hopU (V (Proc.devRef .tc main_v82)) (V (Proc.devRef .tc main_v81)) (V (Proc.devRef .tc main_v1))
        (V (Proc.devRef .tc main_v3)) (V (Proc.devRef .tc main_v10)) (V (Proc.devRef .tc main_arg3)) := by
  after_results_simp <;> rfl

set_option maxRecDepth 8192 in
set_option maxHeartbeats 4000000 in
theorem second_i : after opsB V (Proc.devRef .tc main_v153)
    = hopI (V (Proc.devRef .tc main_v82)) (V (Proc.devRef .tc main_v81)) (V (Proc.devRef .tc main_v1))
        (V (Proc.devRef .tc main_v3)) (V (Proc.devRef .tc main_v10)) (V (Proc.devRef .tc main_arg3)) := by
  after_results_simp <;> rfl

end Cert.ReferenceIdeal.Hop

end
-- ==== Proof.RefFinal.lean ====
/-
  The reference's run with its two results named: each is the hop applied twice to the argument tables.
-/
import proofs.«131266_j69483980915102_2_alg».proof.Proof.RefHop2

noncomputable section

namespace Cert.ReferenceIdeal.Hop

open Cert.ReferenceIdeal Cert.ReferenceIdeal.Gen Cert.ReferenceIdeal.HandRun Idealize.ShloMosaic Idealize.ShloMosaic.TcCoe Idealize.ShloMosaic.StableHlo Idealize.SL.Sem

variable {F : FTy → Type} [FloatOps F] (V : Valuation τ sig (Elt F))

set_option maxRecDepth 8192 in
set_option maxHeartbeats 4000000 in
theorem keptA (b : Ref sig .tc) (hb : b = main_arg0 ∨ b = main_arg1 ∨ b = main_arg2 ∨ b = main_arg3 ∨ b = main_arg4 ∨ b = main_arg5) :
    after opsA V (Proc.devRef .tc b) = V (Proc.devRef .tc b) := by
  rcases hb with rfl | rfl | rfl | rfl | rfl | rfl <;> (after_results_simp <;> rfl)

set_option maxRecDepth 8192 in
set_option maxHeartbeats 4000000 in
theorem keptB (b : Ref sig .tc) (hb : b = main_arg0 ∨ b = main_arg1 ∨ b = main_arg2 ∨ b = main_arg3 ∨ b = main_arg4 ∨ b = main_arg5) :
    after opsB V (Proc.devRef .tc b) = V (Proc.devRef .tc b) := by
  rcases hb with rfl | rfl | rfl | rfl | rfl | rfl <;> (after_results_simp <;> rfl)

variable (m : (ℓ : Loc nD τ sig) → Buf (Elt F) ℓ) (ρ : Dev nD → PrngReg)

/-- The argument tables, index lists, relation rows and matrix a device is launched with. -/
abbrev u0 (c : Dev nD) := m ((c.tc : Thread nD τ).loc main_arg0)
abbrev v0 (c : Dev nD) := m ((c.tc : Thread nD τ).loc main_arg2)
abbrev hd0 (c : Dev nD) := headOf (m ((c.tc : Thread nD τ).loc main_arg4))
abbrev tl0 (c : Dev nD) := tailOf (m ((c.tc : Thread nD τ).loc main_arg4))
abbrev rel0 (c : Dev nD) := relOf (m ((c.tc : Thread nD τ).loc main_arg1)) (m ((c.tc : Thread nD τ).loc main_arg5))
abbrev W0' (c : Dev nD) := m ((c.tc : Thread nD τ).loc main_arg3)

/-- Every weakly fair execution of the reference ends with each result at two hops of the argument tables and the
    arguments as launched. -/
theorem run_values :
    θ_run defs (onTc (τ := τ) (main (F := F))) ⟨m, fun _ => 0, ρ⟩ fun r => ∀ c : Dev nD,
      r.2.mem ((c.tc : Thread nD τ).loc main_v154)
        = hopU (hopU (u0 m c) (v0 m c) (hd0 m c) (tl0 m c) (rel0 m c) (W0' m c)) (hopI (u0 m c) (v0 m c) (hd0 m c) (tl0 m c) (rel0 m c) (W0' m c))
            (hd0 m c) (tl0 m c) (rel0 m c) (W0' m c)
      ∧ r.2.mem ((c.tc : Thread nD τ).loc main_v153)
        = hopI (hopU (u0 m c) (v0 m c) (hd0 m c) (tl0 m c) (rel0 m c) (W0' m c)) (hopI (u0 m c) (v0 m c) (hd0 m c) (tl0 m c) (rel0 m c) (W0' m c))
            (hd0 m c) (tl0 m c) (rel0 m c) (W0' m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_after m ρ)
  have hk : ∀ b : Ref sig .tc, (b = main_arg0 ∨ b = main_arg1 ∨ b = main_arg2 ∨ b = main_arg3 ∨ b = main_arg4 ∨ b = main_arg5) →
      r.2.mem ((c.tc : Thread nD τ).loc b) = m ((c.tc : Thread nD τ).loc b) := fun b hb => by
    rw [h c b, keptB _ b hb, keptA _ b hb]
  refine ⟨?_, ?_, hk _ (.inl rfl), hk _ (.inr (.inl rfl)), hk _ (.inr (.inr (.inl rfl))), hk _ (.inr (.inr (.inr (.inl rfl)))),
    hk _ (.inr (.inr (.inr (.inr (.inl rfl))))), hk _ (.inr (.inr (.inr (.inr (.inr rfl)))))⟩
  · rw [h c main_v154, second_u, first_u, first_i, first_head, first_tail, first_rel, first_W]
  · rw [h c main_v153, second_i, first_u, first_i, first_head, first_tail, first_rel, first_W]

end Cert.ReferenceIdeal.Hop

end
-- ==== Proof.NodeUpdatePayload.lean ====
/-
  The node-update body at an entry. The body reads a block `x` of the table and the matching block `g` of the aggregate,
  both `[5000, 128]`, and leaves `x + (g + x) / max (‖g + x‖₂, eps)` row by row: entry `(p, q)` of the result is
    x[p,q] + (g[p,q] + x[p,q]) / max (√(∑_{k<128} (g[p,k] + x[p,k])²), eps).
  The four node-update regions have the same body. Its layout steps are a lane sum into a `[5000]` vector, that vector
  recast as a `[5000, 1]` column, and the column broadcast over the 128 lanes; the two column forms are read at an index
  here, the lane sum by the ideal values' law for a sum along one axis.
-/
import proofs.«131266_j69483980915102_2_alg».proof.Proof.Gen.KernelIdeal.Skeleton
import proofs.«131266_j69483980915102_2_alg».proof.Proof.Spec
import Idealize.ShloMosaic.PureOps.Ideal.Laws
import Idealize.ShloMosaic.Lib.ValueLayout

noncomputable section

namespace Cert.KernelIdeal.RegionValues

open Cert.KernelIdeal Cert.KernelIdeal.Gen
open Idealize.ShloMosaic Idealize.ShloMosaic.ValueIdx
open Cert.Rgat

variable {α : Type}

/-- An `[a]` array cast to `[a, 1]` reads, at `(i, u)`, the operand at `i`, whatever the unit coordinate `u`: the two
    row-major positions are `i` and `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`: the row coordinate is
    kept (were `a = 1` it would be `0` either way) and the unit axis is read at `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The node-update body from the sum `w` of its two input blocks and the table's block `x`, in the body's own
    operations: the squares `w * w` summed along the lanes into a `[5000]` vector, that vector recast as a `[5000, 1]`
    column, its square root, the maximum with the splat of `eps`, the column broadcast over the 128 lanes, `w` divided
    by it, and `x` added. So each row of `w` is divided by its Euclidean length, a length under `eps` counted as `eps`,
    and added to `x`: entry `(p, q)` is `x[p,q] + w[p,q] / max (√(∑_{k<128} w[p,k]²), eps)` (`normAdd_apply`). -/
def normAdd (w x : FVec Ideal S5000x128 .f32) : FVec Ideal S5000x128 .f32 :=
  addf x (divf w (broadcastTo S5000x128
    (maximumf (sqrt (shapeCast S5000x1
        (multiReduction .add [1] S5000 (mulf w w) 0x00000000#32 reduces_S5000x128_S5000 (.inl rfl) rfl)
        shapeCasts_S5000_S5000x1))
      (broadcast S5000x1 (Scalar.ofBits (F := Ideal) .f32 0x322BCC77#32)))
    broadcasts_S5000x1_S5000x128))

/-- `normAdd w x` at row `p`, lane `q` is `x[p,q] + w[p,q] / max (√(∑_{k<128} w[p,k] * w[p,k]), eps)`: the sum, the
    quotient, the maximum and the square root are taken entry by entry, the broadcast column is read at `(p, 0)`, the
    recast vector at `p`, and the lane sum at `p` is the sum over row `p`'s 128 entries. -/
theorem normAdd_apply (w x : FVec Ideal S5000x128 .f32) (p : Fin 5000) (q : Fin 128) :
    normAdd w x (ix2 p q) = x (ix2 p q) + Ideal.div (w (ix2 p q))
      (max (Ideal.sqrt (∑ k : Fin 128, w (ix2 p k) * w (ix2 p k))) eps) := by
  unfold normAdd
  -- entry by entry up to the divisor, which is the broadcast column at (p, q)
  refine congrArg (fun d => x (ix2 p q) + Ideal.div (w (ix2 p q)) d) ?_
  refine (broadcastTo_a1_ab_apply _ broadcasts_S5000x1_S5000x128 p q).trans ?_
  -- the column at (p, 0): the maximum of eps and the square root of the recast lane sum there
  refine congrArg (fun r => max (Ideal.sqrt r) eps) ?_
  refine (shapeCast_a_a1_apply _ shapeCasts_S5000_S5000x1 p (0 : Fin 1)).trans ?_
  -- the lane sum at p: the sum over the lane coordinate k of the squares at (p, k)
  refine (Ideal.multiReduction_add_single (mulf w w) 0x00000000#32 reduces_S5000x128_S5000 _ _ (ix1 p)).trans ?_
  refine Finset.sum_congr rfl fun k _ => ?_
  have e : reduces_S5000x128_S5000.lift (ix1 p) k = ix2 p k :=
    funext fun a => Fin.ext (by match a with | ⟨0, _⟩ => rfl | ⟨1, _⟩ => rfl)
  rw [e]
  rfl

/-- Region 1's body is `normAdd (v0 + v2) v12`: the body first recasts `v0` to the shape it already has, which changes
    nothing, adds `v2`, and from there is `normAdd`'s text. Of its three loads `v0` is the aggregate's block and `v2`, `v12`
    are both the table's block. -/
theorem k1_pay1_eq (v0 v2 v12 : Vec Ideal S5000x128 .f32) :
    Gen.k1_pay1 (F := Ideal) v0 v2 v12 = normAdd (addf v0 v2) v12 := by
  have e : shapeCast S5000x128 v0 shapeCasts_S5000x128_S5000x128 = v0 := shapeCast_self v0 _
  show normAdd (addf (shapeCast S5000x128 v0 shapeCasts_S5000x128_S5000x128) v2) v12 = _
  rw [e]

/-- Region 1's body at row `p`, lane `q`:
    `v12[p,q] + (v0[p,q] + v2[p,q]) / max (√(∑_{k<128} (v0[p,k] + v2[p,k])²), eps)`. -/
theorem k1_pay1_apply (v0 v2 v12 : Vec Ideal S5000x128 .f32) (p : Fin 5000) (q : Fin 128) :
    Gen.k1_pay1 (F := Ideal) v0 v2 v12 (ix2 p q) = v12 (ix2 p q) + Ideal.div (v0 (ix2 p q) + v2 (ix2 p q))
      (max (Ideal.sqrt (∑ k : Fin 128, (v0 (ix2 p k) + v2 (ix2 p k)) * (v0 (ix2 p k) + v2 (ix2 p k)))) eps) := by
  rw [k1_pay1_eq, normAdd_apply]
  rfl

/-- Region 2's body is `normAdd (v0 + v2) v12`: the body first recasts `v0` to the shape it already has, which changes
    nothing, adds `v2`, and from there is `normAdd`'s text. Of its three loads `v0` is the aggregate's block and `v2`, `v12`
    are both the table's block. -/
theorem k2_pay1_eq (v0 v2 v12 : Vec Ideal S5000x128 .f32) :
    Gen.k2_pay1 (F := Ideal) v0 v2 v12 = normAdd (addf v0 v2) v12 := by
  have e : shapeCast S5000x128 v0 shapeCasts_S5000x128_S5000x128 = v0 := shapeCast_self v0 _
  show normAdd (addf (shapeCast S5000x128 v0 shapeCasts_S5000x128_S5000x128) v2) v12 = _
  rw [e]

/-- Region 2's body at row `p`, lane `q`:
    `v12[p,q] + (v0[p,q] + v2[p,q]) / max (√(∑_{k<128} (v0[p,k] + v2[p,k])²), eps)`. -/
theorem k2_pay1_apply (v0 v2 v12 : Vec Ideal S5000x128 .f32) (p : Fin 5000) (q : Fin 128) :
    Gen.k2_pay1 (F := Ideal) v0 v2 v12 (ix2 p q) = v12 (ix2 p q) + Ideal.div (v0 (ix2 p q) + v2 (ix2 p q))
      (max (Ideal.sqrt (∑ k : Fin 128, (v0 (ix2 p k) + v2 (ix2 p k)) * (v0 (ix2 p k) + v2 (ix2 p k)))) eps) := by
  rw [k2_pay1_eq, normAdd_apply]
  rfl

/-- Region 4's body is `normAdd (v0 + v2) v12`: the body first recasts `v0` to the shape it already has, which changes
    nothing, adds `v2`, and from there is `normAdd`'s text. Of its three loads `v0` is the aggregate's block and `v2`, `v12`
    are both the table's block. -/
theorem k4_pay1_eq (v0 v2 v12 : Vec Ideal S5000x128 .f32) :
    Gen.k4_pay1 (F := Ideal) v0 v2 v12 = normAdd (addf v0 v2) v12 := by
  have e : shapeCast S5000x128 v0 shapeCasts_S5000x128_S5000x128 = v0 := shapeCast_self v0 _
  show normAdd (addf (shapeCast S5000x128 v0 shapeCasts_S5000x128_S5000x128) v2) v12 = _
  rw [e]

/-- Region 4's body at row `p`, lane `q`:
    `v12[p,q] + (v0[p,q] + v2[p,q]) / max (√(∑_{k<128} (v0[p,k] + v2[p,k])²), eps)`. -/
theorem k4_pay1_apply (v0 v2 v12 : Vec Ideal S5000x128 .f32) (p : Fin 5000) (q : Fin 128) :
    Gen.k4_pay1 (F := Ideal) v0 v2 v12 (ix2 p q) = v12 (ix2 p q) + Ideal.div (v0 (ix2 p q) + v2 (ix2 p q))
      (max (Ideal.sqrt (∑ k : Fin 128, (v0 (ix2 p k) + v2 (ix2 p k)) * (v0 (ix2 p k) + v2 (ix2 p k)))) eps) := by
  rw [k4_pay1_eq, normAdd_apply]
  rfl

/-- Region 5's body is `normAdd (v0 + v2) v12`: the body first recasts `v0` to the shape it already has, which changes
    nothing, adds `v2`, and from there is `normAdd`'s text. Of its three loads `v0` is the aggregate's block and `v2`, `v12`
    are both the table's block. -/
theorem k5_pay1_eq (v0 v2 v12 : Vec Ideal S5000x128 .f32) :
    Gen.k5_pay1 (F := Ideal) v0 v2 v12 = normAdd (addf v0 v2) v12 := by
  have e : shapeCast S5000x128 v0 shapeCasts_S5000x128_S5000x128 = v0 := shapeCast_self v0 _
  show normAdd (addf (shapeCast S5000x128 v0 shapeCasts_S5000x128_S5000x128) v2) v12 = _
  rw [e]

/-- Region 5's body at row `p`, lane `q`:
    `v12[p,q] + (v0[p,q] + v2[p,q]) / max (√(∑_{k<128} (v0[p,k] + v2[p,k])²), eps)`. -/
theorem k5_pay1_apply (v0 v2 v12 : Vec Ideal S5000x128 .f32) (p : Fin 5000) (q : Fin 128) :
    Gen.k5_pay1 (F := Ideal) v0 v2 v12 (ix2 p q) = v12 (ix2 p q) + Ideal.div (v0 (ix2 p q) + v2 (ix2 p q))
      (max (Ideal.sqrt (∑ k : Fin 128, (v0 (ix2 p k) + v2 (ix2 p k)) * (v0 (ix2 p k) + v2 (ix2 p k)))) eps) := by
  rw [k5_pay1_eq, normAdd_apply]
  rfl

end Cert.KernelIdeal.RegionValues

end
-- ==== Proof.NodeUpdateRegions.lean ====
/-
  The four node-update regions as whole-array functions of their entry arrays, at the ideal values.

  A node-update region walks its `[100000, 128]` output in 20 blocks of 5000 rows. At point `t` each of its three windows
  (the table, the aggregate, the output) is at block row `t`, block column 0, so row `p` of a block is row `5000 t + p`
  of its array, every lane. The body's result at a row depends on that row of the two input blocks only (a row's sum of
  squares stays inside the row), so what point `t` writes back is block `t` of ONE function of the two arrays,
  `nodeUpd`: `all + (agg + all) / max (‖agg + all‖₂, eps)` row by row, with the table in window 0 and the aggregate in
  window 1. The 20 blocks cover the array (row `r` is in block `r / 5000`), so the output array ends at that function.
-/
import proofs.«131266_j69483980915102_2_alg».proof.Proof.Gen.KernelIdeal.Frame
import proofs.«131266_j69483980915102_2_alg».proof.Proof.NodeUpdatePayload
import Idealize.ShloMosaic.Lib.Pipeline.Value

noncomputable section

namespace Cert.KernelIdeal.RegionValues

open Cert.KernelIdeal Cert.KernelIdeal.Gen
open Idealize.ShloMosaic Idealize.ShloMosaic.ValueIdx Idealize.ShloMosaic.TcCoe Idealize.SL.Sem
open Idealize.ShloMosaic.Pipeline (Dat)
open Cert.Rgat

variable (V : (c : Dev nD) → (b : Ref sig .tc) → Buf (Elt Ideal) ((c : Thread nD τ).loc b))

theorem zero_off2 : (![0, 0] : Fin 2 → Nat) = fun _ => 0 := funext fun a => by fin_cases a <;> rfl

/-- Row `p` of the `t`-th block of 5000 rows is row `5000 t + p` of the `[100000, 128]` array. -/
def blockRow (t : ℕ) (ht : t < 20) (p : Fin 5000) : Fin 100000 := ⟨t * 5000 + p.val, by have := p.isLt; omega⟩

/-- Region 1's index maps: at point `t` every window's block is block row `t`, block column 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem lt1 (t : Fin cfg1.N) : t.val < 20 := lt_of_lt_of_eq t.isLt N_1

/-- Input window 0's block at point `t`, at `(p, k)`, is the table as the region finds it at `(5000 t + p, k)`. -/
theorem iblk1_0_apply (c : Dev nD) (t : Fin cfg1.N) (p : Fin 5000) (k : Fin 128) :
    (iblk1 V c 0 t : Vec Ideal S5000x128 .f32) (ix2 p k)
      = (V c (Pipeline.arrRef spec1 0) : S100000x128.Idx → EReal) (ix2 (blockRow t.val (lt1 t) p) k) := by
  obtain ⟨e00, e01, -⟩ := idx1 t
  unfold iblk1
  rw [View.read_apply]
  show (V c (Pipeline.arrRef spec1 0) : S100000x128.Idx → EReal) (((cfg1.win 0).blk t).view.emb (ix2 p k)) = _
  refine congrArg (V c (Pipeline.arrRef spec1 0) : S100000x128.Idx → EReal) (funext fun a => Fin.ext ?_)
  match a with
  | ⟨0, _⟩ => show win1_0.index t (0 : Fin 2) * 5000 + 1 * p.val = t.val * 5000 + p.val; rw [e00]; omega
  | ⟨1, _⟩ => show win1_0.index t (1 : Fin 2) * 128 + 1 * k.val = k.val; rw [e01]; omega

/-- Input window 1's block at point `t`, at `(p, k)`, is the aggregate as the region finds it at `(5000 t + p, k)`. -/
theorem iblk1_1_apply (c : Dev nD) (t : Fin cfg1.N) (p : Fin 5000) (k : Fin 128) :
    (iblk1 V c 1 t : Vec Ideal S5000x128 .f32) (ix2 p k)
      = (V c (Pipeline.arrRef spec1 1) : S100000x128.Idx → EReal) (ix2 (blockRow t.val (lt1 t) p) k) := by
  obtain ⟨-, -, e10, e11, -⟩ := idx1 t
  unfold iblk1
  rw [View.read_apply]
  show (V c (Pipeline.arrRef spec1 1) : S100000x128.Idx → EReal) (((cfg1.win 1).blk t).view.emb (ix2 p k)) = _
  refine congrArg (V c (Pipeline.arrRef spec1 1) : S100000x128.Idx → EReal) (funext fun a => Fin.ext ?_)
  match a with
  | ⟨0, _⟩ => show win1_1.index t (0 : Fin 2) * 5000 + 1 * p.val = t.val * 5000 + p.val; rw [e10]; omega
  | ⟨1, _⟩ => show win1_1.index t (1 : Fin 2) * 128 + 1 * k.val = k.val; rw [e11]; omega

/-- Output window 2's block at point `t` puts its `(p, q)` at `(5000 t + p, q)` of the array. -/
theorem emb1_2 (t : Fin cfg1.N) (p : Fin 5000) (q : Fin 128) :
    ((cfg1.win 2).blk t).view.emb (ix2 p q) = (ix2 (blockRow t.val (lt1 t) p) q : S100000x128.Idx) := by
  obtain ⟨-, -, -, -, e20, e21⟩ := idx1 t
  refine funext fun a => Fin.ext ?_
  match a with
  | ⟨0, _⟩ => show win1_2.index t (0 : Fin 2) * 5000 + 1 * p.val = t.val * 5000 + p.val; rw [e20]; omega
  | ⟨1, _⟩ => show win1_2.index t (1 : Fin 2) * 128 + 1 * q.val = q.val; rw [e21]; omega

/-- What point `t` of region 1 writes back is block `t` of `nodeUpd` of the two arrays as the region finds them: a
    row of the body's block depends on that row of its two input blocks only, and all three blocks are rows
    `5000 t … 5000 t + 4999`, every lane. -/
theorem flushed1 (c : Dev nD) (t : Fin cfg1.N) :
    (dat1 V c).flushed 2 t = ((cfg1.win 2).blk t).view.read (Elt Ideal)
      (ofTab (nodeUpd (toTab (V c (Pipeline.arrRef spec1 0))) (toTab (V c (Pipeline.arrRef spec1 1))))) := by
  show (cfg1.win 2).cut (grid1.coords t) ((dat1 V c).after 2 t) = _
  rw [after1_2]
  unfold out1_2
  rw [View.canon_unit_zero zero_off2]
  simp only [View.ld_unit_zero (S := S5000x128) zero_off2]
  funext j
  obtain ⟨p, q, rfl⟩ : ∃ (p : Fin 5000) (q : Fin 128), j = ix2 p q := ⟨j 0, j 1, eq_ix2 j⟩
  show Gen.k1_pay1 (F := Ideal) (iblk1 V c 1 t) (iblk1 V c 0 t) (iblk1 V c 0 t) (ix2 p q)
    = ofTab (nodeUpd (toTab (V c (Pipeline.arrRef spec1 0))) (toTab (V c (Pipeline.arrRef spec1 1))))
        (((cfg1.win 2).blk t).view.emb (ix2 p q))
  rw [emb1_2 t p q]
  refine (k1_pay1_apply (iblk1 V c 1 t) (iblk1 V c 0 t) (iblk1 V c 0 t) p q).trans ?_
  simp only [iblk1_0_apply V c t, iblk1_1_apply V c t]
  rfl

/-- An index of the array is in point `t`'s output block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v74).slice (win1_2.rect t)).set ↔ _
  rw [View.set_slice_whole, Rect.mem_set_unit]
  exact Iff.rfl

/-- The twenty output blocks cover the array: row `r` is in the block of point `r / 5000`, whatever the lane. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, e20, e21⟩ := idx1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    rw [e20, ht]; omega
  | ⟨1, _⟩ =>
    show win1_2.index t (1 : Fin 2) * 128 ≤ (i 1).val ∧ (i 1).val < win1_2.index t (1 : Fin 2) * 128 + 128
    rw [e21]; omega

/-- REGION 1: its output array ends at `nodeUpd` of the table (window 0) and the aggregate (window 1) as the region
    finds them: `all + (agg + all) / max (‖agg + all‖₂, eps)`, row by row. -/
theorem region1 (c : Dev nD) :
    (dat1 V c).arrAt 2 cfg1.N
      = ofTab (nodeUpd (toTab (V c (Pipeline.arrRef spec1 0))) (toTab (V c (Pipeline.arrRef spec1 1)))) :=
  (dat1 V c).arrAt_eq_of_cover 2 _ (fun t _ => flushed1 V c t) cover1

/-- Region 2's index maps: at point `t` every window's block is block row `t`, block column 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem lt2 (t : Fin cfg2.N) : t.val < 20 := lt_of_lt_of_eq t.isLt N_2

/-- Input window 0's block at point `t`, at `(p, k)`, is the table as the region finds it at `(5000 t + p, k)`. -/
theorem iblk2_0_apply (c : Dev nD) (t : Fin cfg2.N) (p : Fin 5000) (k : Fin 128) :
    (iblk2 V c 0 t : Vec Ideal S5000x128 .f32) (ix2 p k)
      = (V c (Pipeline.arrRef spec2 0) : S100000x128.Idx → EReal) (ix2 (blockRow t.val (lt2 t) p) k) := by
  obtain ⟨e00, e01, -⟩ := idx2 t
  unfold iblk2
  rw [View.read_apply]
  show (V c (Pipeline.arrRef spec2 0) : S100000x128.Idx → EReal) (((cfg2.win 0).blk t).view.emb (ix2 p k)) = _
  refine congrArg (V c (Pipeline.arrRef spec2 0) : S100000x128.Idx → EReal) (funext fun a => Fin.ext ?_)
  match a with
  | ⟨0, _⟩ => show win2_0.index t (0 : Fin 2) * 5000 + 1 * p.val = t.val * 5000 + p.val; rw [e00]; omega
  | ⟨1, _⟩ => show win2_0.index t (1 : Fin 2) * 128 + 1 * k.val = k.val; rw [e01]; omega

/-- Input window 1's block at point `t`, at `(p, k)`, is the aggregate as the region finds it at `(5000 t + p, k)`. -/
theorem iblk2_1_apply (c : Dev nD) (t : Fin cfg2.N) (p : Fin 5000) (k : Fin 128) :
    (iblk2 V c 1 t : Vec Ideal S5000x128 .f32) (ix2 p k)
      = (V c (Pipeline.arrRef spec2 1) : S100000x128.Idx → EReal) (ix2 (blockRow t.val (lt2 t) p) k) := by
  obtain ⟨-, -, e10, e11, -⟩ := idx2 t
  unfold iblk2
  rw [View.read_apply]
  show (V c (Pipeline.arrRef spec2 1) : S100000x128.Idx → EReal) (((cfg2.win 1).blk t).view.emb (ix2 p k)) = _
  refine congrArg (V c (Pipeline.arrRef spec2 1) : S100000x128.Idx → EReal) (funext fun a => Fin.ext ?_)
  match a with
  | ⟨0, _⟩ => show win2_1.index t (0 : Fin 2) * 5000 + 1 * p.val = t.val * 5000 + p.val; rw [e10]; omega
  | ⟨1, _⟩ => show win2_1.index t (1 : Fin 2) * 128 + 1 * k.val = k.val; rw [e11]; omega

/-- Output window 2's block at point `t` puts its `(p, q)` at `(5000 t + p, q)` of the array. -/
theorem emb2_2 (t : Fin cfg2.N) (p : Fin 5000) (q : Fin 128) :
    ((cfg2.win 2).blk t).view.emb (ix2 p q) = (ix2 (blockRow t.val (lt2 t) p) q : S100000x128.Idx) := by
  obtain ⟨-, -, -, -, e20, e21⟩ := idx2 t
  refine funext fun a => Fin.ext ?_
  match a with
  | ⟨0, _⟩ => show win2_2.index t (0 : Fin 2) * 5000 + 1 * p.val = t.val * 5000 + p.val; rw [e20]; omega
  | ⟨1, _⟩ => show win2_2.index t (1 : Fin 2) * 128 + 1 * q.val = q.val; rw [e21]; omega

/-- What point `t` of region 2 writes back is block `t` of `nodeUpd` of the two arrays as the region finds them: a
    row of the body's block depends on that row of its two input blocks only, and all three blocks are rows
    `5000 t … 5000 t + 4999`, every lane. -/
theorem flushed2 (c : Dev nD) (t : Fin cfg2.N) :
    (dat2 V c).flushed 2 t = ((cfg2.win 2).blk t).view.read (Elt Ideal)
      (ofTab (nodeUpd (toTab (V c (Pipeline.arrRef spec2 0))) (toTab (V c (Pipeline.arrRef spec2 1))))) := by
  show (cfg2.win 2).cut (grid2.coords t) ((dat2 V c).after 2 t) = _
  rw [after2_2]
  unfold out2_2
  rw [View.canon_unit_zero zero_off2]
  simp only [View.ld_unit_zero (S := S5000x128) zero_off2]
  funext j
  obtain ⟨p, q, rfl⟩ : ∃ (p : Fin 5000) (q : Fin 128), j = ix2 p q := ⟨j 0, j 1, eq_ix2 j⟩
  show Gen.k2_pay1 (F := Ideal) (iblk2 V c 1 t) (iblk2 V c 0 t) (iblk2 V c 0 t) (ix2 p q)
    = ofTab (nodeUpd (toTab (V c (Pipeline.arrRef spec2 0))) (toTab (V c (Pipeline.arrRef spec2 1))))
        (((cfg2.win 2).blk t).view.emb (ix2 p q))
  rw [emb2_2 t p q]
  refine (k2_pay1_apply (iblk2 V c 1 t) (iblk2 V c 0 t) (iblk2 V c 0 t) p q).trans ?_
  simp only [iblk2_0_apply V c t, iblk2_1_apply V c t]
  rfl

/-- An index of the array is in point `t`'s output block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v75).slice (win2_2.rect t)).set ↔ _
  rw [View.set_slice_whole, Rect.mem_set_unit]
  exact Iff.rfl

/-- The twenty output blocks cover the array: row `r` is in the block of point `r / 5000`, whatever the lane. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨-, -, -, -, e20, e21⟩ := idx2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    rw [e20, ht]; omega
  | ⟨1, _⟩ =>
    show win2_2.index t (1 : Fin 2) * 128 ≤ (i 1).val ∧ (i 1).val < win2_2.index t (1 : Fin 2) * 128 + 128
    rw [e21]; omega

/-- REGION 2: its output array ends at `nodeUpd` of the table (window 0) and the aggregate (window 1) as the region
    finds them: `all + (agg + all) / max (‖agg + all‖₂, eps)`, row by row. -/
theorem region2 (c : Dev nD) :
    (dat2 V c).arrAt 2 cfg2.N
      = ofTab (nodeUpd (toTab (V c (Pipeline.arrRef spec2 0))) (toTab (V c (Pipeline.arrRef spec2 1)))) :=
  (dat2 V c).arrAt_eq_of_cover 2 _ (fun t _ => flushed2 V c t) cover2

/-- Region 4's index maps: at point `t` every window's block is block row `t`, block column 0. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem lt4 (t : Fin cfg4.N) : t.val < 20 := lt_of_lt_of_eq t.isLt N_4

/-- Input window 0's block at point `t`, at `(p, k)`, is the table as the region finds it at `(5000 t + p, k)`. -/
theorem iblk4_0_apply (c : Dev nD) (t : Fin cfg4.N) (p : Fin 5000) (k : Fin 128) :
    (iblk4 V c 0 t : Vec Ideal S5000x128 .f32) (ix2 p k)
      = (V c (Pipeline.arrRef spec4 0) : S100000x128.Idx → EReal) (ix2 (blockRow t.val (lt4 t) p) k) := by
  obtain ⟨e00, e01, -⟩ := idx4 t
  unfold iblk4
  rw [View.read_apply]
  show (V c (Pipeline.arrRef spec4 0) : S100000x128.Idx → EReal) (((cfg4.win 0).blk t).view.emb (ix2 p k)) = _
  refine congrArg (V c (Pipeline.arrRef spec4 0) : S100000x128.Idx → EReal) (funext fun a => Fin.ext ?_)
  match a with
  | ⟨0, _⟩ => show win4_0.index t (0 : Fin 2) * 5000 + 1 * p.val = t.val * 5000 + p.val; rw [e00]; omega
  | ⟨1, _⟩ => show win4_0.index t (1 : Fin 2) * 128 + 1 * k.val = k.val; rw [e01]; omega

/-- Input window 1's block at point `t`, at `(p, k)`, is the aggregate as the region finds it at `(5000 t + p, k)`. -/
theorem iblk4_1_apply (c : Dev nD) (t : Fin cfg4.N) (p : Fin 5000) (k : Fin 128) :
    (iblk4 V c 1 t : Vec Ideal S5000x128 .f32) (ix2 p k)
      = (V c (Pipeline.arrRef spec4 1) : S100000x128.Idx → EReal) (ix2 (blockRow t.val (lt4 t) p) k) := by
  obtain ⟨-, -, e10, e11, -⟩ := idx4 t
  unfold iblk4
  rw [View.read_apply]
  show (V c (Pipeline.arrRef spec4 1) : S100000x128.Idx → EReal) (((cfg4.win 1).blk t).view.emb (ix2 p k)) = _
  refine congrArg (V c (Pipeline.arrRef spec4 1) : S100000x128.Idx → EReal) (funext fun a => Fin.ext ?_)
  match a with
  | ⟨0, _⟩ => show win4_1.index t (0 : Fin 2) * 5000 + 1 * p.val = t.val * 5000 + p.val; rw [e10]; omega
  | ⟨1, _⟩ => show win4_1.index t (1 : Fin 2) * 128 + 1 * k.val = k.val; rw [e11]; omega

/-- Output window 2's block at point `t` puts its `(p, q)` at `(5000 t + p, q)` of the array. -/
theorem emb4_2 (t : Fin cfg4.N) (p : Fin 5000) (q : Fin 128) :
    ((cfg4.win 2).blk t).view.emb (ix2 p q) = (ix2 (blockRow t.val (lt4 t) p) q : S100000x128.Idx) := by
  obtain ⟨-, -, -, -, e20, e21⟩ := idx4 t
  refine funext fun a => Fin.ext ?_
  match a with
  | ⟨0, _⟩ => show win4_2.index t (0 : Fin 2) * 5000 + 1 * p.val = t.val * 5000 + p.val; rw [e20]; omega
  | ⟨1, _⟩ => show win4_2.index t (1 : Fin 2) * 128 + 1 * q.val = q.val; rw [e21]; omega

/-- What point `t` of region 4 writes back is block `t` of `nodeUpd` of the two arrays as the region finds them: a
    row of the body's block depends on that row of its two input blocks only, and all three blocks are rows
    `5000 t … 5000 t + 4999`, every lane. -/
theorem flushed4 (c : Dev nD) (t : Fin cfg4.N) :
    (dat4 V c).flushed 2 t = ((cfg4.win 2).blk t).view.read (Elt Ideal)
      (ofTab (nodeUpd (toTab (V c (Pipeline.arrRef spec4 0))) (toTab (V c (Pipeline.arrRef spec4 1))))) := by
  show (cfg4.win 2).cut (grid4.coords t) ((dat4 V c).after 2 t) = _
  rw [after4_2]
  unfold out4_2
  rw [View.canon_unit_zero zero_off2]
  simp only [View.ld_unit_zero (S := S5000x128) zero_off2]
  funext j
  obtain ⟨p, q, rfl⟩ : ∃ (p : Fin 5000) (q : Fin 128), j = ix2 p q := ⟨j 0, j 1, eq_ix2 j⟩
  show Gen.k4_pay1 (F := Ideal) (iblk4 V c 1 t) (iblk4 V c 0 t) (iblk4 V c 0 t) (ix2 p q)
    = ofTab (nodeUpd (toTab (V c (Pipeline.arrRef spec4 0))) (toTab (V c (Pipeline.arrRef spec4 1))))
        (((cfg4.win 2).blk t).view.emb (ix2 p q))
  rw [emb4_2 t p q]
  refine (k4_pay1_apply (iblk4 V c 1 t) (iblk4 V c 0 t) (iblk4 V c 0 t) p q).trans ?_
  simp only [iblk4_0_apply V c t, iblk4_1_apply V c t]
  rfl

/-- An index of the array is in point `t`'s output block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v131).slice (win4_2.rect t)).set ↔ _
  rw [View.set_slice_whole, Rect.mem_set_unit]
  exact Iff.rfl

/-- The twenty output blocks cover the array: row `r` is in the block of point `r / 5000`, whatever the lane. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, lt_of_lt_of_eq (by omega : (i 0).val / 5000 < 20) N_4.symm⟩, rfl⟩
  obtain ⟨-, -, -, -, e20, e21⟩ := idx4 t
  refine ⟨t, flush4_2 t, ?_⟩
  rw [mem_blk4]
  intro a
  match a with
  | ⟨0, _⟩ =>
    show win4_2.index t (0 : Fin 2) * 5000 ≤ (i 0).val ∧ (i 0).val < win4_2.index t (0 : Fin 2) * 5000 + 5000
    rw [e20, ht]; omega
  | ⟨1, _⟩ =>
    show win4_2.index t (1 : Fin 2) * 128 ≤ (i 1).val ∧ (i 1).val < win4_2.index t (1 : Fin 2) * 128 + 128
    rw [e21]; omega

/-- REGION 4: its output array ends at `nodeUpd` of the table (window 0) and the aggregate (window 1) as the region
    finds them: `all + (agg + all) / max (‖agg + all‖₂, eps)`, row by row. -/
theorem region4 (c : Dev nD) :
    (dat4 V c).arrAt 2 cfg4.N
      = ofTab (nodeUpd (toTab (V c (Pipeline.arrRef spec4 0))) (toTab (V c (Pipeline.arrRef spec4 1)))) :=
  (dat4 V c).arrAt_eq_of_cover 2 _ (fun t _ => flushed4 V c t) cover4

/-- Region 5's index maps: at point `t` every window's block is block row `t`, block column 0. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

theorem lt5 (t : Fin cfg5.N) : t.val < 20 := lt_of_lt_of_eq t.isLt N_5

/-- Input window 0's block at point `t`, at `(p, k)`, is the table as the region finds it at `(5000 t + p, k)`. -/
theorem iblk5_0_apply (c : Dev nD) (t : Fin cfg5.N) (p : Fin 5000) (k : Fin 128) :
    (iblk5 V c 0 t : Vec Ideal S5000x128 .f32) (ix2 p k)
      = (V c (Pipeline.arrRef spec5 0) : S100000x128.Idx → EReal) (ix2 (blockRow t.val (lt5 t) p) k) := by
  obtain ⟨e00, e01, -⟩ := idx5 t
  unfold iblk5
  rw [View.read_apply]
  show (V c (Pipeline.arrRef spec5 0) : S100000x128.Idx → EReal) (((cfg5.win 0).blk t).view.emb (ix2 p k)) = _
  refine congrArg (V c (Pipeline.arrRef spec5 0) : S100000x128.Idx → EReal) (funext fun a => Fin.ext ?_)
  match a with
  | ⟨0, _⟩ => show win5_0.index t (0 : Fin 2) * 5000 + 1 * p.val = t.val * 5000 + p.val; rw [e00]; omega
  | ⟨1, _⟩ => show win5_0.index t (1 : Fin 2) * 128 + 1 * k.val = k.val; rw [e01]; omega

/-- Input window 1's block at point `t`, at `(p, k)`, is the aggregate as the region finds it at `(5000 t + p, k)`. -/
theorem iblk5_1_apply (c : Dev nD) (t : Fin cfg5.N) (p : Fin 5000) (k : Fin 128) :
    (iblk5 V c 1 t : Vec Ideal S5000x128 .f32) (ix2 p k)
      = (V c (Pipeline.arrRef spec5 1) : S100000x128.Idx → EReal) (ix2 (blockRow t.val (lt5 t) p) k) := by
  obtain ⟨-, -, e10, e11, -⟩ := idx5 t
  unfold iblk5
  rw [View.read_apply]
  show (V c (Pipeline.arrRef spec5 1) : S100000x128.Idx → EReal) (((cfg5.win 1).blk t).view.emb (ix2 p k)) = _
  refine congrArg (V c (Pipeline.arrRef spec5 1) : S100000x128.Idx → EReal) (funext fun a => Fin.ext ?_)
  match a with
  | ⟨0, _⟩ => show win5_1.index t (0 : Fin 2) * 5000 + 1 * p.val = t.val * 5000 + p.val; rw [e10]; omega
  | ⟨1, _⟩ => show win5_1.index t (1 : Fin 2) * 128 + 1 * k.val = k.val; rw [e11]; omega

/-- Output window 2's block at point `t` puts its `(p, q)` at `(5000 t + p, q)` of the array. -/
theorem emb5_2 (t : Fin cfg5.N) (p : Fin 5000) (q : Fin 128) :
    ((cfg5.win 2).blk t).view.emb (ix2 p q) = (ix2 (blockRow t.val (lt5 t) p) q : S100000x128.Idx) := by
  obtain ⟨-, -, -, -, e20, e21⟩ := idx5 t
  refine funext fun a => Fin.ext ?_
  match a with
  | ⟨0, _⟩ => show win5_2.index t (0 : Fin 2) * 5000 + 1 * p.val = t.val * 5000 + p.val; rw [e20]; omega
  | ⟨1, _⟩ => show win5_2.index t (1 : Fin 2) * 128 + 1 * q.val = q.val; rw [e21]; omega

/-- What point `t` of region 5 writes back is block `t` of `nodeUpd` of the two arrays as the region finds them: a
    row of the body's block depends on that row of its two input blocks only, and all three blocks are rows
    `5000 t … 5000 t + 4999`, every lane. -/
theorem flushed5 (c : Dev nD) (t : Fin cfg5.N) :
    (dat5 V c).flushed 2 t = ((cfg5.win 2).blk t).view.read (Elt Ideal)
      (ofTab (nodeUpd (toTab (V c (Pipeline.arrRef spec5 0))) (toTab (V c (Pipeline.arrRef spec5 1))))) := by
  show (cfg5.win 2).cut (grid5.coords t) ((dat5 V c).after 2 t) = _
  rw [after5_2]
  unfold out5_2
  rw [View.canon_unit_zero zero_off2]
  simp only [View.ld_unit_zero (S := S5000x128) zero_off2]
  funext j
  obtain ⟨p, q, rfl⟩ : ∃ (p : Fin 5000) (q : Fin 128), j = ix2 p q := ⟨j 0, j 1, eq_ix2 j⟩
  show Gen.k5_pay1 (F := Ideal) (iblk5 V c 1 t) (iblk5 V c 0 t) (iblk5 V c 0 t) (ix2 p q)
    = ofTab (nodeUpd (toTab (V c (Pipeline.arrRef spec5 0))) (toTab (V c (Pipeline.arrRef spec5 1))))
        (((cfg5.win 2).blk t).view.emb (ix2 p q))
  rw [emb5_2 t p q]
  refine (k5_pay1_apply (iblk5 V c 1 t) (iblk5 V c 0 t) (iblk5 V c 0 t) p q).trans ?_
  simp only [iblk5_0_apply V c t, iblk5_1_apply V c t]
  rfl

/-- An index of the array is in point `t`'s output block iff each coordinate is in the block's range on its axis. -/
theorem mem_blk5 (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v132).slice (win5_2.rect t)).set ↔ _
  rw [View.set_slice_whole, Rect.mem_set_unit]
  exact Iff.rfl

/-- The twenty output blocks cover the array: row `r` is in the block of point `r / 5000`, whatever the lane. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ : ∃ t : Fin cfg5.N, t.val = (i 0).val / 5000 :=
    ⟨⟨(i 0).val / 5000, lt_of_lt_of_eq (by omega : (i 0).val / 5000 < 20) N_5.symm⟩, rfl⟩
  obtain ⟨-, -, -, -, e20, e21⟩ := idx5 t
  refine ⟨t, flush5_2 t, ?_⟩
  rw [mem_blk5]
  intro a
  match a with
  | ⟨0, _⟩ =>
    show win5_2.index t (0 : Fin 2) * 5000 ≤ (i 0).val ∧ (i 0).val < win5_2.index t (0 : Fin 2) * 5000 + 5000
    rw [e20, ht]; omega
  | ⟨1, _⟩ =>
    show win5_2.index t (1 : Fin 2) * 128 ≤ (i 1).val ∧ (i 1).val < win5_2.index t (1 : Fin 2) * 128 + 128
    rw [e21]; omega

/-- REGION 5: its output array ends at `nodeUpd` of the table (window 0) and the aggregate (window 1) as the region
    finds them: `all + (agg + all) / max (‖agg + all‖₂, eps)`, row by row. -/
theorem region5 (c : Dev nD) :
    (dat5 V c).arrAt 2 cfg5.N
      = ofTab (nodeUpd (toTab (V c (Pipeline.arrRef spec5 0))) (toTab (V c (Pipeline.arrRef spec5 1)))) :=
  (dat5 V c).arrAt_eq_of_cover 2 _ (fun t _ => flushed5 V c t) cover5

end Cert.KernelIdeal.RegionValues

end
-- ==== Proof.EdgeAttnPayload.lean ====
/-
  The edge-attention body at a row. The body reads three `[8192, 128]` blocks `h`, `t`, `r` (bf16) and two whole
  `[128, 128]` matrices `w1`, `w2` (f32), and leaves the `[8192]` vector whose entry at row `e` is
    exp (leaky (∑_{j<128} ((∑_{k<128} h[e,k] * w1[k,j]) + (∑_{k<128} t[e,k] * w2[k,j])) * r[e,j])),
  `leaky s` being `s` where `s > 0` and `slope * s` elsewhere. The two regions of this kind have the same body. Its two
  products are matrix products into zero accumulators, read at an entry as the sum over the one contracted coordinate;
  the row sum is a lane sum, read by the ideal values' law for a sum along one axis; the changes of format between bf16
  and f32 are the identity at the ideal values, and the rest is entry by entry.
-/
import proofs.«131266_j69483980915102_2_alg».proof.Proof.Gen.KernelIdeal.Skeleton
import proofs.«131266_j69483980915102_2_alg».proof.Proof.Spec
import Idealize.ShloMosaic.PureOps.Ideal.Laws
import Idealize.ShloMosaic.Lib.ValueIdx
import Idealize.ShloMosaic.Lib.Pipeline.Value

noncomputable section

namespace Cert.KernelIdeal.RegionValues

open Cert.KernelIdeal Cert.KernelIdeal.Gen
open Idealize.ShloMosaic Idealize.ShloMosaic.ValueIdx
open Cert.Rgat

/-- The body's product of an `[8192, 128]` block and a `[128, 128]` matrix into a zero accumulator, at `(r, j)`: the sum
    over the one contracted coordinate `k` of the block at `(r, k)` times the matrix at `(k, j)`. -/
theorem matmul_row_apply (x : FVec Ideal S8192x128 .bf16) (w : FVec Ideal S128x128 .bf16) (r : Fin 8192) (j : Fin 128) :
    matmul dot_S8192x128_S128x128_S8192x128_1_0_0_1_n_n none x w (constant (F := Ideal) S8192x128 .f32 0x00000000#32) (ix2 r j)
      = ∑ k : Fin 128, x (ix2 r k) * w (ix2 k j) := by
  refine (Ideal.matmul_constant_zero_apply dot_S8192x128_S128x128_S8192x128_1_0_0_1_n_n none x w (ix2 r j)).trans ?_
  have hr : (dot_S8192x128_S128x128_S8192x128_1_0_0_1_n_n).contr.rank = 1 := rfl
  have hs : (dot_S8192x128_S128x128_S8192x128_1_0_0_1_n_n).contr.size ⟨0, by omega⟩ = 128 := rfl
  rw [← Equiv.sum_comp (contrEquiv1 dot_S8192x128_S128x128_S8192x128_1_0_0_1_n_n 128 hr hs).symm]
  refine Finset.sum_congr rfl fun k _ => ?_
  have hk := contrEquiv1_symm_val dot_S8192x128_S128x128_S8192x128_1_0_0_1_n_n 128 hr hs k
  have el : (dot_S8192x128_S128x128_S8192x128_1_0_0_1_n_n).lhsIdx (ix2 r j) ((contrEquiv1 dot_S8192x128_S128x128_S8192x128_1_0_0_1_n_n 128 hr hs).symm k) = ix2 r k :=
    funext fun a => Fin.ext (by
      match a with
      | ⟨0, _⟩ => rfl
      | ⟨1, _⟩ => exact ((dot_S8192x128_S128x128_S8192x128_1_0_0_1_n_n).lhsIdx_val_of_single (cl := 1) rfl (ix2 r j) _).trans hk)
  have er : (dot_S8192x128_S128x128_S8192x128_1_0_0_1_n_n).rhsIdx (ix2 r j) ((contrEquiv1 dot_S8192x128_S128x128_S8192x128_1_0_0_1_n_n 128 hr hs).symm k) = ix2 k j :=
    funext fun a => Fin.ext (by
      match a with
      | ⟨0, _⟩ => exact ((dot_S8192x128_S128x128_S8192x128_1_0_0_1_n_n).rhsIdx_val_of_single (cr := 0) rfl (ix2 r j) _).trans hk
      | ⟨1, _⟩ => rfl)
  rw [el, er]

/-- The edge-attention body after its two products: from their sum `M` and a second array `R`, both `[8192, 128]`,
    the row sums `s = ∑_j M[·,j] * R[·,j]`, the leaky rectifier of them as a select on `s > 0` between `s` and
    `slope * s`, and the exponential. -/
def expLeaky (M R : FVec Ideal S8192x128 .f32) : FVec Ideal S8192 .f32 :=
  exp (select
    (cmpf .ogt (multiReduction .add [1] S8192 (mulf M R) 0x00000000#32 reduces_S8192x128_S8192 (.inl rfl) rfl)
      (broadcast S8192 (Scalar.ofBits (F := Ideal) .f32 0x00000000#32)))
    (multiReduction .add [1] S8192 (mulf M R) 0x00000000#32 reduces_S8192x128_S8192 (.inl rfl) rfl)
    (mulf (broadcast S8192 (Scalar.ofBits (F := Ideal) .f32 0x3E4CCCCD#32))
      (multiReduction .add [1] S8192 (mulf M R) 0x00000000#32 reduces_S8192x128_S8192 (.inl rfl) rfl)))

theorem expLeaky_apply (M R : FVec Ideal S8192x128 .f32) (r : Fin 8192) :
    expLeaky M R (ix1 r) = Ideal.exp (leaky (∑ j : Fin 128, M (ix2 r j) * R (ix2 r j))) := by
  have hs : multiReduction .add [1] S8192 (mulf M R) 0x00000000#32 reduces_S8192x128_S8192 (.inl rfl) rfl (ix1 r)
      = ∑ j : Fin 128, M (ix2 r j) * R (ix2 r j) := by
    refine (Ideal.multiReduction_add_single (mulf M R) 0x00000000#32 reduces_S8192x128_S8192 _ _ (ix1 r)).trans ?_
    refine Finset.sum_congr rfl fun k _ => ?_
    have e : reduces_S8192x128_S8192.lift (ix1 r) k = ix2 r k :=
      funext fun a => Fin.ext (by match a with | ⟨0, _⟩ => rfl | ⟨1, _⟩ => rfl)
    rw [e]
    rfl
  unfold expLeaky
  show Ideal.exp (Scalar.select (Ideal.cmp .ogt
      (multiReduction .add [1] S8192 (mulf M R) 0x00000000#32 reduces_S8192x128_S8192 (.inl rfl) rfl (ix1 r))
      (Ideal.ofBits .f32 0x00000000#32))
    (multiReduction .add [1] S8192 (mulf M R) 0x00000000#32 reduces_S8192x128_S8192 (.inl rfl) rfl (ix1 r))
    (Ideal.ofBits .f32 0x3E4CCCCD#32 *
      multiReduction .add [1] S8192 (mulf M R) 0x00000000#32 reduces_S8192x128_S8192 (.inl rfl) rfl (ix1 r))) = _
  rw [hs, Ideal.ofBits_zero_f32]
  rfl

/-- Region 0's body is `expLeaky` of the sum of its two products and of its third block widened to f32: the body
    recasts each of its five loads to the shape it already has, which changes nothing, narrows the two `[128, 128]`
    matrices `v4`, `v7` to bf16, multiplies its first block `v0` by `v4` and its second block `v2` by `v7` into zero
    accumulators, adds the two products, widens its third block `v13`, and from there is `expLeaky`'s text. -/
theorem k0_pay1_eq (v0 v2 : FVec Ideal S8192x128 .bf16) (v4 v7 : FVec Ideal S128x128 .f32) (v13 : FVec Ideal S8192x128 .bf16) :
    Gen.k0_pay1 (F := Ideal) v0 v2 v4 v7 v13 = expLeaky
      (addf
        (matmul dot_S8192x128_S128x128_S8192x128_1_0_0_1_n_n none v0 (truncf .bf16 v4 bitsLt_bf16_f32) (constant (F := Ideal) S8192x128 .f32 0x00000000#32))
        (matmul dot_S8192x128_S128x128_S8192x128_1_0_0_1_n_n none v2 (truncf .bf16 v7 bitsLt_bf16_f32) (constant (F := Ideal) S8192x128 .f32 0x00000000#32)))
      (extf .f32 v13 bitsLt_bf16_f32) := by
  have e0 : shapeCast S8192x128 v0 shapeCasts_S8192x128_S8192x128 = v0 := shapeCast_self v0 _
  have e2 : shapeCast S8192x128 v2 shapeCasts_S8192x128_S8192x128 = v2 := shapeCast_self v2 _
  have e4 : shapeCast S128x128 v4 shapeCasts_S128x128_S128x128 = v4 := shapeCast_self v4 _
  have e7 : shapeCast S128x128 v7 shapeCasts_S128x128_S128x128 = v7 := shapeCast_self v7 _
  have e13 : shapeCast S8192x128 v13 shapeCasts_S8192x128_S8192x128 = v13 := shapeCast_self v13 _
  show expLeaky
      (addf
        (matmul dot_S8192x128_S128x128_S8192x128_1_0_0_1_n_n none (shapeCast S8192x128 v0 shapeCasts_S8192x128_S8192x128)
          (truncf .bf16 (shapeCast S128x128 v4 shapeCasts_S128x128_S128x128) bitsLt_bf16_f32)
          (constant (F := Ideal) S8192x128 .f32 0x00000000#32))
        (matmul dot_S8192x128_S128x128_S8192x128_1_0_0_1_n_n none (shapeCast S8192x128 v2 shapeCasts_S8192x128_S8192x128)
          (truncf .bf16 (shapeCast S128x128 v7 shapeCasts_S128x128_S128x128) bitsLt_bf16_f32)
          (constant (F := Ideal) S8192x128 .f32 0x00000000#32)))
      (extf .f32 (shapeCast S8192x128 v13 shapeCasts_S8192x128_S8192x128) bitsLt_bf16_f32) = _
  rw [e0, e2, e4, e7, e13]

/-- Region 0's body at row `r` of its block is `attn2` of the two matrices and of row `r` of its three blocks, in the
    body's operand order (`v0`, `v2` the two blocks that meet a matrix, `v13` the block the row sum is taken against): `exp (leaky (∑_j ((∑_k v0[r,k] * v4[k,j]) + (∑_k v2[r,k] * v7[k,j])) * v13[r,j]))`; the changes of
    format are the identity at the ideal values. -/
theorem k0_pay1_apply (v0 v2 : FVec Ideal S8192x128 .bf16) (v4 v7 : FVec Ideal S128x128 .f32) (v13 : FVec Ideal S8192x128 .bf16)
    (r : Fin 8192) :
    Gen.k0_pay1 (F := Ideal) v0 v2 v4 v7 v13 (ix1 r)
      = attn2 (fun k j => v4 (ix2 k j)) (fun k j => v7 (ix2 k j)) (fun k => v0 (ix2 r k)) (fun k => v2 (ix2 r k))
          (fun k => v13 (ix2 r k)) := by
  rw [k0_pay1_eq, expLeaky_apply]
  unfold attn2
  refine congrArg (fun s => Ideal.exp (leaky s)) (Finset.sum_congr rfl fun j _ => ?_)
  show (matmul dot_S8192x128_S128x128_S8192x128_1_0_0_1_n_n none v0 (truncf .bf16 v4 bitsLt_bf16_f32) (constant (F := Ideal) S8192x128 .f32 0x00000000#32) (ix2 r j)
      + matmul dot_S8192x128_S128x128_S8192x128_1_0_0_1_n_n none v2 (truncf .bf16 v7 bitsLt_bf16_f32) (constant (F := Ideal) S8192x128 .f32 0x00000000#32) (ix2 r j))
    * v13 (ix2 r j) = _
  rw [matmul_row_apply, matmul_row_apply]
  rfl

/-- Region 3's body is `expLeaky` of the sum of its two products and of its third block widened to f32: the body
    recasts each of its five loads to the shape it already has, which changes nothing, narrows the two `[128, 128]`
    matrices `v4`, `v7` to bf16, multiplies its first block `v0` by `v4` and its second block `v2` by `v7` into zero
    accumulators, adds the two products, widens its third block `v13`, and from there is `expLeaky`'s text. -/
theorem k3_pay1_eq (v0 v2 : FVec Ideal S8192x128 .bf16) (v4 v7 : FVec Ideal S128x128 .f32) (v13 : FVec Ideal S8192x128 .bf16) :
    Gen.k3_pay1 (F := Ideal) v0 v2 v4 v7 v13 = expLeaky
      (addf
        (matmul dot_S8192x128_S128x128_S8192x128_1_0_0_1_n_n none v0 (truncf .bf16 v4 bitsLt_bf16_f32) (constant (F := Ideal) S8192x128 .f32 0x00000000#32))
        (matmul dot_S8192x128_S128x128_S8192x128_1_0_0_1_n_n none v2 (truncf .bf16 v7 bitsLt_bf16_f32) (constant (F := Ideal) S8192x128 .f32 0x00000000#32)))
      (extf .f32 v13 bitsLt_bf16_f32) := by
  have e0 : shapeCast S8192x128 v0 shapeCasts_S8192x128_S8192x128 = v0 := shapeCast_self v0 _
  have e2 : shapeCast S8192x128 v2 shapeCasts_S8192x128_S8192x128 = v2 := shapeCast_self v2 _
  have e4 : shapeCast S128x128 v4 shapeCasts_S128x128_S128x128 = v4 := shapeCast_self v4 _
  have e7 : shapeCast S128x128 v7 shapeCasts_S128x128_S128x128 = v7 := shapeCast_self v7 _
  have e13 : shapeCast S8192x128 v13 shapeCasts_S8192x128_S8192x128 = v13 := shapeCast_self v13 _
  show expLeaky
      (addf
        (matmul dot_S8192x128_S128x128_S8192x128_1_0_0_1_n_n none (shapeCast S8192x128 v0 shapeCasts_S8192x128_S8192x128)
          (truncf .bf16 (shapeCast S128x128 v4 shapeCasts_S128x128_S128x128) bitsLt_bf16_f32)
          (constant (F := Ideal) S8192x128 .f32 0x00000000#32))
        (matmul dot_S8192x128_S128x128_S8192x128_1_0_0_1_n_n none (shapeCast S8192x128 v2 shapeCasts_S8192x128_S8192x128)
          (truncf .bf16 (shapeCast S128x128 v7 shapeCasts_S128x128_S128x128) bitsLt_bf16_f32)
          (constant (F := Ideal) S8192x128 .f32 0x00000000#32)))
      (extf .f32 (shapeCast S8192x128 v13 shapeCasts_S8192x128_S8192x128) bitsLt_bf16_f32) = _
  rw [e0, e2, e4, e7, e13]

/-- Region 3's body at row `r` of its block is `attn2` of the two matrices and of row `r` of its three blocks, in the
    body's operand order (`v0`, `v2` the two blocks that meet a matrix, `v13` the block the row sum is taken against): `exp (leaky (∑_j ((∑_k v0[r,k] * v4[k,j]) + (∑_k v2[r,k] * v7[k,j])) * v13[r,j]))`; the changes of
    format are the identity at the ideal values. -/
theorem k3_pay1_apply (v0 v2 : FVec Ideal S8192x128 .bf16) (v4 v7 : FVec Ideal S128x128 .f32) (v13 : FVec Ideal S8192x128 .bf16)
    (r : Fin 8192) :
    Gen.k3_pay1 (F := Ideal) v0 v2 v4 v7 v13 (ix1 r)
      = attn2 (fun k j => v4 (ix2 k j)) (fun k j => v7 (ix2 k j)) (fun k => v0 (ix2 r k)) (fun k => v2 (ix2 r k))
          (fun k => v13 (ix2 r k)) := by
  rw [k3_pay1_eq, expLeaky_apply]
  unfold attn2
  refine congrArg (fun s => Ideal.exp (leaky s)) (Finset.sum_congr rfl fun j _ => ?_)
  show (matmul dot_S8192x128_S128x128_S8192x128_1_0_0_1_n_n none v0 (truncf .bf16 v4 bitsLt_bf16_f32) (constant (F := Ideal) S8192x128 .f32 0x00000000#32) (ix2 r j)
      + matmul dot_S8192x128_S128x128_S8192x128_1_0_0_1_n_n none v2 (truncf .bf16 v7 bitsLt_bf16_f32) (constant (F := Ideal) S8192x128 .f32 0x00000000#32) (ix2 r j))
    * v13 (ix2 r j) = _
  rw [matmul_row_apply, matmul_row_apply]
  rfl

end Cert.KernelIdeal.RegionValues

end
-- ==== Proof.EdgeAttnRegions.lean ====
/-
  The two edge-attention regions as whole-array functions of their entry arrays, at the ideal values.

  An edge-attention region walks its `[606208]` output in 74 blocks of 8192 entries. At point `t` its three
  `[606208, 128]` row windows and its output are at block `t` (block column 0), so entry `p` of a block is edge
  `8192 t + p` of its array; its two `[128, 128]` windows are whole at every point. The body's result at an entry depends on
  that row of the three row blocks and on the two matrices only (a product's and the row sum's terms stay inside the
  row), so what point `t` writes back is block `t` of ONE function of the five arrays: entry `e` is `attn2` of the two
  matrices (windows 3 and 4) and of row `e` of the three row arrays (windows 0, 1, 2, in `attn2`'s order). The 74 blocks
  cover the array (edge `e` is in block `e / 8192`), so the output array ends at that function.
-/
import proofs.«131266_j69483980915102_2_alg».proof.Proof.Gen.KernelIdeal.Frame
import proofs.«131266_j69483980915102_2_alg».proof.Proof.EdgeAttnPayload
import proofs.«131266_j69483980915102_2_alg».proof.Proof.KernelHop
import Idealize.ShloMosaic.Lib.Pipeline.Value

noncomputable section

namespace Cert.KernelIdeal.RegionValues

open Cert.KernelIdeal Cert.KernelIdeal.Gen
open Idealize.ShloMosaic Idealize.ShloMosaic.ValueIdx Idealize.ShloMosaic.TcCoe Idealize.SL.Sem
open Idealize.ShloMosaic.Pipeline (Dat)
open Cert.Rgat

variable (V : (c : Dev nD) → (b : Ref sig .tc) → Buf (Elt Ideal) ((c : Thread nD τ).loc b))

theorem zero_offE2 : (![0, 0] : Fin 2 → Nat) = fun _ => 0 := funext fun a => by fin_cases a <;> rfl
theorem zero_offE1 : (![0] : Fin 1 → Nat) = fun _ => 0 := funext fun a => by fin_cases a <;> rfl

/-- Row `p` of the `t`-th block of 8192 edges is edge `8192 t + p` of the 606208. -/
def edgeRow (t : ℕ) (ht : t < 74) (p : Fin 8192) : Fin 606208 := ⟨t * 8192 + p.val, by have := p.isLt; omega⟩

/-- Region 0's index maps: at point `t` the three row-blocked windows and the output are at block `t` (block column
    0), the two whole matrices at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val :=
  (by decide +kernel : ∀ t : Fin grid0.N, _)

theorem lt0 (t : Fin cfg0.N) : t.val < 74 := lt_of_lt_of_eq t.isLt N_0

/-- Input window 0's block at point `t`, at `(p, k)`, is its array as the region finds it at `(8192 t + p, k)`. -/
theorem iblk0_0_apply (c : Dev nD) (t : Fin cfg0.N) (p : Fin 8192) (k : Fin 128) :
    (iblk0 V c 0 t : FVec Ideal S8192x128 .bf16) (ix2 p k)
      = (V c (Pipeline.arrRef spec0 0) : FVec Ideal S606208x128 .bf16) (ix2 (edgeRow t.val (lt0 t) p) k) := by
  obtain ⟨e00, e01, e10, e11, e20, e21, -⟩ := idx0 t
  unfold iblk0
  rw [View.read_apply]
  show (V c (Pipeline.arrRef spec0 0) : FVec Ideal S606208x128 .bf16) (((cfg0.win 0).blk t).view.emb (ix2 p k)) = _
  refine congrArg (V c (Pipeline.arrRef spec0 0) : FVec Ideal S606208x128 .bf16) (funext fun a => Fin.ext ?_)
  match a with
  | ⟨0, _⟩ => show win0_0.index t (0 : Fin 2) * 8192 + 1 * p.val = t.val * 8192 + p.val; rw [e00]; omega
  | ⟨1, _⟩ => show win0_0.index t (1 : Fin 2) * 128 + 1 * k.val = k.val; rw [e01]; omega

/-- Input window 1's block at point `t`, at `(p, k)`, is its array as the region finds it at `(8192 t + p, k)`. -/
theorem iblk0_1_apply (c : Dev nD) (t : Fin cfg0.N) (p : Fin 8192) (k : Fin 128) :
    (iblk0 V c 1 t : FVec Ideal S8192x128 .bf16) (ix2 p k)
      = (V c (Pipeline.arrRef spec0 1) : FVec Ideal S606208x128 .bf16) (ix2 (edgeRow t.val (lt0 t) p) k) := by
  obtain ⟨e00, e01, e10, e11, e20, e21, -⟩ := idx0 t
  unfold iblk0
  rw [View.read_apply]
  show (V c (Pipeline.arrRef spec0 1) : FVec Ideal S606208x128 .bf16) (((cfg0.win 1).blk t).view.emb (ix2 p k)) = _
  refine congrArg (V c (Pipeline.arrRef spec0 1) : FVec Ideal S606208x128 .bf16) (funext fun a => Fin.ext ?_)
  match a with
  | ⟨0, _⟩ => show win0_1.index t (0 : Fin 2) * 8192 + 1 * p.val = t.val * 8192 + p.val; rw [e10]; omega
  | ⟨1, _⟩ => show win0_1.index t (1 : Fin 2) * 128 + 1 * k.val = k.val; rw [e11]; omega

/-- Input window 2's block at point `t`, at `(p, k)`, is its array as the region finds it at `(8192 t + p, k)`. -/
theorem iblk0_2_apply (c : Dev nD) (t : Fin cfg0.N) (p : Fin 8192) (k : Fin 128) :
    (iblk0 V c 2 t : FVec Ideal S8192x128 .bf16) (ix2 p k)
      = (V c (Pipeline.arrRef spec0 2) : FVec Ideal S606208x128 .bf16) (ix2 (edgeRow t.val (lt0 t) p) k) := by
  obtain ⟨e00, e01, e10, e11, e20, e21, -⟩ := idx0 t
  unfold iblk0
  rw [View.read_apply]
  show (V c (Pipeline.arrRef spec0 2) : FVec Ideal S606208x128 .bf16) (((cfg0.win 2).blk t).view.emb (ix2 p k)) = _
  refine congrArg (V c (Pipeline.arrRef spec0 2) : FVec Ideal S606208x128 .bf16) (funext fun a => Fin.ext ?_)
  match a with
  | ⟨0, _⟩ => show win0_2.index t (0 : Fin 2) * 8192 + 1 * p.val = t.val * 8192 + p.val; rw [e20]; omega
  | ⟨1, _⟩ => show win0_2.index t (1 : Fin 2) * 128 + 1 * k.val = k.val; rw [e21]; omega

/-- Input window 3's one block, at `(k, j)`, is its `[128, 128]` array as the region finds it at `(k, j)`, at every point. -/
theorem iblk0_3_apply (c : Dev nD) (t : Fin cfg0.N) (k j : Fin 128) :
    (iblk0 V c 3 t : FVec Ideal S128x128 .f32) (ix2 k j)
      = (V c (Pipeline.arrRef spec0 3) : FVec Ideal S128x128 .f32) (ix2 k j) := by
  obtain ⟨-, -, -, -, -, -, e30, e31, e40, e41, -⟩ := idx0 t
  unfold iblk0
  rw [View.read_apply]
  show (V c (Pipeline.arrRef spec0 3) : FVec Ideal S128x128 .f32) (((cfg0.win 3).blk t).view.emb (ix2 k j)) = _
  refine congrArg (V c (Pipeline.arrRef spec0 3) : FVec Ideal S128x128 .f32) (funext fun a => Fin.ext ?_)
  match a with
  | ⟨0, _⟩ => show win0_3.index t (0 : Fin 2) * 128 + 1 * k.val = k.val; rw [e30]; omega
  | ⟨1, _⟩ => show win0_3.index t (1 : Fin 2) * 128 + 1 * j.val = j.val; rw [e31]; omega

/-- Input window 4's one block, at `(k, j)`, is its `[128, 128]` array as the region finds it at `(k, j)`, at every point. -/
theorem iblk0_4_apply (c : Dev nD) (t : Fin cfg0.N) (k j : Fin 128) :
    (iblk0 V c 4 t : FVec Ideal S128x128 .f32) (ix2 k j)
      = (V c (Pipeline.arrRef spec0 4) : FVec Ideal S128x128 .f32) (ix2 k j) := by
  obtain ⟨-, -, -, -, -, -, e30, e31, e40, e41, -⟩ := idx0 t
  unfold iblk0
  rw [View.read_apply]
  show (V c (Pipeline.arrRef spec0 4) : FVec Ideal S128x128 .f32) (((cfg0.win 4).blk t).view.emb (ix2 k j)) = _
  refine congrArg (V c (Pipeline.arrRef spec0 4) : FVec Ideal S128x128 .f32) (funext fun a => Fin.ext ?_)
  match a with
  | ⟨0, _⟩ => show win0_4.index t (0 : Fin 2) * 128 + 1 * k.val = k.val; rw [e40]; omega
  | ⟨1, _⟩ => show win0_4.index t (1 : Fin 2) * 128 + 1 * j.val = j.val; rw [e41]; omega

/-- Output window 5's block at point `t` puts its entry `p` at edge `8192 t + p` of the array. -/
theorem emb0_5 (t : Fin cfg0.N) (p : Fin 8192) :
    ((cfg0.win 5).blk t).view.emb (ix1 p) = (ix1 (edgeRow t.val (lt0 t) p) : S606208.Idx) := by
  obtain ⟨-, -, -, -, -, -, -, -, -, -, e50⟩ := idx0 t
  refine funext fun a => Fin.ext ?_
  match a with
  | ⟨0, _⟩ => show win0_5.index t (0 : Fin 1) * 8192 + 1 * p.val = t.val * 8192 + p.val; rw [e50]; omega

/-- What point `t` of region 0 writes back is block `t` of the edge weights of the five arrays as the region finds them:
    entry `p` of the body's block depends on row `p` of its three row blocks and on the two whole matrices only, and the
    three row blocks and the output block are edges `8192 t … 8192 t + 8191`. -/
theorem flushed0 (c : Dev nD) (t : Fin cfg0.N) :
    (dat0 V c).flushed 5 t = ((cfg0.win 5).blk t).view.read (Elt Ideal)
      (Cert.KernelIdeal.Hop.edgeArr (V c (Pipeline.arrRef spec0 0)) (V c (Pipeline.arrRef spec0 1))
        (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero zero_offE1]
  simp only [View.ld_unit_zero (S := S8192x128) zero_offE2, View.ld_unit_zero (S := S128x128) zero_offE2]
  funext j
  obtain ⟨p, rfl⟩ : ∃ p : Fin 8192, j = ix1 p := ⟨j 0, eq_ix1 j⟩
  show Gen.k0_pay1 (F := Ideal) (iblk0 V c 0 t) (iblk0 V c 1 t) (iblk0 V c 3 t) (iblk0 V c 4 t) (iblk0 V c 2 t) (ix1 p)
    = Cert.KernelIdeal.Hop.edgeArr (V c (Pipeline.arrRef spec0 0)) (V c (Pipeline.arrRef spec0 1))
        (V c (Pipeline.arrRef spec0 2)) (V c (Pipeline.arrRef spec0 3)) (V c (Pipeline.arrRef spec0 4))
        (((cfg0.win 5).blk t).view.emb (ix1 p))
  rw [emb0_5 t p]
  refine (k0_pay1_apply (iblk0 V c 0 t) (iblk0 V c 1 t) (iblk0 V c 3 t) (iblk0 V c 4 t) (iblk0 V c 2 t) p).trans ?_
  simp only [iblk0_0_apply V c t, iblk0_1_apply V c t, iblk0_2_apply V c t, iblk0_3_apply V c t, iblk0_4_apply V c t]
  rfl

/-- An index of the array is in point `t`'s output block iff its coordinate is in the block's range. -/
theorem mem_blk0 (t : Fin cfg0.N) (i : S606208.Idx) :
    i ∈ ((cfg0.win 5).blk t).view.set ↔ ∀ a : Fin 1, win0_5.index t a * S8192.size a ≤ (i a).val
      ∧ (i a).val < win0_5.index t a * S8192.size a + S8192.size a := by
  show i ∈ ((View.whole main_v35).slice (win0_5.rect t)).set ↔ _
  rw [View.set_slice_whole, Rect.mem_set_unit]
  exact Iff.rfl

/-- The 74 output blocks cover the array: edge `e` is in the block of point `e / 8192`. -/
theorem cover0 (i : S606208.Idx) :
    ∃ t : Fin cfg0.N, (cfg0.win 5).flush t = true ∧ i ∈ ((cfg0.win 5).blk t).view.set := by
  have hi0 : (i 0).val < 606208 := (i 0).isLt
  obtain ⟨t, ht⟩ : ∃ t : Fin cfg0.N, t.val = (i 0).val / 8192 :=
    ⟨⟨(i 0).val / 8192, lt_of_lt_of_eq (by omega : (i 0).val / 8192 < 74) N_0.symm⟩, rfl⟩
  obtain ⟨-, -, -, -, -, -, -, -, -, -, e50⟩ := idx0 t
  refine ⟨t, flush0_5 t, ?_⟩
  rw [mem_blk0]
  intro a
  match a with
  | ⟨0, _⟩ =>
    show win0_5.index t (0 : Fin 1) * 8192 ≤ (i 0).val ∧ (i 0).val < win0_5.index t (0 : Fin 1) * 8192 + 8192
    rw [e50, ht]; omega

/-- REGION 0: its output array ends at the edge weights of its five arrays as the region finds them, windows 0, 1, 2 the
    three `[606208, 128]` row arrays and windows 3, 4 the two `[128, 128]` matrices: entry `e` is `attn2` of the two
    matrices and of row `e` of the three row arrays. -/
theorem region0 (c : Dev nD) :
    (dat0 V c).arrAt 5 cfg0.N
      = Cert.KernelIdeal.Hop.edgeArr (V c (Pipeline.arrRef spec0 0)) (V c (Pipeline.arrRef spec0 1))
          (V c (Pipeline.arrRef spec0 2)) (V c (Pipeline.arrRef spec0 3)) (V c (Pipeline.arrRef spec0 4)) :=
  (dat0 V c).arrAt_eq_of_cover 5 _ (fun t _ => flushed0 V c t) cover0

/-- Region 3's index maps: at point `t` the three row-blocked windows and the output are at block `t` (block column
    0), the two whole matrices at their one block. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 1) = t.val :=
  (by decide +kernel : ∀ t : Fin grid3.N, _)

theorem lt3 (t : Fin cfg3.N) : t.val < 74 := lt_of_lt_of_eq t.isLt N_3

/-- Input window 0's block at point `t`, at `(p, k)`, is its array as the region finds it at `(8192 t + p, k)`. -/
theorem iblk3_0_apply (c : Dev nD) (t : Fin cfg3.N) (p : Fin 8192) (k : Fin 128) :
    (iblk3 V c 0 t : FVec Ideal S8192x128 .bf16) (ix2 p k)
      = (V c (Pipeline.arrRef spec3 0) : FVec Ideal S606208x128 .bf16) (ix2 (edgeRow t.val (lt3 t) p) k) := by
  obtain ⟨e00, e01, e10, e11, e20, e21, -⟩ := idx3 t
  unfold iblk3
  rw [View.read_apply]
  show (V c (Pipeline.arrRef spec3 0) : FVec Ideal S606208x128 .bf16) (((cfg3.win 0).blk t).view.emb (ix2 p k)) = _
  refine congrArg (V c (Pipeline.arrRef spec3 0) : FVec Ideal S606208x128 .bf16) (funext fun a => Fin.ext ?_)
  match a with
  | ⟨0, _⟩ => show win3_0.index t (0 : Fin 2) * 8192 + 1 * p.val = t.val * 8192 + p.val; rw [e00]; omega
  | ⟨1, _⟩ => show win3_0.index t (1 : Fin 2) * 128 + 1 * k.val = k.val; rw [e01]; omega

/-- Input window 1's block at point `t`, at `(p, k)`, is its array as the region finds it at `(8192 t + p, k)`. -/
theorem iblk3_1_apply (c : Dev nD) (t : Fin cfg3.N) (p : Fin 8192) (k : Fin 128) :
    (iblk3 V c 1 t : FVec Ideal S8192x128 .bf16) (ix2 p k)
      = (V c (Pipeline.arrRef spec3 1) : FVec Ideal S606208x128 .bf16) (ix2 (edgeRow t.val (lt3 t) p) k) := by
  obtain ⟨e00, e01, e10, e11, e20, e21, -⟩ := idx3 t
  unfold iblk3
  rw [View.read_apply]
  show (V c (Pipeline.arrRef spec3 1) : FVec Ideal S606208x128 .bf16) (((cfg3.win 1).blk t).view.emb (ix2 p k)) = _
  refine congrArg (V c (Pipeline.arrRef spec3 1) : FVec Ideal S606208x128 .bf16) (funext fun a => Fin.ext ?_)
  match a with
  | ⟨0, _⟩ => show win3_1.index t (0 : Fin 2) * 8192 + 1 * p.val = t.val * 8192 + p.val; rw [e10]; omega
  | ⟨1, _⟩ => show win3_1.index t (1 : Fin 2) * 128 + 1 * k.val = k.val; rw [e11]; omega

/-- Input window 2's block at point `t`, at `(p, k)`, is its array as the region finds it at `(8192 t + p, k)`. -/
theorem iblk3_2_apply (c : Dev nD) (t : Fin cfg3.N) (p : Fin 8192) (k : Fin 128) :
    (iblk3 V c 2 t : FVec Ideal S8192x128 .bf16) (ix2 p k)
      = (V c (Pipeline.arrRef spec3 2) : FVec Ideal S606208x128 .bf16) (ix2 (edgeRow t.val (lt3 t) p) k) := by
  obtain ⟨e00, e01, e10, e11, e20, e21, -⟩ := idx3 t
  unfold iblk3
  rw [View.read_apply]
  show (V c (Pipeline.arrRef spec3 2) : FVec Ideal S606208x128 .bf16) (((cfg3.win 2).blk t).view.emb (ix2 p k)) = _
  refine congrArg (V c (Pipeline.arrRef spec3 2) : FVec Ideal S606208x128 .bf16) (funext fun a => Fin.ext ?_)
  match a with
  | ⟨0, _⟩ => show win3_2.index t (0 : Fin 2) * 8192 + 1 * p.val = t.val * 8192 + p.val; rw [e20]; omega
  | ⟨1, _⟩ => show win3_2.index t (1 : Fin 2) * 128 + 1 * k.val = k.val; rw [e21]; omega

/-- Input window 3's one block, at `(k, j)`, is its `[128, 128]` array as the region finds it at `(k, j)`, at every point. -/
theorem iblk3_3_apply (c : Dev nD) (t : Fin cfg3.N) (k j : Fin 128) :
    (iblk3 V c 3 t : FVec Ideal S128x128 .f32) (ix2 k j)
      = (V c (Pipeline.arrRef spec3 3) : FVec Ideal S128x128 .f32) (ix2 k j) := by
  obtain ⟨-, -, -, -, -, -, e30, e31, e40, e41, -⟩ := idx3 t
  unfold iblk3
  rw [View.read_apply]
  show (V c (Pipeline.arrRef spec3 3) : FVec Ideal S128x128 .f32) (((cfg3.win 3).blk t).view.emb (ix2 k j)) = _
  refine congrArg (V c (Pipeline.arrRef spec3 3) : FVec Ideal S128x128 .f32) (funext fun a => Fin.ext ?_)
  match a with
  | ⟨0, _⟩ => show win3_3.index t (0 : Fin 2) * 128 + 1 * k.val = k.val; rw [e30]; omega
  | ⟨1, _⟩ => show win3_3.index t (1 : Fin 2) * 128 + 1 * j.val = j.val; rw [e31]; omega

/-- Input window 4's one block, at `(k, j)`, is its `[128, 128]` array as the region finds it at `(k, j)`, at every point. -/
theorem iblk3_4_apply (c : Dev nD) (t : Fin cfg3.N) (k j : Fin 128) :
    (iblk3 V c 4 t : FVec Ideal S128x128 .f32) (ix2 k j)
      = (V c (Pipeline.arrRef spec3 4) : FVec Ideal S128x128 .f32) (ix2 k j) := by
  obtain ⟨-, -, -, -, -, -, e30, e31, e40, e41, -⟩ := idx3 t
  unfold iblk3
  rw [View.read_apply]
  show (V c (Pipeline.arrRef spec3 4) : FVec Ideal S128x128 .f32) (((cfg3.win 4).blk t).view.emb (ix2 k j)) = _
  refine congrArg (V c (Pipeline.arrRef spec3 4) : FVec Ideal S128x128 .f32) (funext fun a => Fin.ext ?_)
  match a with
  | ⟨0, _⟩ => show win3_4.index t (0 : Fin 2) * 128 + 1 * k.val = k.val; rw [e40]; omega
  | ⟨1, _⟩ => show win3_4.index t (1 : Fin 2) * 128 + 1 * j.val = j.val; rw [e41]; omega

/-- Output window 5's block at point `t` puts its entry `p` at edge `8192 t + p` of the array. -/
theorem emb3_5 (t : Fin cfg3.N) (p : Fin 8192) :
    ((cfg3.win 5).blk t).view.emb (ix1 p) = (ix1 (edgeRow t.val (lt3 t) p) : S606208.Idx) := by
  obtain ⟨-, -, -, -, -, -, -, -, -, -, e50⟩ := idx3 t
  refine funext fun a => Fin.ext ?_
  match a with
  | ⟨0, _⟩ => show win3_5.index t (0 : Fin 1) * 8192 + 1 * p.val = t.val * 8192 + p.val; rw [e50]; omega

/-- What point `t` of region 3 writes back is block `t` of the edge weights of the five arrays as the region finds them:
    entry `p` of the body's block depends on row `p` of its three row blocks and on the two whole matrices only, and the
    three row blocks and the output block are edges `8192 t … 8192 t + 8191`. -/
theorem flushed3 (c : Dev nD) (t : Fin cfg3.N) :
    (dat3 V c).flushed 5 t = ((cfg3.win 5).blk t).view.read (Elt Ideal)
      (Cert.KernelIdeal.Hop.edgeArr (V c (Pipeline.arrRef spec3 0)) (V c (Pipeline.arrRef spec3 1))
        (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero zero_offE1]
  simp only [View.ld_unit_zero (S := S8192x128) zero_offE2, View.ld_unit_zero (S := S128x128) zero_offE2]
  funext j
  obtain ⟨p, rfl⟩ : ∃ p : Fin 8192, j = ix1 p := ⟨j 0, eq_ix1 j⟩
  show Gen.k3_pay1 (F := Ideal) (iblk3 V c 0 t) (iblk3 V c 1 t) (iblk3 V c 3 t) (iblk3 V c 4 t) (iblk3 V c 2 t) (ix1 p)
    = Cert.KernelIdeal.Hop.edgeArr (V c (Pipeline.arrRef spec3 0)) (V c (Pipeline.arrRef spec3 1))
        (V c (Pipeline.arrRef spec3 2)) (V c (Pipeline.arrRef spec3 3)) (V c (Pipeline.arrRef spec3 4))
        (((cfg3.win 5).blk t).view.emb (ix1 p))
  rw [emb3_5 t p]
  refine (k3_pay1_apply (iblk3 V c 0 t) (iblk3 V c 1 t) (iblk3 V c 3 t) (iblk3 V c 4 t) (iblk3 V c 2 t) p).trans ?_
  simp only [iblk3_0_apply V c t, iblk3_1_apply V c t, iblk3_2_apply V c t, iblk3_3_apply V c t, iblk3_4_apply V c t]
  rfl

/-- An index of the array is in point `t`'s output block iff its coordinate is in the block's range. -/
theorem mem_blk3 (t : Fin cfg3.N) (i : S606208.Idx) :
    i ∈ ((cfg3.win 5).blk t).view.set ↔ ∀ a : Fin 1, win3_5.index t a * S8192.size a ≤ (i a).val
      ∧ (i a).val < win3_5.index t a * S8192.size a + S8192.size a := by
  show i ∈ ((View.whole main_v92).slice (win3_5.rect t)).set ↔ _
  rw [View.set_slice_whole, Rect.mem_set_unit]
  exact Iff.rfl

/-- The 74 output blocks cover the array: edge `e` is in the block of point `e / 8192`. -/
theorem cover3 (i : S606208.Idx) :
    ∃ t : Fin cfg3.N, (cfg3.win 5).flush t = true ∧ i ∈ ((cfg3.win 5).blk t).view.set := by
  have hi0 : (i 0).val < 606208 := (i 0).isLt
  obtain ⟨t, ht⟩ : ∃ t : Fin cfg3.N, t.val = (i 0).val / 8192 :=
    ⟨⟨(i 0).val / 8192, lt_of_lt_of_eq (by omega : (i 0).val / 8192 < 74) N_3.symm⟩, rfl⟩
  obtain ⟨-, -, -, -, -, -, -, -, -, -, e50⟩ := idx3 t
  refine ⟨t, flush3_5 t, ?_⟩
  rw [mem_blk3]
  intro a
  match a with
  | ⟨0, _⟩ =>
    show win3_5.index t (0 : Fin 1) * 8192 ≤ (i 0).val ∧ (i 0).val < win3_5.index t (0 : Fin 1) * 8192 + 8192
    rw [e50, ht]; omega

/-- REGION 3: its output array ends at the edge weights of its five arrays as the region finds them, windows 0, 1, 2 the
    three `[606208, 128]` row arrays and windows 3, 4 the two `[128, 128]` matrices: entry `e` is `attn2` of the two
    matrices and of row `e` of the three row arrays. -/
theorem region3 (c : Dev nD) :
    (dat3 V c).arrAt 5 cfg3.N
      = Cert.KernelIdeal.Hop.edgeArr (V c (Pipeline.arrRef spec3 0)) (V c (Pipeline.arrRef spec3 1))
          (V c (Pipeline.arrRef spec3 2)) (V c (Pipeline.arrRef spec3 3)) (V c (Pipeline.arrRef spec3 4)) :=
  (dat3 V c).arrAt_eq_of_cover 5 _ (fun t _ => flushed3 V c t) cover3

end Cert.KernelIdeal.RegionValues

end
-- ==== Proof.LibGatherRows.lean ====
/-
  `stablehlo.gather` as indexing an array by a column of row numbers lowers it, read at an index.

  `x[idx]` of a table `x : [N, C]` at row numbers `idx : [E, 1]` is a gather with offset axis `[1]`, collapsed slice
  axis `[0]`, start index map `[0]`, index vector axis `1` and slice sizes `[1, C]`: result element `(e, k)` is the table
  at row `idx[e, 0]`, read as a signed integer and clamped into `[0, N - 1]`, and column `k`. The same of a vector
  `x : [N]` (no offset axis, slice sizes `[1]`) gives element `e` as `x` at that clamped row. Both hold at every element
  type and every index width.
-/
import Idealize.ShloMosaic.PureOps.Ideal
import Idealize.ShloMosaic.Lib.ValueIdx

namespace Cert.Lib

open Idealize.ShloMosaic Idealize.ShloMosaic.ValueIdx

section GatherRows
variable {α : Type}

/-- The dimension numbers of `x[idx]` for a table `x : [N, C]`, row numbers `idx : [E, 1]` and result `[E, C]`:
    offset axis `[1]`, collapsed slice axis `[0]`, start index map `[0]`, index vector axis `1`, slice sizes `[1, C]`.
    The conditions `wf` are an argument, so a record with these fields over literal shapes is this one by `rfl`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row of a table of `N` rows that a gather reads at the start index `v`: `v` read signed, clamped into `[0, N - 1]`. -/
theorem clampRow_lt {N w : Nat} (hN : 0 < N) (v : BitVec w) : min v.toInt.toNat (N - 1) < N := by omega

/-- Axis `1` of a rank-2 array is not in the list `[0]`. -/
theorem one_not_mem_zero : (1 : Fin 2) ∉ ([0] : List (Fin 2)) := by decide

/-- THE ROW GATHER READ AT `(e, k)`: the table at row `idx[e, 0]`, read signed and clamped into `[0, N - 1]`, column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k)
      = x (ix2 ⟨min (idx (ix2 e 0)).toInt.toNat (N - 1), clampRow_lt hN _⟩ k) := by
  unfold Host.gather
  congr 1
  funext a
  refine Fin.ext ?_
  match a with
  | ⟨0, _⟩ =>
    show (gatherRowsDims N E C wf).start (ix2 e k) idx 0 + (gatherRowsDims N E C wf).batchCoord (ix2 e k) 0
        + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
        + (gatherRowsDims N E C wf).offCoord (ix2 e k) 1 = _
    rw [GatherDims.batchCoord_eq_zero _ _ _ List.not_mem_nil]
    have hst : (gatherRowsDims N E C wf).start (ix2 e k) idx 1 = 0 := by
      unfold GatherDims.start
      rw [dif_neg (show (1 : Fin 2) ∉ (gatherRowsDims N E C wf).startIndexMap from one_not_mem_zero)]
    rw [hst]
    simp only [Nat.add_zero, Nat.zero_add]
    have hk : (1 : Fin 2) ∈ (gatherRowsDims N E C wf).sKept :=
      (GatherDims.mem_sKept _ _).mpr ⟨one_not_mem_zero, List.not_mem_nil⟩
    unfold GatherDims.offCoord
    rw [dif_pos hk]
    rfl

end GatherRows

section GatherElems
variable {α : Type}

/-- The dimension numbers of `x[idx]` for a vector `x : [N]`, positions `idx : [E, 1]` and result `[E]`: no offset
    axis, collapsed slice axis `[0]`, start index map `[0]`, index vector axis `1`, slice sizes `[1]`. The conditions
    `wf` are an argument, so a record with these fields over literal shapes is this one by `rfl`. -/
abbrev gatherElemsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the vector at position `idx[e, 0]`, read signed and clamped into `[0, N - 1]`. -/
theorem gather_elems_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherElemsDims N E wf) x idx (ix1 e)
      = x (ix1 ⟨min (idx (ix2 e 0)).toInt.toNat (N - 1), clampRow_lt hN _⟩) := by
  unfold Host.gather
  congr 1
  funext a
  obtain rfl : a = 0 := Subsingleton.elim _ _
  refine Fin.ext ?_
  show (gatherElemsDims N E wf).start (ix1 e) idx 0 + (gatherElemsDims N E wf).batchCoord (ix1 e) 0
      + (gatherElemsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherElemsDims N E wf).startIndexMap from List.mem_singleton.mpr rfl)]
  have hsi : (gatherElemsDims N E wf).siIdx (ix1 e) ⟨List.idxOf (0 : Fin 1) (gatherElemsDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end GatherElems

/-! ## On a record spelt as a program prints it

A program names its shapes and states each record's fields over them, the conditions cited from a hypothesis. Such a
record is `gatherRowsDims` / `gatherElemsDims` at the literal extents by `rfl`, so the two lemmas rewrite a gather
through it. -/

section Printed

private abbrev S64x128 : Shape := ⟨2, ![64, 128]⟩
private abbrev S606208x1 : Shape := ⟨2, ![606208, 1]⟩
private abbrev S606208x128 : Shape := ⟨2, ![606208, 128]⟩
private abbrev S100001 : Shape := ⟨1, ![100001]⟩
private abbrev S606208 : Shape := ⟨1, ![606208]⟩

/-- A row gather's record as printed: 64 rows of 128, read at 606208 row numbers. -/
private def gather_S64x128_S606208x1_S606208x128_1_0_n_n_0_1_1128
    (hwf : GatherDims.WF S64x128 S606208x1 S606208x128 [1] [0] [] [0] [] 1 ![1, 128]) :
    GatherDims S64x128 S606208x1 S606208x128 where
  offsetDims := [1]
  collapsedSliceDims := [0]
  operandBatchingDims := []
  startIndicesBatchingDims := []
  startIndexMap := [0]
  indexVectorDim := 1
  sliceSizes := ![1, 128]
  wf := hwf

/-- An element gather's record as printed: a vector of 100001, read at 606208 positions. -/
private def gather_S100001_S606208x1_S606208_n_0_n_n_0_1_1
    (hwf : GatherDims.WF S100001 S606208x1 S606208 [] [0] [] [0] [] 1 ![1]) :
    GatherDims S100001 S606208x1 S606208 where
  offsetDims := []
  collapsedSliceDims := [0]
  operandBatchingDims := []
  startIndicesBatchingDims := []
  startIndexMap := [0]
  indexVectorDim := 1
  sliceSizes := ![1]
  wf := hwf

/-- The printed row record is `gatherRowsDims` at its extents. -/
example (hwf : GatherDims.WF S64x128 S606208x1 S606208x128 [1] [0] [] [0] [] 1 ![1, 128]) :
    gather_S64x128_S606208x1_S606208x128_1_0_n_n_0_1_1128 hwf = gatherRowsDims 64 606208 128 hwf := rfl

/-- The row lemma rewrites a gather through the printed record. -/
example {α : Type} (hwf : GatherDims.WF S64x128 S606208x1 S606208x128 [1] [0] [] [0] [] 1 ![1, 128])
    (x : S64x128.Idx → α) (idx : IVec S606208x1 32) (e : Fin 606208) (k : Fin 128) :
    Host.gather (gather_S64x128_S606208x1_S606208x128_1_0_n_n_0_1_1128 hwf) x idx (ix2 e k)
      = x (ix2 ⟨min (idx (ix2 e 0)).toInt.toNat (64 - 1), clampRow_lt (by decide) _⟩ k) := by
  rw [show gather_S64x128_S606208x1_S606208x128_1_0_n_n_0_1_1128 hwf = gatherRowsDims 64 606208 128 hwf from rfl,
    gather_rows_apply (by decide)]

/-- The element lemma rewrites a gather through the printed record. -/
example {α : Type} (hwf : GatherDims.WF S100001 S606208x1 S606208 [] [0] [] [0] [] 1 ![1])
    (x : S100001.Idx → α) (idx : IVec S606208x1 32) (e : Fin 606208) :
    Host.gather (gather_S100001_S606208x1_S606208_n_0_n_n_0_1_1 hwf) x idx (ix1 e)
      = x (ix1 ⟨min (idx (ix2 e 0)).toInt.toNat (100001 - 1), clampRow_lt (by decide) _⟩) := by
  rw [show gather_S100001_S606208x1_S606208_n_0_n_n_0_1_1 hwf = gatherElemsDims 100001 606208 hwf from rfl,
    gather_elems_apply (by decide)]

end Printed

end Cert.Lib
-- ==== Proof.LibScatterAddRows.lean ====
/-
  The accumulating float scatter at the ideal instance, as adding updates into the rows an index column names lowers
  it, read at an index.

  `x.at[idx].add(upd)` for a vector `x : [N]`, positions `idx : [E, 1]` and updates `upd : [E]` is a scatter with no
  update window axis, inserted window axis `[0]`, scatter-dims-to-operand-dims `[0]` and index vector axis `1`: update
  `e` lands at position `idx[e, 0]`, read as a signed integer and NOT clamped, and is dropped when that is outside
  `[0, N)`. So element `n` of the result is `x n` plus the sum of the updates `e` whose index, read signed, is `n`.
  For a table `x : [N, C]` and updates `[E, C]` (update window axis `[1]`) the same holds column by column.
-/
import Idealize.ShloMosaic.PureOps.Ideal
import Idealize.ShloMosaic.Lib.ValueIdx

noncomputable section

open scoped BigOperators

namespace Cert.Lib

open Idealize.ShloMosaic Idealize.ShloMosaic.ValueIdx

/-- A rank-1 index set is its one coordinate's range. -/
def idxEquiv1 {n : Nat} : (⟨1, ![n]⟩ : Shape).Idx ≃ Fin n where
  toFun i := i 0
  invFun e := ix1 e
  left_inv i := (eq_ix1 i).symm
  right_inv _ := rfl

section ScatterVec

/-- The dimension numbers of `x.at[idx].add(upd)` for a vector `x : [N]`, positions `idx : [E, 1]` and updates `[E]`:
    no update window axis, inserted window axis `[0]`, scatter-dims-to-operand-dims `[0]`, index vector axis `1`. The
    conditions `wf` are an argument, so a record with these fields over literal shapes is this one by `rfl`. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at `idx[e, 0]` read signed. -/
theorem scatterVec_start (idx : IVec ⟨2, ![E, 1]⟩ w) (e : Fin E) :
    (scatterVecDims N E wf).start (ix1 e) idx 0 = (idx (ix2 e 0)).toInt := by
  unfold ScatterDims.start
  rw [dif_pos (show (0 : Fin 1) ∈ (scatterVecDims N E wf).scatterDimsToOperandDims from List.mem_singleton.mpr rfl)]
  have hsi : (scatterVecDims N E wf).siIdx (ix1 e) ⟨List.idxOf (0 : Fin 1) (scatterVecDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: an update has no window coordinate on it. -/
theorem scatterVec_window (e : Fin E) : (scatterVecDims N E wf).window (ix1 e) 0 = 0 := by
  unfold ScatterDims.window
  rw [dif_neg]
  intro h
  have : (0 : Fin 1) ∉ (scatterVecDims N E wf).insertedWindowDims := by
    simpa [ScatterDims.sKept, Shape.kept, List.mem_filter] using h
  exact this (List.mem_singleton.mpr rfl)

/-- WHERE AN UPDATE LANDS: update `e` lands on element `n` exactly when its index, read signed, is `n`. -/
theorem scatterVec_resultIdx_eq_some_iff (idx : IVec ⟨2, ![E, 1]⟩ w) (e : Fin E) (n : Fin N) :
    (scatterVecDims N E wf).resultIdx? (ix1 e) idx = some (ix1 n) ↔ (idx (ix2 e 0)).toInt = (n.val : ℤ) := by
  have hsz : (⟨1, ![N]⟩ : Shape).size 0 = N := rfl
  unfold ScatterDims.resultIdx?
  constructor
  · intro h
    split at h
    · rename_i hin
      have h0 := congrFun (Option.some.inj h) 0
      have hv : ((scatterVecDims N E wf).start (ix1 e) idx 0 + ((scatterVecDims N E wf).window (ix1 e) 0 : ℤ)).toNat = n.val :=
        congrArg Fin.val h0
      have hnn := (hin 0).1
      rw [scatterVec_start, scatterVec_window] at hv hnn
      omega
    · exact absurd h (by simp)
  · intro h
    have hin : ∀ a : Fin 1, 0 ≤ (scatterVecDims N E wf).start (ix1 e) idx a + ((scatterVecDims N E wf).window (ix1 e) a : ℤ) ∧
        (scatterVecDims N E wf).start (ix1 e) idx a + ((scatterVecDims N E wf).window (ix1 e) a : ℤ)
          < ((⟨1, ![N]⟩ : Shape).size a : ℤ) := by
      intro a
      obtain rfl : a = 0 := Subsingleton.elim _ _
      rw [scatterVec_start, scatterVec_window, hsz, h]
      have := n.isLt
      omega
    rw [dif_pos hin]
    congr 1
    funext a
    obtain rfl : a = 0 := Subsingleton.elim _ _
    refine Fin.ext ?_
    show ((scatterVecDims N E wf).start (ix1 e) idx 0 + ((scatterVecDims N E wf).window (ix1 e) 0 : ℤ)).toNat = n.val
    rw [scatterVec_start, scatterVec_window, h]
    omega

/-- THE VECTOR SCATTER-ADD READ AT `n`: the operand's element plus the sum of the updates whose index, read signed, is `n`. -/
theorem hostScatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (scatterVecDims N E wf) x idx upd (ix1 n)
      = x (ix1 n) + ∑ e ∈ Finset.univ.filter (fun e : Fin E => (idx (ix2 e 0)).toInt = (n.val : ℤ)), upd (ix1 e) := by
  unfold Ideal.hostScatterAdd
  congr 1
  refine Finset.sum_equiv idxEquiv1 (fun j => ?_) (fun j _ => congrArg upd (eq_ix1 j))
  simp only [Finset.mem_filter, Finset.mem_univ, true_and]
  rw [eq_ix1 j]
  exact scatterVec_resultIdx_eq_some_iff wf idx (j 0) n

end ScatterVec

section ScatterRows

/-- The dimension numbers of `x.at[idx].add(upd)` for a table `x : [N, C]`, row numbers `idx : [E, 1]` and updates
    `[E, C]`: update window axis `[1]`, inserted window axis `[0]`, scatter-dims-to-operand-dims `[0]`, index vector
    axis `1`. The conditions `wf` are an argument, so a record with these fields over literal shapes is this one by `rfl`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis, update `(e, k')`'s window starts at `idx[e, 0]` read signed. -/
theorem scatterRows_start_row (idx : IVec ⟨2, ![E, 1]⟩ w) (e : Fin E) (k' : Fin C) :
    (scatterRowsDims N E C wf).start (ix2 e k') idx 0 = (idx (ix2 e 0)).toInt := by
  unfold ScatterDims.start
  rw [dif_pos (show (0 : Fin 2) ∈ (scatterRowsDims N E C wf).scatterDimsToOperandDims from List.mem_singleton.mpr rfl)]
  have hsi : (scatterRowsDims N E C wf).siIdx (ix2 e k') ⟨List.idxOf (0 : Fin 2) (scatterRowsDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The column axis is not named by the index: the window starts at `0` there. -/
theorem scatterRows_start_col (idx : IVec ⟨2, ![E, 1]⟩ w) (e : Fin E) (k' : Fin C) :
    (scatterRowsDims N E C wf).start (ix2 e k') idx 1 = 0 := by
  unfold ScatterDims.start
  rw [dif_neg (show (1 : Fin 2) ∉ (scatterRowsDims N E C wf).scatterDimsToOperandDims from
    (by decide : (1 : Fin 2) ∉ ([0] : List (Fin 2))))]

/-- The row axis is inserted: an update has no window coordinate on it. -/
theorem scatterRows_window_row (e : Fin E) (k' : Fin C) : (scatterRowsDims N E C wf).window (ix2 e k') 0 = 0 := by
  unfold ScatterDims.window
  rw [dif_neg]
  intro h
  have : (0 : Fin 2) ∉ (scatterRowsDims N E C wf).insertedWindowDims := by
    simpa [ScatterDims.sKept, Shape.kept, List.mem_filter] using h
  exact this (List.mem_singleton.mpr rfl)

/-- On the column axis an update's window coordinate is its column. -/
theorem scatterRows_window_col (e : Fin E) (k' : Fin C) : (scatterRowsDims N E C wf).window (ix2 e k') 1 = k'.val := by
  unfold ScatterDims.window
  have hk : (1 : Fin 2) ∈ (scatterRowsDims N E C wf).sKept :=
    show (1 : Fin 2) ∈ (List.finRange 2).filter (· ∉ ([0] : List (Fin 2))) from by decide
  rw [dif_pos hk]
  rfl

/-- WHERE AN UPDATE LANDS: update `(e, k')` lands on element `(n, k)` exactly when its index, read signed, is `n` and
    its column is `k`. -/
theorem scatterRows_resultIdx_eq_some_iff (idx : IVec ⟨2, ![E, 1]⟩ w) (e : Fin E) (k' : Fin C) (n : Fin N) (k : Fin C) :
    (scatterRowsDims N E C wf).resultIdx? (ix2 e k') idx = some (ix2 n k)
      ↔ (idx (ix2 e 0)).toInt = (n.val : ℤ) ∧ k' = k := by
  have hsz0 : (⟨2, ![N, C]⟩ : Shape).size 0 = N := rfl
  have hsz1 : (⟨2, ![N, C]⟩ : Shape).size 1 = C := rfl
  unfold ScatterDims.resultIdx?
  constructor
  · intro h
    split at h
    · rename_i hin
      have h0 := congrFun (Option.some.inj h) 0
      have h1 := congrFun (Option.some.inj h) 1
      have hv0 : ((scatterRowsDims N E C wf).start (ix2 e k') idx 0
          + ((scatterRowsDims N E C wf).window (ix2 e k') 0 : ℤ)).toNat = n.val := congrArg Fin.val h0
      have hv1 : ((scatterRowsDims N E C wf).start (ix2 e k') idx 1
          + ((scatterRowsDims N E C wf).window (ix2 e k') 1 : ℤ)).toNat = k.val := congrArg Fin.val h1
      have hnn := (hin 0).1
      rw [scatterRows_start_row, scatterRows_window_row] at hv0 hnn
      rw [scatterRows_start_col, scatterRows_window_col] at hv1
      exact ⟨by omega, Fin.ext (by omega)⟩
    · exact absurd h (by simp)
  · rintro ⟨h, rfl⟩
    have hin : ∀ a : Fin 2, 0 ≤ (scatterRowsDims N E C wf).start (ix2 e k') idx a
          + ((scatterRowsDims N E C wf).window (ix2 e k') a : ℤ) ∧
        (scatterRowsDims N E C wf).start (ix2 e k') idx a + ((scatterRowsDims N E C wf).window (ix2 e k') a : ℤ)
          < ((⟨2, ![N, C]⟩ : Shape).size a : ℤ) := by
      refine Fin.forall_fin_two.mpr ⟨?_, ?_⟩
      · rw [scatterRows_start_row, scatterRows_window_row, hsz0, h]
        have := n.isLt
        omega
      · rw [scatterRows_start_col, scatterRows_window_col, hsz1]
        have := k'.isLt
        omega
    rw [dif_pos hin]
    congr 1
    funext a
    refine Fin.ext ?_
    revert a
    refine Fin.forall_fin_two.mpr ⟨?_, ?_⟩
    · show ((scatterRowsDims N E C wf).start (ix2 e k') idx 0
          + ((scatterRowsDims N E C wf).window (ix2 e k') 0 : ℤ)).toNat = n.val
      rw [scatterRows_start_row, scatterRows_window_row, h]
      omega
    · show ((scatterRowsDims N E C wf).start (ix2 e k') idx 1
          + ((scatterRowsDims N E C wf).window (ix2 e k') 1 : ℤ)).toNat = k'.val
      rw [scatterRows_start_col, scatterRows_window_col]
      omega

/-- THE ROW SCATTER-ADD READ AT `(n, k)`: the operand's element plus the sum, over the updates `e` whose index read
    signed is `n`, of the update's column `k`. (The updates landing on `(n, k)` are the `(e, k)` with `e` such: the sum
    over update indices is split by coordinates and each row of it keeps its one term at column `k`.) -/
theorem hostScatterAdd_rows_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (scatterRowsDims N E C wf) x idx upd (ix2 n k)
      = x (ix2 n k) + ∑ e ∈ Finset.univ.filter (fun e : Fin E => (idx (ix2 e 0)).toInt = (n.val : ℤ)), upd (ix2 e k) := by
  unfold Ideal.hostScatterAdd
  congr 1
  rw [Finset.sum_filter, Finset.sum_filter, sum_idx2]
  refine Finset.sum_congr rfl fun e _ => ?_
  by_cases h : (idx (ix2 e 0)).toInt = (n.val : ℤ)
  · rw [if_pos h, Finset.sum_eq_single k]
    · rw [if_pos ((scatterRows_resultIdx_eq_some_iff wf idx e k n k).mpr ⟨h, rfl⟩)]
    · intro b _ hb
      rw [if_neg]
      intro hc
      exact hb ((scatterRows_resultIdx_eq_some_iff wf idx e b n k).mp hc).2
    · intro hk
      exact absurd (Finset.mem_univ k) hk
  · rw [if_neg h]
    refine Finset.sum_eq_zero fun b _ => ?_
    rw [if_neg]
    intro hc
    exact h ((scatterRows_resultIdx_eq_some_iff wf idx e b n k).mp hc).1

end ScatterRows

section Padding

/-- PADDING CHANGES NO ROW'S SUM: lengthen the index and update lists from `E` to `E'` entries, the first `E` kept; if
    no added entry's index is `n` (a sentinel row number on the padding), the sum of the updates whose index is `n` is the
    same over the long lists as over the short ones. -/
theorem sum_filter_eq_of_pad {M : Type*} [AddCommMonoid M] {E E' : Nat} (hE : E ≤ E') (n : ℤ)
    (ids : Fin E → ℤ) (ids' : Fin E' → ℤ) (upd : Fin E → M) (upd' : Fin E' → M)
    (hids : ∀ e : Fin E, ids' (Fin.castLE hE e) = ids e)
    (hupd : ∀ e : Fin E, upd' (Fin.castLE hE e) = upd e)
    (hpad : ∀ e : Fin E', E ≤ e.val → ids' e ≠ n) :
    ∑ e ∈ Finset.univ.filter (fun e : Fin E' => ids' e = n), upd' e
      = ∑ e ∈ Finset.univ.filter (fun e : Fin E => ids e = n), upd e := by
  symm
  refine Finset.sum_bij (fun e _ => Fin.castLE hE e) ?_ ?_ ?_ ?_
  · intro e he
    rw [Finset.mem_filter] at he ⊢
    exact ⟨Finset.mem_univ _, (hids e).trans he.2⟩
  · intro a _ b _ hab
    exact Fin.ext (by simpa [Fin.ext_iff] using hab)
  · intro e' he'
    rw [Finset.mem_filter] at he'
    have hlt : e'.val < E := by
      by_contra hge
      exact hpad e' (by omega) he'.2
    refine ⟨⟨e'.val, hlt⟩, ?_, Fin.ext rfl⟩
    rw [Finset.mem_filter]
    refine ⟨Finset.mem_univ _, ?_⟩
    rw [← hids ⟨e'.val, hlt⟩]
    exact he'.2
  · intro e _
    exact (hupd e).symm

end Padding

/-! ## On records spelt as a program prints them

A program names its shapes and states each record's fields over them, the conditions cited from a hypothesis. Such a
record is `scatterVecDims` / `scatterRowsDims` at the literal extents by `rfl`, so the lemmas above rewrite a scatter
through it. -/

section Printed

private abbrev S100001 : Shape := ⟨1, ![100001]⟩
private abbrev S100001x128 : Shape := ⟨2, ![100001, 128]⟩
private abbrev S606208x1 : Shape := ⟨2, ![606208, 1]⟩
private abbrev S606208 : Shape := ⟨1, ![606208]⟩
private abbrev S606208x128 : Shape := ⟨2, ![606208, 128]⟩

/-- A vector scatter's record as printed. -/
private def scatter_S100001_S606208x1_S606208_n_0_0_1 (hwf : ScatterDims.WF S100001 S606208x1 S606208 [] [0] [0] 1) :
    ScatterDims S100001 S606208x1 S606208 where
  updateWindowDims := []
  insertedWindowDims := [0]
  scatterDimsToOperandDims := [0]
  indexVectorDim := 1
  wf := hwf

/-- A row scatter's record as printed. -/
private def scatter_S100001x128_S606208x1_S606208x128_1_0_0_1
    (hwf : ScatterDims.WF S100001x128 S606208x1 S606208x128 [1] [0] [0] 1) :
    ScatterDims S100001x128 S606208x1 S606208x128 where
  updateWindowDims := [1]
  insertedWindowDims := [0]
  scatterDimsToOperandDims := [0]
  indexVectorDim := 1
  wf := hwf

/-- The vector lemma rewrites a scatter through the printed record. -/
example (hwf : ScatterDims.WF S100001 S606208x1 S606208 [] [0] [0] 1) (x : S100001.Idx → EReal)
    (idx : IVec S606208x1 32) (upd : S606208.Idx → EReal) (n : Fin 100001) :
    Ideal.hostScatterAdd (scatter_S100001_S606208x1_S606208_n_0_0_1 hwf) x idx upd (ix1 n)
      = x (ix1 n) + ∑ e ∈ Finset.univ.filter (fun e : Fin 606208 => (idx (ix2 e 0)).toInt = (n.val : ℤ)), upd (ix1 e) := by
  rw [show scatter_S100001_S606208x1_S606208_n_0_0_1 hwf = scatterVecDims 100001 606208 hwf from rfl,
    hostScatterAdd_vec_apply]

/-- The row lemma rewrites a scatter through the printed record. -/
example (hwf : ScatterDims.WF S100001x128 S606208x1 S606208x128 [1] [0] [0] 1) (x : S100001x128.Idx → EReal)
    (idx : IVec S606208x1 32) (upd : S606208x128.Idx → EReal) (n : Fin 100001) (k : Fin 128) :
    Ideal.hostScatterAdd (scatter_S100001x128_S606208x1_S606208x128_1_0_0_1 hwf) x idx upd (ix2 n k)
      = x (ix2 n k) + ∑ e ∈ Finset.univ.filter (fun e : Fin 606208 => (idx (ix2 e 0)).toInt = (n.val : ℤ)), upd (ix2 e k) := by
  rw [show scatter_S100001x128_S606208x1_S606208x128_1_0_0_1 hwf = scatterRowsDims 100001 606208 128 hwf from rfl,
    hostScatterAdd_rows_apply]

end Printed

end Cert.Lib

end
-- ==== Proof.RefSpec.lean ====
/-
  One hop of the reference, read index by index, is the hop of the specification.

  Each operation of the hop is read at an index: an index column broadcast from a list, the rows a gather reads, an
  edge's score as a sum over the two halves of the matrix, its weight, its share of its row's total, what the edges send
  to each row, and the rows rescaled to length one. The sums are met by regrouping (256 positions as 128 and 128, the
  contraction re-indexed by its coordinate) and by removing an added zero; the quotient, square root, exponential and
  maximum by the same operation on equal arguments. No statement here carries a hypothesis on the values.
-/
import proofs.«131266_j69483980915102_2_alg».proof.Proof.RefHop
import proofs.«131266_j69483980915102_2_alg».proof.Proof.Spec
import proofs.«131266_j69483980915102_2_alg».proof.Proof.LibGatherRows
import proofs.«131266_j69483980915102_2_alg».proof.Proof.LibScatterAddRows
import Idealize.ShloMosaic.Lib.Pipeline.Value
import Idealize.ShloMosaic.Lib.IdealHost
import Idealize.ShloMosaic.PureOps.Ideal.Laws

noncomputable section

open scoped BigOperators

namespace Cert.ReferenceIdeal.HopSpec

open Cert.ReferenceIdeal Cert.ReferenceIdeal.Gen Cert.ReferenceIdeal.Hop Cert.Rgat Cert.Lib
open Idealize.ShloMosaic Idealize.ShloMosaic.ValueIdx

/-! ## The index columns -/

/-- The column a gather from `n` rows reads, at edge `e`: the list's entry, counted from the end when negative. -/
theorem gcol_apply (n : Nat) (x : IVec S600000 32) (e : Fin 600000) :
    gcol (BitVec.ofNat 32 n) x (ix2 e 0) = wrap n (x (ix1 e)) := by
  unfold gcol
  rw [broadcastInDim_apply _ _ _ (ix2 e 0) (ix1 e)
    (fun a => by obtain rfl : a = 0 := Subsingleton.elim _ _; rfl)]
  rfl

/-- The column a scatter reads, at edge `e`: the list's entry as it stands. -/
theorem scol_apply (x : IVec S600000 32) (e : Fin 600000) : scol x (ix2 e 0) = x (ix1 e) := by
  unfold scol
  rw [broadcastInDim_apply _ _ _ (ix2 e 0) (ix1 e)
    (fun a => by obtain rfl : a = 0 := Subsingleton.elim _ _; rfl)]

/-! ## The rows the edges read -/

/-- The row of a node table edge `e` reads is the specification's: the entry wrapped, read signed, clamped. -/
theorem rows_apply (u : FVec Ideal S100000x128 .f32) (x : IVec S600000 32) (e : Fin 600000) (k : Fin 128) :
    rows u x (ix2 e k) = u (ix2 (rowFin 100000 (by decide) (x (ix1 e))) k) := by
  unfold rows
  rw [show gather_S100000x128_S600000x1_S600000x128_1_0_n_n_0_1_1128
      = gatherRowsDims 100000 600000 128 gather_S100000x128_S600000x1_S600000x128_1_0_n_n_0_1_1128_wf from rfl,
    gather_rows_apply (by decide)]
  refine congrArg u (congrArg (fun r => ix2 r k) (Fin.ext ?_))
  show min (gcol (BitVec.ofNat 32 100000) x (ix2 e 0)).toInt.toNat (100000 - 1) = row 100000 (x (ix1 e))
  rw [gcol_apply]
  rfl

/-! ## An edge's score -/

/-- A sum over 256 positions is the sum over the first 128 plus the sum over the last 128. -/
theorem sum_fin256_split {M : Type*} [AddCommMonoid M] (f : Fin 256 → M) :
    ∑ c : Fin 256, f c = (∑ k : Fin 128, f ⟨k.val, by omega⟩) + ∑ k : Fin 128, f ⟨128 + k.val, by omega⟩ :=
  Fin.sum_univ_add (a := 128) (b := 128) f

/-- The score's reduction over the column axis, as the witness that names the inserted index. -/
theorem reduces_S600000x128_S600000_d1 : S600000x128.Reduces [1] S600000 := by decide

/-- The two rows side by side against the matrix, at edge `e` and column `j`: the user row against the matrix's first
    128 rows plus the entity row against its last 128. -/
theorem dot_cat_apply (hU tE : FVec Ideal S600000x128 .f32) (W : FVec Ideal S256x128 .f32) (e : Fin 600000) (j : Fin 128) :
    Host.dotGeneral dot_S600000x256_S256x128_S600000x128_1_0_0_1_n_n none
        (concatenate S600000x256 1 [⟨S600000x128, hU⟩, ⟨S600000x128, tE⟩] concatenates_S600000x128_S600000x128_S600000x256_d1) W
        (ix2 e j)
      = (∑ k : Fin 128, hU (ix2 e k) * W (ix2 ⟨k.val, by omega⟩ j))
        + ∑ k : Fin 128, tE (ix2 e k) * W (ix2 ⟨128 + k.val, by omega⟩ j) := by
  simp only [Host.dotGeneral]
  rw [Ideal.dotGeneral_apply,
    ← Equiv.sum_comp (contrEquiv1 dot_S600000x256_S256x128_S600000x128_1_0_0_1_n_n 256 rfl rfl).symm]
  have hL : ∀ c : Fin 256, dot_S600000x256_S256x128_S600000x128_1_0_0_1_n_n.lhsIdx (ix2 e j)
      ((contrEquiv1 dot_S600000x256_S256x128_S600000x128_1_0_0_1_n_n 256 rfl rfl).symm c) = ix2 e c := by
    intro c; funext a; refine Fin.ext ?_
    match a with
    | ⟨0, _⟩ => rfl
    | ⟨1, _⟩ => rfl
  have hR : ∀ c : Fin 256, dot_S600000x256_S256x128_S600000x128_1_0_0_1_n_n.rhsIdx (ix2 e j)
      ((contrEquiv1 dot_S600000x256_S256x128_S600000x128_1_0_0_1_n_n 256 rfl rfl).symm c) = ix2 c j := by
    intro c; funext a; refine Fin.ext ?_
    match a with
    | ⟨0, _⟩ => rfl
    | ⟨1, _⟩ => rfl
  simp only [hL, hR]
  rw [sum_fin256_split]
  congr 1
  · refine Finset.sum_congr rfl fun k _ => ?_
    rw [concatenate_pair_apply_left (t := S600000x256) (1 : Fin 2) hU tE
      concatenates_S600000x128_S600000x128_S600000x256_d1 (ix2 e (⟨k.val, by omega⟩ : Fin 256)) rfl (ix2 e k)
      (fun b => by match b with | ⟨0, _⟩ => rfl | ⟨1, _⟩ => rfl)]
  · refine Finset.sum_congr rfl fun k _ => ?_
    rw [concatenate_pair_apply_right (t := S600000x256) (1 : Fin 2) hU tE
      concatenates_S600000x128_S600000x128_S600000x256_d1 (ix2 e (⟨128 + k.val, by omega⟩ : Fin 256)) rfl rfl (ix2 e k)
      (fun b hb => by
        match b with
        | ⟨0, _⟩ => rfl
        | ⟨1, _⟩ => exact absurd rfl hb)
      (show k.val + 128 = 128 + k.val by omega)]

/-- AN EDGE'S SCORE: over the columns `j`, the two rows against the two halves of the matrix, times the relation row. -/
theorem score_apply (hU tE relE : FVec Ideal S600000x128 .f32) (W : FVec Ideal S256x128 .f32) (e : Fin 600000) :
    score hU tE relE W (ix1 e)
      = ∑ j : Fin 128, ((∑ k : Fin 128, hU (ix2 e k) * W (ix2 ⟨k.val, by omega⟩ j))
          + ∑ k : Fin 128, tE (ix2 e k) * W (ix2 ⟨128 + k.val, by omega⟩ j)) * relE (ix2 e j) := by
  unfold score
  rw [hostReduceAdd_apply, Ideal.hostReduceAdd_single _ reduces_S600000x128_S600000_d1]
  rw [show constant (F := Ideal) S_ .f32 0x00000000#32 (Shape.Idx.first h_S_) = 0 from Ideal.ofBits_zero_f32, zero_add]
  show ∑ j : Fin 128, _ = _
  refine Finset.sum_congr rfl fun j _ => ?_
  have hl : reduces_S600000x128_S600000_d1.lift (ix1 e) j = ix2 e j := by
    funext a; refine Fin.ext ?_
    match a with
    | ⟨0, _⟩ => rfl
    | ⟨1, _⟩ => rfl
  rw [hl, mulf_apply, dot_cat_apply]

/-! ## Host operations at the ideal values, at any shapes -/

/-- At the ideal values the host's accumulating float scatter is the exact one, at any shapes. -/
theorem hostScatterAdd_eq {s si u : Shape} {φ : FTy} {w : Nat} (d : ScatterDims s si u) (x : FVec Ideal s φ)
    (idx : IVec si w) (upd : FVec Ideal u φ) : Host.scatterAdd d x idx upd = Ideal.hostScatterAdd d x idx upd := rfl

/-- The host's exponential at an index is the exponential of the element. -/
theorem hostExp_apply {s : Shape} {φ : FTy} (x : FVec Ideal s φ) (i : s.Idx) : Host.exp x i = Ideal.exp (x i) := rfl

/-- The host's square root at an index is the square root of the element. -/
theorem hostSqrt_apply {s : Shape} {φ : FTy} (x : FVec Ideal s φ) (i : s.Idx) : Host.sqrt x i = Ideal.sqrt (x i) := rfl

/-! ## Zero constants -/

/-- The zero word broadcast from a scalar reads the extended real zero everywhere. -/
theorem bcast_zero_apply {T : Shape} (h : S_.BroadcastsInDim T ![]) (j : T.Idx) :
    broadcastInDim T ![] h (constant (F := Ideal) S_ .f32 0x00000000#32) j = 0 := by
  rw [broadcastInDim_scalar_apply, constant_apply]
  exact Ideal.ofBits_zero_f32

/-- A word broadcast from a scalar reads the extended real it encodes everywhere. -/
theorem bcast_const_apply {T : Shape} (h : S_.BroadcastsInDim T ![]) (b : BitVec 32) (j : T.Idx) :
    broadcastInDim T ![] h (constant (F := Ideal) S_ .f32 b) j = Ideal.ofBits .f32 b := by
  rw [broadcastInDim_scalar_apply, constant_apply]

/-! ## An edge's weight -/

/-- AN EDGE'S WEIGHT: the exponential of the leaky rectifier of its score. -/
theorem weight_apply (s : FVec Ideal S600000 .f32) (e : Fin 600000) :
    weight s (ix1 e) = Ideal.exp (leaky (s (ix1 e))) := by
  unfold weight leaky Cert.Rgat.slope
  rw [hostExp_apply, select_apply, cmpf_apply, mulf_apply, bcast_const_apply, bcast_const_apply, Ideal.cmpf_def,
    Ideal.ofBits_zero_f32]

/-! ## Sums by row -/

/-- A per-edge quantity summed into the rows its index list names, from zero: the specification's sum over the edges
    whose index, read signed and as it stands, is the row. -/
theorem rowTotal_apply (a : FVec Ideal S600000 .f32) (x : IVec S600000 32) (n : Fin 100000) :
    Host.scatterAdd scatter_S100000_S600000x1_S600000_n_0_0_1
        (broadcastInDim S100000 ![] bcast_S_S100000 (constant S_ .f32 0x00000000#32)) (scol x) a (ix1 n)
      = seg (fun e => x (ix1 e)) (fun e => a (ix1 e)) n := by
  rw [hostScatterAdd_eq,
    show scatter_S100000_S600000x1_S600000_n_0_0_1
      = scatterVecDims 100000 600000 scatter_S100000_S600000x1_S600000_n_0_0_1_wf from rfl,
    hostScatterAdd_vec_apply, bcast_zero_apply, zero_add]
  unfold seg
  refine Finset.sum_congr (Finset.filter_congr fun e _ => ?_) fun _ _ => rfl
  rw [scol_apply]

/-- AN EDGE'S SHARE: its weight over the total weight of the edges of the row it reads. -/
theorem share_apply (a : FVec Ideal S600000 .f32) (x : IVec S600000 32) (e : Fin 600000) :
    share a x (ix1 e)
      = Ideal.div (a (ix1 e)) (seg (fun e => x (ix1 e)) (fun e => a (ix1 e)) (rowFin 100000 (by decide) (x (ix1 e)))) := by
  unfold share
  rw [hostDivf_apply,
    show gather_S100000_S600000x1_S600000_n_0_n_n_0_1_1
      = gatherElemsDims 100000 600000 gather_S100000_S600000x1_S600000_n_0_n_n_0_1_1_wf from rfl,
    gather_elems_apply (by decide)]
  have hrow : (⟨min (gcol 100000#32 x (ix2 e 0)).toInt.toNat (100000 - 1), clampRow_lt (by decide) _⟩ : Fin 100000)
      = rowFin 100000 (by decide) (x (ix1 e)) := by
    refine Fin.ext ?_
    show min (gcol (BitVec.ofNat 32 100000) x (ix2 e 0)).toInt.toNat (100000 - 1) = row 100000 (x (ix1 e))
    rw [gcol_apply]
    rfl
  rw [hrow, rowTotal_apply]

/-- WHAT THE EDGES SEND TO A ROW: over the edges whose index is the row, the edge's row entry times its share. -/
theorem spread_apply (r : FVec Ideal S600000x128 .f32) (s : FVec Ideal S600000 .f32) (x : IVec S600000 32)
    (n : Fin 100000) (k : Fin 128) :
    spread r s x (ix2 n k) = seg (fun e => x (ix1 e)) (fun e => r (ix2 e k) * s (ix1 e)) n := by
  unfold spread
  rw [hostScatterAdd_eq,
    show scatter_S100000x128_S600000x1_S600000x128_1_0_0_1
      = scatterRowsDims 100000 600000 128 scatter_S100000x128_S600000x1_S600000x128_1_0_0_1_wf from rfl,
    hostScatterAdd_rows_apply, bcast_zero_apply, zero_add]
  unfold seg
  refine Finset.sum_congr (Finset.filter_congr fun e _ => ?_) fun e _ => ?_
  · rw [scol_apply]
  · rw [mulf_apply,
      broadcastInDim_apply _ _ _ (ix2 e k) (ix2 e (0 : Fin 1))
        (fun a => by match a with | ⟨0, _⟩ => rfl | ⟨1, _⟩ => rfl),
      broadcastInDim_apply _ _ _ (ix2 e (0 : Fin 1)) (ix1 e)
        (fun a => by obtain rfl : a = 0 := Subsingleton.elim _ _; rfl)]

/-! ## Rows rescaled to length one -/

/-- The rescaling's reduction over the column axis, as the witness that names the inserted index. -/
theorem reduces_S100000x128_S100000_d1 : S100000x128.Reduces [1] S100000 := by decide

/-- A row's squared Euclidean length. -/
theorem rowSq_apply (x : FVec Ideal S100000x128 .f32) (n : Fin 100000) :
    Host.reduceAdd (mulf x x) (constant S_ .f32 0x00000000#32) reducesTo_S100000x128_S100000_d1 h_S_ (ix1 n)
      = ∑ j : Fin 128, x (ix2 n j) * x (ix2 n j) := by
  rw [hostReduceAdd_apply, Ideal.hostReduceAdd_single _ reduces_S100000x128_S100000_d1, constant_apply,
    Ideal.ofBits_zero_f32, zero_add]
  show ∑ j : Fin 128, _ = _
  refine Finset.sum_congr rfl fun j _ => ?_
  have hl : reduces_S100000x128_S100000_d1.lift (ix1 n) j = ix2 n j := by
    funext a; refine Fin.ext ?_
    match a with
    | ⟨0, _⟩ => rfl
    | ⟨1, _⟩ => rfl
  rw [hl, mulf_apply]

/-- A TABLE PLUS ROWS SCALED TO LENGTH ONE: at `(n, k)`, the table's entry plus the row's entry over the larger of the
    row's Euclidean length and the smallest admissible length. -/
theorem renorm_apply (all x : FVec Ideal S100000x128 .f32) (n : Fin 100000) (k : Fin 128) :
    renorm all x (ix2 n k)
      = all (ix2 n k) + Ideal.div (x (ix2 n k))
          (max (Ideal.sqrt (∑ j : Fin 128, x (ix2 n j) * x (ix2 n j))) Cert.Rgat.eps) := by
  unfold renorm Cert.Rgat.eps
  rw [addf_apply, hostDivf_apply,
    broadcastInDim_apply _ _ _ (ix2 n k) (ix2 n (0 : Fin 1))
      (fun a => by match a with | ⟨0, _⟩ => rfl | ⟨1, _⟩ => rfl),
    maximumf_apply, broadcastInDim_scalar_apply, constant_apply, hostSqrt_apply,
    broadcastInDim_apply _ _ _ (ix2 n (0 : Fin 1)) (ix1 n)
      (fun a => by obtain rfl : a = 0 := Subsingleton.elim _ _; rfl),
    rowSq_apply]

/-! ## The hop -/

/-- Two row sums agree when their index lists and their summands agree edge by edge. -/
theorem seg_congr {ids ids' : Fin 600000 → BitVec 32} {x x' : Fin 600000 → EReal} (hi : ∀ e, ids e = ids' e)
    (hx : ∀ e, x e = x' e) (n : Fin 100000) : seg ids x n = seg ids' x' n := by
  have h1 : ids = ids' := funext hi
  have h2 : x = x' := funext hx
  rw [h1, h2]

/-- A table's entry. -/
theorem toTab_apply (x : (⟨2, ![100000, 128]⟩ : Shape).Idx → EReal) (n : Fin 100000) (k : Fin 128) :
    toTab x n k = x (ix2 n k) := rfl

/-- The user table of a hop. -/
theorem hop_fst (G : Graph) (a b : Tab) : (G.hop (a, b)).1 = nodeUpd a (G.aggU a b) := rfl

/-- The entity table of a hop. -/
theorem hop_snd (G : Graph) (a b : Tab) : (G.hop (a, b)).2 = nodeUpd b (G.aggI a b) := rfl

section Hop
variable (u v : FVec Ideal S100000x128 .f32) (hd tl : IVec S600000 32) (relE : FVec Ideal S600000x128 .f32)
  (W : FVec Ideal S256x128 .f32)

/-- The graph a hop's fixed arrays describe: the edges' relation rows, the matrix, and the two index lists. -/
abbrev hopGraph : Graph :=
  ⟨fun e k => relE (ix2 e k), fun r k => W (ix2 r k), fun e => hd (ix1 e), fun e => tl (ix1 e)⟩

/-- EACH EDGE'S WEIGHT is the specification's: the exponential of the leaky rectifier of the rows it reads against the
    two halves of the matrix, times its relation row. -/
theorem weight_score_apply (e : Fin 600000) :
    weight (score (rows u hd) (rows v tl) relE W) (ix1 e) = (hopGraph hd tl relE W).a (toTab u) (toTab v) e := by
  rw [weight_apply, score_apply]
  simp only [rows_apply]
  rfl

/-- What the edges send to a user row is the specification's. -/
theorem spreadU_apply (n : Fin 100000) (k : Fin 128) :
    spread (rows v tl) (share (weight (score (rows u hd) (rows v tl) relE W)) hd) hd (ix2 n k)
      = (hopGraph hd tl relE W).aggU (toTab u) (toTab v) n k := by
  rw [spread_apply]
  unfold Graph.aggU
  refine seg_congr (fun _ => rfl) (fun e => ?_) n
  rw [rows_apply, share_apply, weight_score_apply]
  unfold Graph.eU
  refine congrArg₂ (· * ·) rfl (congrArg (Ideal.div _) ?_)
  exact seg_congr (fun _ => rfl) (fun e' => weight_score_apply u v hd tl relE W e') _

/-- What the edges send to an entity row is the specification's. -/
theorem spreadI_apply (n : Fin 100000) (k : Fin 128) :
    spread (rows u hd) (share (weight (score (rows u hd) (rows v tl) relE W)) tl) tl (ix2 n k)
      = (hopGraph hd tl relE W).aggI (toTab u) (toTab v) n k := by
  rw [spread_apply]
  unfold Graph.aggI
  refine seg_congr (fun _ => rfl) (fun e => ?_) n
  rw [rows_apply, share_apply, weight_score_apply]
  unfold Graph.eI
  refine congrArg₂ (· * ·) rfl (congrArg (Ideal.div _) ?_)
  exact seg_congr (fun _ => rfl) (fun e' => weight_score_apply u v hd tl relE W e') _

/-- Rescaling rows that are, entry by entry, what was sent plus the table is the specification's node update. -/
theorem renorm_eq_nodeUpd (all x : FVec Ideal S100000x128 .f32) (agg : Tab)
    (h : ∀ n k, x (ix2 n k) = agg n k + toTab all n k) (n : Fin 100000) (k : Fin 128) :
    renorm all x (ix2 n k) = nodeUpd (toTab all) agg n k := by
  have hs : (∑ j : Fin 128, x (ix2 n j) * x (ix2 n j))
      = ∑ j : Fin 128, (agg n j + toTab all n j) * (agg n j + toTab all n j) :=
    Finset.sum_congr rfl fun j _ => by rw [h n j]
  rw [renorm_apply, hs, h n k]
  unfold nodeUpd
  rw [toTab_apply]

/-- THE USER TABLE AFTER ONE HOP is the specification's. -/
theorem hopU_eq : toTab (hopU u v hd tl relE W) = ((hopGraph hd tl relE W).hop (toTab u, toTab v)).1 := by
  funext n k
  rw [toTab_apply, hop_fst]
  unfold hopU
  exact renorm_eq_nodeUpd u _ _ (fun n k => by rw [addf_apply, spreadU_apply, toTab_apply]) n k

/-- THE ENTITY TABLE AFTER ONE HOP is the specification's. -/
theorem hopI_eq : toTab (hopI u v hd tl relE W) = ((hopGraph hd tl relE W).hop (toTab u, toTab v)).2 := by
  funext n k
  rw [toTab_apply, hop_snd]
  unfold hopI
  exact renorm_eq_nodeUpd v _ _ (fun n k => by rw [addf_apply, spreadI_apply, toTab_apply]) n k

end Hop

/-! ## The hop's fixed arrays from the program's arguments -/

/-- The user-row index list is row `0` of the `[2, 600000]` argument. -/
theorem headOf_apply (ei : IVec S2x600000 32) (e : Fin 600000) : headOf ei (ix1 e) = ei (ix2 0 e) := by
  unfold headOf
  rw [shapeCast_apply _ _ (ix1 e) (ix2 (0 : Fin 1) e)
      (by rw [Shape.rowMajor_val_two, Shape.rowMajor_val_one]; show (0 : ℕ) * 600000 + e.val = e.val; omega),
    extractStridedSlice_apply _ _ _ (ix2 (0 : Fin 1) e) (ix2 (0 : Fin 2) e)
      (fun a => by match a with | ⟨0, _⟩ => rfl | ⟨1, _⟩ => show e.val = 0 + e.val; omega)]

/-- The entity-row index list is row `1` of the `[2, 600000]` argument. -/
theorem tailOf_apply (ei : IVec S2x600000 32) (e : Fin 600000) : tailOf ei (ix1 e) = ei (ix2 1 e) := by
  unfold tailOf
  rw [shapeCast_apply _ _ (ix1 e) (ix2 (0 : Fin 1) e)
      (by rw [Shape.rowMajor_val_two, Shape.rowMajor_val_one]; show (0 : ℕ) * 600000 + e.val = e.val; omega),
    extractStridedSlice_apply _ _ _ (ix2 (0 : Fin 1) e) (ix2 (1 : Fin 2) e)
      (fun a => by match a with | ⟨0, _⟩ => rfl | ⟨1, _⟩ => show e.val = 0 + e.val; omega)]

/-- Each edge's relation row is the specification's: the relation table at the edge's type, wrapped and clamped. -/
theorem relOf_apply (rel : FVec Ideal S64x128 .f32) (et : IVec S600000 32) (e : Fin 600000) (k : Fin 128) :
    relOf rel et (ix2 e k) = rel (ix2 (rowFin 64 (by decide) (et (ix1 e))) k) := by
  unfold relOf
  rw [show gather_S64x128_S600000x1_S600000x128_1_0_n_n_0_1_1128
      = gatherRowsDims 64 600000 128 gather_S64x128_S600000x1_S600000x128_1_0_n_n_0_1_1128_wf from rfl,
    gather_rows_apply (by decide)]
  refine congrArg rel (congrArg (fun r => ix2 r k) (Fin.ext ?_))
  show min (gcol (BitVec.ofNat 32 64) et (ix2 e 0)).toInt.toNat (64 - 1) = row 64 (et (ix1 e))
  rw [gcol_apply]
  rfl

/-- The graph the hop reads off the program's arguments is the specification's. -/
theorem hopGraph_args (rel : FVec Ideal S64x128 .f32) (W : FVec Ideal S256x128 .f32) (ei : IVec S2x600000 32)
    (et : IVec S600000 32) : hopGraph (headOf ei) (tailOf ei) (relOf rel et) W = graphOf rel W ei et := by
  have h1 : (fun (e : Fin 600000) (k : Fin 128) => relOf rel et (ix2 e k))
      = fun e k => rel (ix2 (rowFin 64 (by decide) (et (ix1 e))) k) := by
    funext e k; exact relOf_apply rel et e k
  have h2 : (fun e : Fin 600000 => headOf ei (ix1 e)) = fun e => ei (ix2 0 e) := by
    funext e; exact headOf_apply ei e
  have h3 : (fun e : Fin 600000 => tailOf ei (ix1 e)) = fun e => ei (ix2 1 e) := by
    funext e; exact tailOf_apply ei e
  unfold graphOf
  show (⟨fun e k => relOf rel et (ix2 e k), fun r k => W (ix2 r k), fun e => headOf ei (ix1 e),
    fun e => tailOf ei (ix1 e)⟩ : Graph) = _
  rw [h1, h2, h3]

/-- ONE HOP OF THE REFERENCE ON THE PROGRAM'S ARGUMENTS IS THE SPECIFICATION'S HOP, both tables. -/
theorem hop_args (rel : FVec Ideal S64x128 .f32) (W : FVec Ideal S256x128 .f32) (ei : IVec S2x600000 32)
    (et : IVec S600000 32) (u v : FVec Ideal S100000x128 .f32) :
    toTab (hopU u v (headOf ei) (tailOf ei) (relOf rel et) W) = ((graphOf rel W ei et).hop (toTab u, toTab v)).1
    ∧ toTab (hopI u v (headOf ei) (tailOf ei) (relOf rel et) W) = ((graphOf rel W ei et).hop (toTab u, toTab v)).2 := by
  rw [← hopGraph_args]
  exact ⟨hopU_eq u v _ _ _ W, hopI_eq u v _ _ _ W⟩

end Cert.ReferenceIdeal.HopSpec

end
-- ==== Proof.KernelReads.lean ====
/-
  The host operations around the three kernels of a hop, read at an index.

  An index list of 600000 entries padded to 606208 is the list below 600000 and the padding value from there on. A
  padded list as the column a gather from `n` rows reads is, at an edge, the entry counted from the end when negative
  (the specification's `wrap`); as the column a scatter reads it is the entry as it stands. The rows the padded edges
  read out of a node table, or out of the relation table, are the specification's rows: the entry wrapped, read signed
  and clamped (a table narrowed to bf16 is itself at the ideal values). The two index lists are rows 0 and 1 of the
  `[2, 600000]` argument, the two halves of the matrix its rows 0 to 127 and 128 to 255. Three facts about 32-bit
  indices close the file: an index that reads signed as a number that is not negative is not wrapped, one that reads as
  a row number below `n` names that row, and the index one past the last of 100000 rows reads as no row.
-/
import proofs.«131266_j69483980915102_2_alg».proof.Proof.KernelHop
import proofs.«131266_j69483980915102_2_alg».proof.Proof.Spec
import proofs.«131266_j69483980915102_2_alg».proof.Proof.LibGatherRows
import Idealize.ShloMosaic.Lib.Pipeline.Value
import Idealize.ShloMosaic.Lib.ValueLayout

noncomputable section

namespace Cert.KernelIdeal.HopSpec

open Cert.KernelIdeal Cert.KernelIdeal.Gen Cert.KernelIdeal.Hop Cert.Rgat Cert.Lib
open Idealize.ShloMosaic Idealize.ShloMosaic.ValueIdx

/-! ## 32-bit indices -/

/-- An index that is not negative, read signed, is not counted from the end. -/
theorem wrap_of_nonneg (n : Nat) (v : BitVec 32) (h : 0 ≤ v.toInt) : wrap n v = v := by
  have hs : v.slt 0#32 = false := by
    simp only [BitVec.slt, BitVec.toInt_zero, decide_eq_false_iff_not, not_lt]
    exact h
  show Scalar.select (BitVec.ofBool (v.slt 0#32)) (IntOp.addi v (BitVec.ofNat 32 n)) v = v
  rw [hs]
  rfl

/-- An index that reads, signed, as a row number `r` below `n` names row `r`: neither wrapped nor clamped. -/
theorem row_of_lt (n : Nat) (v : BitVec 32) (r : Nat) (hv : v.toInt = (r : ℤ)) (hr : r < n) : row n v = r := by
  unfold row
  rw [wrap_of_nonneg n v (by omega), hv, Int.toNat_natCast]
  omega

/-- The index 100000, one past the last row, reads signed as 100000: no row of the 100000. -/
theorem pad_ne_row (r : Fin 100000) : (100000#32 : BitVec 32).toInt ≠ (r.val : ℤ) := by
  have h : (100000#32 : BitVec 32).toInt = 100000 := by decide
  have := r.isLt
  rw [h]
  omega

/-! ## The padded index lists -/

/-- A padded list at an entry below 600000 is the list's entry. -/
theorem padTo_lt (x : IVec S600000 32) (c : BitVec 32) (e : Fin 606208) (h : e.val < 600000) :
    padTo x c (ix1 e) = x (ix1 ⟨e.val, h⟩) := by
  unfold padTo pad
  split
  · refine congrArg x (funext fun a => Fin.ext ?_)
    obtain rfl : a = 0 := Subsingleton.elim _ _
    show (e.val - 0) / (0 + 1) = e.val
    simp
  · rename_i hin
    refine absurd (fun a => ?_) hin
    obtain rfl : a = 0 := Subsingleton.elim _ _
    show 0 ≤ e.val ∧ (e.val - 0) % (0 + 1) = 0 ∧ (e.val - 0) / (0 + 1) < 600000
    exact ⟨Nat.zero_le _, Nat.mod_one _, by rw [Nat.sub_zero, Nat.zero_add, Nat.div_one]; exact h⟩

/-- A padded list at an entry from 600000 on is the padding value. -/
theorem padTo_ge (x : IVec S600000 32) (c : BitVec 32) (e : Fin 606208) (h : 600000 ≤ e.val) :
    padTo x c (ix1 e) = c := by
  unfold padTo pad
  split
  · rename_i hin
    have h0 : 0 ≤ e.val ∧ (e.val - 0) % (0 + 1) = 0 ∧ (e.val - 0) / (0 + 1) < 600000 := hin 0
    simp at h0
    omega
  · rfl

/-! ## The index columns -/

/-- The column a gather from `n` rows reads, at padded edge `e`: the list's entry, counted from the end when negative. -/
theorem gcolP_apply (n : Nat) (x : IVec S606208 32) (e : Fin 606208) :
    gcolP (BitVec.ofNat 32 n) x (ix2 e 0) = wrap n (x (ix1 e)) := by
  unfold gcolP
  rw [broadcastInDim_apply _ _ _ (ix2 e 0) (ix1 e)
    (fun a => by obtain rfl : a = 0 := Subsingleton.elim _ _; rfl)]
  rfl

/-- The column a scatter reads, at padded edge `e`: the list's entry as it stands. -/
theorem scolP_apply (x : IVec S606208 32) (e : Fin 606208) : scolP x (ix2 e 0) = x (ix1 e) := by
  unfold scolP
  rw [broadcastInDim_apply _ _ _ (ix2 e 0) (ix1 e)
    (fun a => by obtain rfl : a = 0 := Subsingleton.elim _ _; rfl)]

/-! ## The rows the padded edges read -/

/-- The row of a node table padded edge `e` reads is the specification's: the entry wrapped, read signed, clamped; the
    narrowing of the table to bf16 is the identity at the ideal values. -/
theorem rowsP_apply (u : FVec Ideal S100000x128 .f32) (x : IVec S606208 32) (e : Fin 606208) (k : Fin 128) :
    rowsP u x (ix2 e k) = u (ix2 (rowFin 100000 (by decide) (x (ix1 e))) k) := by
  unfold rowsP
  rw [show gather_S100000x128_S606208x1_S606208x128_1_0_n_n_0_1_1128
      = gatherRowsDims 100000 606208 128 gather_S100000x128_S606208x1_S606208x128_1_0_n_n_0_1_1128_wf from rfl,
    gather_rows_apply (by decide)]
  refine congrArg u (congrArg (fun r => ix2 r k) (Fin.ext ?_))
  show min (gcolP (BitVec.ofNat 32 100000) x (ix2 e 0)).toInt.toNat (100000 - 1) = row 100000 (x (ix1 e))
  rw [gcolP_apply]
  rfl

/-- The relation row padded edge `e` reads, likewise, out of 64 rows. -/
theorem relP_apply (rel : FVec Ideal S64x128 .f32) (x : IVec S606208 32) (e : Fin 606208) (k : Fin 128) :
    relP rel x (ix2 e k) = rel (ix2 (rowFin 64 (by decide) (x (ix1 e))) k) := by
  unfold relP
  rw [show gather_S64x128_S606208x1_S606208x128_1_0_n_n_0_1_1128
      = gatherRowsDims 64 606208 128 gather_S64x128_S606208x1_S606208x128_1_0_n_n_0_1_1128_wf from rfl,
    gather_rows_apply (by decide)]
  refine congrArg rel (congrArg (fun r => ix2 r k) (Fin.ext ?_))
  show min (gcolP (BitVec.ofNat 32 64) x (ix2 e 0)).toInt.toNat (64 - 1) = row 64 (x (ix1 e))
  rw [gcolP_apply]
  rfl

/-! ## The two index lists and the two halves of the matrix, out of the arguments -/

/-- The user-row list is row 0 of the `[2, 600000]` argument. -/
theorem headK_apply (ei : IVec S2x600000 32) (e : Fin 600000) : headK ei (ix1 e) = ei (ix2 0 e) := by
  unfold headK
  rw [shapeCast_1a_a_apply]
  exact slice2_axis0_apply 0 ei slices_S2x600000_S1x600000_0_0 (0 : Fin 1) e (0 : Fin 2) rfl

/-- The entity-row list is row 1 of it. -/
theorem tailK_apply (ei : IVec S2x600000 32) (e : Fin 600000) : tailK ei (ix1 e) = ei (ix2 1 e) := by
  unfold tailK
  rw [shapeCast_1a_a_apply]
  exact slice2_axis0_apply 1 ei slices_S2x600000_S1x600000_1_0 (0 : Fin 1) e (1 : Fin 2) rfl

/-- The first half of the `[256, 128]` matrix is its rows 0 to 127. -/
theorem w1_apply (W : FVec Ideal S256x128 .f32) (k j : Fin 128) :
    extractStridedSlice S128x128 ![0, 0] W slices_S256x128_S128x128_0_0 (ix2 k j) = W (ix2 ⟨k.val, by omega⟩ j) :=
  slice2_axis0_apply 0 W slices_S256x128_S128x128_0_0 k j ⟨k.val, by omega⟩ (Nat.zero_add _).symm

/-- The second half is its rows 128 to 255. -/
theorem w2_apply (W : FVec Ideal S256x128 .f32) (k j : Fin 128) :
    extractStridedSlice S128x128 ![128, 0] W slices_S256x128_S128x128_128_0 (ix2 k j) = W (ix2 ⟨128 + k.val, by omega⟩ j) :=
  slice2_axis0_apply 128 W slices_S256x128_S128x128_128_0 k j ⟨128 + k.val, by omega⟩ rfl

end Cert.KernelIdeal.HopSpec

end
-- ==== Proof.KernelWeights.lean ====
/-
  A real edge's weight in the padded kernel.

  The kernel pads its index lists from 600000 to 606208 entries and computes a weight for every padded edge. At an edge
  below 600000 each padded list is the list itself, so the padded kernel's weight there is the weight the
  specification gives that edge: `attn2` of the two halves of the matrix, of the user row and the entity row the edge's
  two indices name (wrapped, read signed, clamped), and of the relation row its type names.
-/
import proofs.«131266_j69483980915102_2_alg».proof.Proof.KernelReads
import proofs.«131266_j69483980915102_2_alg».proof.Proof.KernelHop
import proofs.«131266_j69483980915102_2_alg».proof.Proof.Spec

noncomputable section

namespace Cert.KernelIdeal.HopSpec

open Cert.KernelIdeal Cert.KernelIdeal.Gen Cert.KernelIdeal.Hop Cert.Rgat Cert.Lib
open Idealize.ShloMosaic Idealize.ShloMosaic.ValueIdx

/-- A REAL EDGE'S WEIGHT in the padded kernel is the specification's. Edge `e` below 600000 is entry `e` of each padded
    list, where the padded list is the list itself: so the two rows it reads out of the node tables are the rows the
    specification's `head e` and `tail e` name, its relation row the one `etype e` names, and the two `[128, 128]`
    matrices are the two halves of `W`; both weights are `attn2` of these five. -/
theorem weights_real (rel : FVec Ideal S64x128 .f32) (W : FVec Ideal S256x128 .f32) (ei : IVec S2x600000 32)
    (et : IVec S600000 32) (u v : FVec Ideal S100000x128 .f32) (e : Fin 600000) :
    weights (fixedArgs rel W ei et) u v (ix1 (Fin.castLE (by decide : 600000 ≤ 606208) e))
      = (graphOf rel W ei et).a (toTab u) (toTab v) e := by
  have he : (Fin.castLE (by decide : 600000 ≤ 606208) e).val < 600000 := e.isLt
  -- the two halves of the matrix
  have hw1 : (fun k j : Fin 128 => (fixedArgs rel W ei et).w1 (ix2 k j))
      = fun k j : Fin 128 => (graphOf rel W ei et).W ⟨k.val, by omega⟩ j :=
    funext fun k => funext fun j => w1_apply W k j
  have hw2 : (fun k j : Fin 128 => (fixedArgs rel W ei et).w2 (ix2 k j))
      = fun k j : Fin 128 => (graphOf rel W ei et).W ⟨128 + k.val, by omega⟩ j :=
    funext fun k => funext fun j => w2_apply W k j
  -- the user row, the entity row and the relation row of edge e
  have hh : (fun k : Fin 128 => rowsP u (fixedArgs rel W ei et).hdG (ix2 (Fin.castLE (by decide : 600000 ≤ 606208) e) k))
      = (graphOf rel W ei et).hU (toTab u) e := funext fun k => by
    rw [rowsP_apply]
    show u (ix2 (rowFin 100000 (by decide) (padTo (headK ei) 0#32 (ix1 (Fin.castLE (by decide : 600000 ≤ 606208) e)))) k)
      = u (ix2 (rowFin 100000 (by decide) (ei (ix2 0 e))) k)
    rw [padTo_lt _ _ _ he]
    show u (ix2 (rowFin 100000 (by decide) (headK ei (ix1 e))) k) = _
    rw [headK_apply]
  have ht : (fun k : Fin 128 => rowsP v (fixedArgs rel W ei et).tlG (ix2 (Fin.castLE (by decide : 600000 ≤ 606208) e) k))
      = (graphOf rel W ei et).tE (toTab v) e := funext fun k => by
    rw [rowsP_apply]
    show v (ix2 (rowFin 100000 (by decide) (padTo (tailK ei) 0#32 (ix1 (Fin.castLE (by decide : 600000 ≤ 606208) e)))) k)
      = v (ix2 (rowFin 100000 (by decide) (ei (ix2 1 e))) k)
    rw [padTo_lt _ _ _ he]
    show v (ix2 (rowFin 100000 (by decide) (tailK ei (ix1 e))) k) = _
    rw [tailK_apply]
  have hr : (fun k : Fin 128 => (fixedArgs rel W ei et).relE (ix2 (Fin.castLE (by decide : 600000 ≤ 606208) e) k))
      = (graphOf rel W ei et).rE e := funext fun k => by
    show relP rel (padTo et 0#32) (ix2 (Fin.castLE (by decide : 600000 ≤ 606208) e) k)
      = rel (ix2 (rowFin 64 (by decide) (et (ix1 e))) k)
    rw [relP_apply, padTo_lt _ _ _ he]
    rfl
  show attn2 (fun k j : Fin 128 => (fixedArgs rel W ei et).w1 (ix2 k j)) (fun k j : Fin 128 => (fixedArgs rel W ei et).w2 (ix2 k j))
      (fun k : Fin 128 => rowsP u (fixedArgs rel W ei et).hdG (ix2 (Fin.castLE (by decide : 600000 ≤ 606208) e) k))
      (fun k : Fin 128 => rowsP v (fixedArgs rel W ei et).tlG (ix2 (Fin.castLE (by decide : 600000 ≤ 606208) e) k))
      (fun k : Fin 128 => (fixedArgs rel W ei et).relE (ix2 (Fin.castLE (by decide : 600000 ≤ 606208) e) k))
    = attn2 (fun k j : Fin 128 => (graphOf rel W ei et).W ⟨k.val, by omega⟩ j)
      (fun k j : Fin 128 => (graphOf rel W ei et).W ⟨128 + k.val, by omega⟩ j)
      ((graphOf rel W ei et).hU (toTab u) e) ((graphOf rel W ei et).tE (toTab v) e) ((graphOf rel W ei et).rE e)
  rw [hw1, hw2, hh, ht, hr]

end Cert.KernelIdeal.HopSpec

end
-- ==== Proof.KernelSpec.lean ====
/-
  One hop of the idealized kernel, read index by index, is the hop of the specification.

  The kernel pads its index lists from 600000 to 606208 entries and scatters into 100001 rows: a padded entry carries
  the row past the last as its scatter index, so it lands in no row below 100000, and the sum a real row receives over
  the padded edges is the sum over the real ones. At a real edge whose index names a row the padded lists are the lists
  themselves, so its weight, the row total it is divided by and the row entry it sends are the specification's. An
  edge whose index names no row is in no row's sum, and nothing is claimed about what is computed for it.
-/
import proofs.«131266_j69483980915102_2_alg».proof.Proof.KernelHop
import proofs.«131266_j69483980915102_2_alg».proof.Proof.KernelReads
import proofs.«131266_j69483980915102_2_alg».proof.Proof.KernelWeights
import proofs.«131266_j69483980915102_2_alg».proof.Proof.Spec
import proofs.«131266_j69483980915102_2_alg».proof.Proof.LibGatherRows
import proofs.«131266_j69483980915102_2_alg».proof.Proof.LibScatterAddRows
import Idealize.ShloMosaic.Lib.Pipeline.Value
import Idealize.ShloMosaic.Lib.IdealHost
import Idealize.ShloMosaic.PureOps.Ideal.Laws

noncomputable section

open scoped BigOperators

namespace Cert.KernelIdeal.HopSpec

open Cert.KernelIdeal Cert.KernelIdeal.Gen Cert.KernelIdeal.Hop Cert.Rgat Cert.Lib
open Idealize.ShloMosaic Idealize.ShloMosaic.ValueIdx

/-! ## Host operations at the ideal values, at any shapes -/

/-- At the ideal values the host's accumulating float scatter is the exact one, at any shapes. -/
theorem hostScatterAdd_eq {s si u : Shape} {φ : FTy} {w : Nat} (d : ScatterDims s si u) (x : FVec Ideal s φ)
    (idx : IVec si w) (upd : FVec Ideal u φ) : Host.scatterAdd d x idx upd = Ideal.hostScatterAdd d x idx upd := rfl

/-- The zero word broadcast from a scalar reads the extended real zero everywhere. -/
theorem bcast_zero_apply {T : Shape} (h : S_.BroadcastsInDim T ![]) (j : T.Idx) :
    broadcastInDim T ![] h (constant (F := Ideal) S_ .f32 0x00000000#32) j = 0 := by
  rw [broadcastInDim_scalar_apply, constant_apply]
  exact Ideal.ofBits_zero_f32

/-- A table's entry. -/
theorem toTab_apply (x : (⟨2, ![100000, 128]⟩ : Shape).Idx → EReal) (n : Fin 100000) (k : Fin 128) :
    toTab x n k = x (ix2 n k) := rfl

/-- A table as an array and back. -/
theorem toTab_ofTab (f : Tab) : toTab (ofTab f) = f := rfl

/-- The user table of a hop. -/
theorem hop_fst (G : Graph) (a b : Tab) : (G.hop (a, b)).1 = nodeUpd a (G.aggU a b) := rfl

/-- The entity table of a hop. -/
theorem hop_snd (G : Graph) (a b : Tab) : (G.hop (a, b)).2 = nodeUpd b (G.aggI a b) := rfl

/-! ## Sums by row over the padded edges -/

/-- A per-edge quantity summed into the 100001 rows a padded index list names, from zero: at row `m`, the sum over the
    padded edges whose index, read signed and as it stands, is `m`. -/
theorem totalP_apply (a : FVec Ideal S606208 .f32) (x : IVec S606208 32) (m : Fin 100001) :
    Host.scatterAdd scatter_S100001_S606208x1_S606208_n_0_0_1
        (broadcastInDim S100001 ![] bcast_S_S100001 (constant S_ .f32 0x00000000#32)) (scolP x) a (ix1 m)
      = ∑ e ∈ Finset.univ.filter (fun e : Fin 606208 => (x (ix1 e)).toInt = (m.val : ℤ)), a (ix1 e) := by
  rw [hostScatterAdd_eq,
    show scatter_S100001_S606208x1_S606208_n_0_0_1
      = scatterVecDims 100001 606208 scatter_S100001_S606208x1_S606208_n_0_0_1_wf from rfl,
    hostScatterAdd_vec_apply, bcast_zero_apply, zero_add]
  refine Finset.sum_congr (Finset.filter_congr fun e _ => ?_) fun _ _ => rfl
  rw [scolP_apply]

/-- PADDING CHANGES NO REAL ROW'S SUM: over a list padded with the row past the last, the sum at a row below 100000 is
    the sum over the 600000 real edges. -/
theorem sum_padTo (x : IVec S600000 32) (n : Fin 100000) (f : Fin 606208 → EReal) :
    ∑ e ∈ Finset.univ.filter (fun e : Fin 606208 => (padTo x 100000#32 (ix1 e)).toInt = (n.val : ℤ)), f e
      = ∑ e ∈ Finset.univ.filter (fun e : Fin 600000 => (x (ix1 e)).toInt = (n.val : ℤ)),
          f (Fin.castLE (by decide : 600000 ≤ 606208) e) :=
  sum_filter_eq_of_pad (by decide : 600000 ≤ 606208) (n.val : ℤ) (fun e => (x (ix1 e)).toInt)
    (fun e => (padTo x 100000#32 (ix1 e)).toInt) (fun e => f (Fin.castLE (by decide : 600000 ≤ 606208) e)) f
    (fun e => congrArg BitVec.toInt (padTo_lt x 100000#32 (Fin.castLE (by decide : 600000 ≤ 606208) e) e.isLt))
    (fun _ => rfl)
    (fun e he => by rw [padTo_ge x 100000#32 e he]; exact pad_ne_row n)

/-- A PADDED EDGE'S SHARE: its weight over the total, over the padded edges, of the row among 100001 its index names
    (wrapped, read signed, clamped). -/
theorem shareP_apply (a : FVec Ideal S606208 .f32) (x : IVec S606208 32) (e : Fin 606208) :
    shareP a x (ix1 e)
      = Ideal.div (a (ix1 e))
          (∑ e' ∈ Finset.univ.filter (fun e' : Fin 606208 => (x (ix1 e')).toInt = ((row 100001 (x (ix1 e)) : ℕ) : ℤ)),
            a (ix1 e')) := by
  unfold shareP
  rw [hostDivf_apply,
    show gather_S100001_S606208x1_S606208_n_0_n_n_0_1_1
      = gatherElemsDims 100001 606208 gather_S100001_S606208x1_S606208_n_0_n_n_0_1_1_wf from rfl,
    gather_elems_apply (by decide), totalP_apply]
  refine congrArg (Ideal.div _) (Finset.sum_congr (Finset.filter_congr fun e' _ => ?_) fun _ _ => rfl)
  rw [gcolP_apply]
  rfl

/-- WHAT THE PADDED EDGES SEND TO A ROW below 100000: over the padded edges whose index is the row, the edge's row entry
    times its share. -/
theorem spreadP_apply (r : FVec Ideal S606208x128 .bf16) (s : FVec Ideal S606208 .f32) (x : IVec S606208 32)
    (n : Fin 100000) (k : Fin 128) :
    spreadP r s x (ix2 n k)
      = ∑ e ∈ Finset.univ.filter (fun e : Fin 606208 => (x (ix1 e)).toInt = (n.val : ℤ)),
          (r (ix2 e k) : EReal) * (s (ix1 e) : EReal) := by
  unfold spreadP
  rw [extractStridedSlice_apply _ _ _ (ix2 n k) (ix2 (⟨n.val, by omega⟩ : Fin 100001) k)
      (fun a => by
        match a with
        | ⟨0, _⟩ => show n.val = 0 + n.val; omega
        | ⟨1, _⟩ => show k.val = 0 + k.val; omega),
    hostScatterAdd_eq,
    show scatter_S100001x128_S606208x1_S606208x128_1_0_0_1
      = scatterRowsDims 100001 606208 128 scatter_S100001x128_S606208x1_S606208x128_1_0_0_1_wf from rfl,
    hostScatterAdd_rows_apply, bcast_zero_apply, zero_add]
  refine Finset.sum_congr (Finset.filter_congr fun e _ => ?_) fun e _ => ?_
  · rw [scolP_apply]
  · rw [mulf_apply, extf_apply,
      broadcastInDim_apply _ _ _ (ix2 e k) (ix2 e (0 : Fin 1))
        (fun a => by match a with | ⟨0, _⟩ => rfl | ⟨1, _⟩ => rfl),
      broadcastInDim_apply _ _ _ (ix2 e (0 : Fin 1)) (ix1 e)
        (fun a => by obtain rfl : a = 0 := Subsingleton.elim _ _; rfl)]

/-! ## The hop -/

section Args
variable (rel : FVec Ideal S64x128 .f32) (W : FVec Ideal S256x128 .f32) (ei : IVec S2x600000 32) (et : IVec S600000 32)
  (u v : FVec Ideal S100000x128 .f32)

/-- The user-row scatter list of the fixed arrays: the list padded with the row past the last. -/
theorem fixedArgs_hdS : (fixedArgs rel W ei et).hdS = padTo (headK ei) 100000#32 := rfl
/-- The entity-row scatter list of the fixed arrays: the list padded with the row past the last. -/
theorem fixedArgs_tlS : (fixedArgs rel W ei et).tlS = padTo (tailK ei) 100000#32 := rfl
/-- The user-row gather list of the fixed arrays: the list padded with row zero. -/
theorem fixedArgs_hdG : (fixedArgs rel W ei et).hdG = padTo (headK ei) 0#32 := rfl
/-- The entity-row gather list of the fixed arrays: the list padded with row zero. -/
theorem fixedArgs_tlG : (fixedArgs rel W ei et).tlG = padTo (tailK ei) 0#32 := rfl

/-- At a real edge the padded user rows are the specification's. -/
theorem rowsP_hdG_real (e : Fin 600000) (k : Fin 128) :
    rowsP u (fixedArgs rel W ei et).hdG (ix2 (Fin.castLE (by decide : 600000 ≤ 606208) e) k)
      = (graphOf rel W ei et).hU (toTab u) e k := by
  rw [rowsP_apply, fixedArgs_hdG, padTo_lt _ _ _ e.isLt]
  show u (ix2 (rowFin 100000 (by decide) (headK ei (ix1 e))) k) = _
  rw [headK_apply]
  rfl

/-- At a real edge the padded entity rows are the specification's. -/
theorem rowsP_tlG_real (e : Fin 600000) (k : Fin 128) :
    rowsP v (fixedArgs rel W ei et).tlG (ix2 (Fin.castLE (by decide : 600000 ≤ 606208) e) k)
      = (graphOf rel W ei et).tE (toTab v) e k := by
  rw [rowsP_apply, fixedArgs_tlG, padTo_lt _ _ _ e.isLt]
  show v (ix2 (rowFin 100000 (by decide) (tailK ei (ix1 e))) k) = _
  rw [tailK_apply]
  rfl

/-- What the padded edges send to a user row is the specification's. -/
theorem spreadPU_apply (n : Fin 100000) (k : Fin 128) :
    spreadP (rowsP v (fixedArgs rel W ei et).tlG)
        (shareP (weights (fixedArgs rel W ei et) u v) (fixedArgs rel W ei et).hdS) (fixedArgs rel W ei et).hdS (ix2 n k)
      = (graphOf rel W ei et).aggU (toTab u) (toTab v) n k := by
  rw [spreadP_apply, fixedArgs_hdS, sum_padTo]
  unfold Graph.aggU seg
  refine Finset.sum_congr (Finset.filter_congr fun e _ => ?_) fun e he => ?_
  · rw [headK_apply]
    rfl
  · have hn : ((graphOf rel W ei et).head e).toInt = (n.val : ℤ) := (Finset.mem_filter.mp he).2
    have hh : (headK ei (ix1 e)).toInt = (n.val : ℤ) := by
      rw [headK_apply]
      exact hn
    have hrow : row 100001 (padTo (headK ei) 100000#32 (ix1 (Fin.castLE (by decide : 600000 ≤ 606208) e))) = n.val := by
      rw [padTo_lt _ _ _ e.isLt]
      exact row_of_lt 100001 _ n.val hh (by have := n.isLt; omega)
    have hrF : rowFin 100000 (by decide) ((graphOf rel W ei et).head e) = n :=
      Fin.ext (row_of_lt 100000 _ n.val hn n.isLt)
    refine congrArg₂ (· * ·) (rowsP_tlG_real rel W ei et v e k) ?_
    rw [shareP_apply, hrow, sum_padTo, weights_real]
    unfold Graph.eU seg
    rw [hrF]
    refine congrArg (Ideal.div _) (Finset.sum_congr (Finset.filter_congr fun e' _ => ?_) fun e' _ =>
      weights_real rel W ei et u v e')
    rw [headK_apply]
    rfl

/-- What the padded edges send to an entity row is the specification's. -/
theorem spreadPI_apply (n : Fin 100000) (k : Fin 128) :
    spreadP (rowsP u (fixedArgs rel W ei et).hdG)
        (shareP (weights (fixedArgs rel W ei et) u v) (fixedArgs rel W ei et).tlS) (fixedArgs rel W ei et).tlS (ix2 n k)
      = (graphOf rel W ei et).aggI (toTab u) (toTab v) n k := by
  rw [spreadP_apply, fixedArgs_tlS, sum_padTo]
  unfold Graph.aggI seg
  refine Finset.sum_congr (Finset.filter_congr fun e _ => ?_) fun e he => ?_
  · rw [tailK_apply]
    rfl
  · have hn : ((graphOf rel W ei et).tail e).toInt = (n.val : ℤ) := (Finset.mem_filter.mp he).2
    have hh : (tailK ei (ix1 e)).toInt = (n.val : ℤ) := by
      rw [tailK_apply]
      exact hn
    have hrow : row 100001 (padTo (tailK ei) 100000#32 (ix1 (Fin.castLE (by decide : 600000 ≤ 606208) e))) = n.val := by
      rw [padTo_lt _ _ _ e.isLt]
      exact row_of_lt 100001 _ n.val hh (by have := n.isLt; omega)
    have hrF : rowFin 100000 (by decide) ((graphOf rel W ei et).tail e) = n :=
      Fin.ext (row_of_lt 100000 _ n.val hn n.isLt)
    refine congrArg₂ (· * ·) (rowsP_hdG_real rel W ei et u e k) ?_
    rw [shareP_apply, hrow, sum_padTo, weights_real]
    unfold Graph.eI seg
    rw [hrF]
    refine congrArg (Ideal.div _) (Finset.sum_congr (Finset.filter_congr fun e' _ => ?_) fun e' _ =>
      weights_real rel W ei et u v e')
    rw [tailK_apply]
    rfl

/-- THE USER TABLE AFTER ONE HOP OF THE KERNEL is the specification's. -/
theorem hopU_eq : toTab (hopU (fixedArgs rel W ei et) u v) = ((graphOf rel W ei et).hop (toTab u, toTab v)).1 := by
  rw [hop_fst]
  unfold hopU nodeArr
  rw [toTab_ofTab]
  refine congrArg (nodeUpd (toTab u)) ?_
  funext n k
  rw [toTab_apply]
  exact spreadPU_apply rel W ei et u v n k

/-- THE ENTITY TABLE AFTER ONE HOP OF THE KERNEL is the specification's. -/
theorem hopI_eq : toTab (hopI (fixedArgs rel W ei et) u v) = ((graphOf rel W ei et).hop (toTab u, toTab v)).2 := by
  rw [hop_snd]
  unfold hopI nodeArr
  rw [toTab_ofTab]
  refine congrArg (nodeUpd (toTab v)) ?_
  funext n k
  rw [toTab_apply]
  exact spreadPI_apply rel W ei et u v n k

end Args

/-- ONE HOP OF THE KERNEL ON THE PROGRAM'S ARGUMENTS IS THE SPECIFICATION'S HOP, both tables. -/
theorem hop_args (rel : FVec Ideal S64x128 .f32) (W : FVec Ideal S256x128 .f32) (ei : IVec S2x600000 32)
    (et : IVec S600000 32) (u v : FVec Ideal S100000x128 .f32) :
    toTab (hopU (fixedArgs rel W ei et) u v) = ((graphOf rel W ei et).hop (toTab u, toTab v)).1
    ∧ toTab (hopI (fixedArgs rel W ei et) u v) = ((graphOf rel W ei et).hop (toTab u, toTab v)).2 :=
  ⟨hopU_eq rel W ei et u v, hopI_eq rel W ei et u v⟩

end Cert.KernelIdeal.HopSpec

end
-- ==== Proof.Bridge.lean ====
/-
  The two programs against the specification. The idealized kernel's two results are two hops of its padded hop, the
  reference's two hops of its own; each hop, read as a function of the two node tables, is the specification's hop
  (the padded edges land on a row that is cut off, and an index that names no row is dropped by both programs), so
  both programs end with the specification's result.
-/
import proofs.«131266_j69483980915102_2_alg».proof.Proof.KernelStages
import proofs.«131266_j69483980915102_2_alg».proof.Proof.RefFinal
import proofs.«131266_j69483980915102_2_alg».proof.Proof.NodeUpdateRegions
import proofs.«131266_j69483980915102_2_alg».proof.Proof.EdgeAttnRegions
import proofs.«131266_j69483980915102_2_alg».proof.Proof.RefSpec
import proofs.«131266_j69483980915102_2_alg».proof.Proof.KernelSpec

noncomputable section

namespace Cert.Bridge

open Idealize.ShloMosaic Idealize.ShloMosaic.TcCoe Idealize.ShloMosaic.ValueIdx Idealize.SL.Sem Cert.Rgat

/-- Two hops of a pair of array functions that are the specification's hop on tables are the specification's two hops. -/
theorem two_hops (G : Graph) {hU hI : ((⟨2, ![100000, 128]⟩ : Shape).Idx → EReal) → ((⟨2, ![100000, 128]⟩ : Shape).Idx → EReal) → ((⟨2, ![100000, 128]⟩ : Shape).Idx → EReal)}
    (h : ∀ u v, toTab (hU u v) = (G.hop (toTab u, toTab v)).1 ∧ toTab (hI u v) = (G.hop (toTab u, toTab v)).2)
    (u v : (⟨2, ![100000, 128]⟩ : Shape).Idx → EReal) :
    hU (hU u v) (hI u v) = ofTab (G.hop (G.hop (toTab u, toTab v))).1
    ∧ hI (hU u v) (hI u v) = ofTab (G.hop (G.hop (toTab u, toTab v))).2 := by
  have e : (toTab (hU u v), toTab (hI u v)) = G.hop (toTab u, toTab v) := Prod.ext (h u v).1 (h u v).2
  constructor
  · rw [← ofTab_toTab (hU (hU u v) (hI u v)), (h _ _).1, e]
  · rw [← ofTab_toTab (hI (hU u v) (hI u v)), (h _ _).2, e]

end Cert.Bridge

namespace Cert.KernelIdeal.Final

open Cert.KernelIdeal Cert.KernelIdeal.Gen Cert.KernelIdeal.Hop Cert.KernelIdeal.Stages Cert.Rgat
open Idealize.ShloMosaic Idealize.ShloMosaic.TcCoe Idealize.ShloMosaic.ValueIdx Idealize.SL.Sem

variable (m : (ℓ : Loc nD τ sig) → Buf (Elt Ideal) ℓ) (ρ : Dev nD → PrngReg)

/-- The specification's result of the arrays a device is launched with. -/
abbrev spec (c : Dev nD) : Tab × Tab :=
  result (m ((c : Thread nD τ).loc main_arg0)) (m ((c : Thread nD τ).loc main_arg2)) (m ((c : Thread nD τ).loc main_arg1))
    (m ((c : Thread nD τ).loc main_arg3)) (m ((c : Thread nD τ).loc main_arg4)) (m ((c : Thread nD τ).loc main_arg5))

/-- The idealized kernel ends with the specification's two tables in its result buffers, the arguments unchanged. -/
theorem run : θ_run defs (onTc (τ := τ) (main (F := Ideal))) ⟨m, fun _ => 0, ρ⟩ (fun r => ∀ c : Dev nD,
      r.2.mem ((c.tc : Thread nD τ).loc main_v131) = ofTab (spec m c).1
      ∧ r.2.mem ((c.tc : Thread nD τ).loc main_v132) = ofTab (spec m c).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.KernelIdeal.RunValues.run_values (F := Ideal) m ρ)
  have hres := Stages.results m ρ c
    (fun V => Cert.KernelIdeal.RegionValues.region0 V c) (fun V => Cert.KernelIdeal.RegionValues.region1 V c)
    (fun V => Cert.KernelIdeal.RegionValues.region2 V c) (fun V => Cert.KernelIdeal.RegionValues.region3 V c)
    (fun V => Cert.KernelIdeal.RegionValues.region4 V c) (fun V => Cert.KernelIdeal.RegionValues.region5 V c)
  have h2 := Cert.Bridge.two_hops
    (graphOf (m ((c : Thread nD τ).loc main_arg1)) (m ((c : Thread nD τ).loc main_arg3)) (m ((c : Thread nD τ).loc main_arg4)) (m ((c : Thread nD τ).loc main_arg5)))
    (hU := hopU (fixedOf m c)) (hI := hopI (fixedOf m c))
    (fun u v => Cert.KernelIdeal.HopSpec.hop_args _ _ _ _ u v)
    (m ((c : Thread nD τ).loc main_arg0)) (m ((c : Thread nD τ).loc main_arg2))
  exact ⟨(h c).1.trans (hres.1.trans h2.1), (h c).2.1.trans (hres.2.trans h2.2), (h c).2.2⟩

end Cert.KernelIdeal.Final

namespace Cert.ReferenceIdeal.Final

open Cert.ReferenceIdeal Cert.ReferenceIdeal.Gen Cert.ReferenceIdeal.Hop Cert.Rgat
open Idealize.ShloMosaic Idealize.ShloMosaic.TcCoe Idealize.ShloMosaic.ValueIdx Idealize.SL.Sem

variable (m : (ℓ : Loc nD τ sig) → Buf (Elt Ideal) ℓ) (ρ : Dev nD → PrngReg)

/-- The specification's result of the arrays a device is launched with. -/
abbrev spec (c : Dev nD) : Tab × Tab :=
  result (m ((c.tc : Thread nD τ).loc main_arg0)) (m ((c.tc : Thread nD τ).loc main_arg2)) (m ((c.tc : Thread nD τ).loc main_arg1))
    (m ((c.tc : Thread nD τ).loc main_arg3)) (m ((c.tc : Thread nD τ).loc main_arg4)) (m ((c.tc : Thread nD τ).loc main_arg5))

/-- The reference ends with the specification's two tables in its result buffers, the arguments unchanged. -/
theorem run : θ_run defs (onTc (τ := τ) (main (F := Ideal))) ⟨m, fun _ => 0, ρ⟩ (fun r => ∀ c : Dev nD,
      r.2.mem ((c.tc : Thread nD τ).loc main_v154) = ofTab (spec m c).1
      ∧ r.2.mem ((c.tc : Thread nD τ).loc main_v153) = ofTab (spec m c).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Cert.ReferenceIdeal.Hop.run_values (F := Ideal) m ρ)
  have h2 := Cert.Bridge.two_hops
    (graphOf (m ((c.tc : Thread nD τ).loc main_arg1)) (m ((c.tc : Thread nD τ).loc main_arg3)) (m ((c.tc : Thread nD τ).loc main_arg4)) (m ((c.tc : Thread nD τ).loc main_arg5)))
    (hU := fun u v => hopU u v (hd0 m c) (tl0 m c) (rel0 m c) (W0' m c)) (hI := fun u v => hopI u v (hd0 m c) (tl0 m c) (rel0 m c) (W0' m c))
    (fun u v => Cert.ReferenceIdeal.HopSpec.hop_args _ _ _ _ u v)
    (m ((c.tc : Thread nD τ).loc main_arg0)) (m ((c.tc : Thread nD τ).loc main_arg2))
  exact ⟨(h c).1.trans h2.1, (h c).2.1.trans h2.2, (h c).2.2⟩

end Cert.ReferenceIdeal.Final

end
-- ==== Proof.lean ====
/-
  The certificate's five claims. Both idealized programs compute, over the extended reals, two rounds of
  attention-weighted message passing between two tables of 100000 nodes along 600000 edges (Proof/Spec.lean): the
  kernel pads the edge lists to 606208 entries whose sums land on a row past the last and are cut off, reads its
  matrix in two halves and runs the per-edge scores and the per-row rescaling in tiled kernels; the reference does
  the same arithmetic unpadded. Neither side needs an input to be finite: the two differ only by regroupings of
  finite sums and by added zeros. The frames of the two kernels are the generated ones; the reference's frame is its
  run with the results dropped; the idealization rewrote nothing.
-/
import proofs.«131266_j69483980915102_2_alg».proof.Defs
import proofs.«131266_j69483980915102_2_alg».proof.Proof.Gen.Kernel
import proofs.«131266_j69483980915102_2_alg».proof.Proof.Gen.Kernel.Skeleton
import proofs.«131266_j69483980915102_2_alg».proof.Proof.Gen.Kernel.Launch
import proofs.«131266_j69483980915102_2_alg».proof.Proof.Gen.Kernel.Points
import proofs.«131266_j69483980915102_2_alg».proof.Proof.Gen.Kernel.Frame
import proofs.«131266_j69483980915102_2_alg».proof.Proof.Gen.KernelIdeal
import proofs.«131266_j69483980915102_2_alg».proof.Proof.Gen.KernelIdeal.Skeleton
import proofs.«131266_j69483980915102_2_alg».proof.Proof.Gen.KernelIdeal.Launch
import proofs.«131266_j69483980915102_2_alg».proof.Proof.Gen.KernelIdeal.Points
import proofs.«131266_j69483980915102_2_alg».proof.Proof.Gen.KernelIdeal.Frame
import proofs.«131266_j69483980915102_2_alg».proof.Proof.Gen.ReferenceIdeal
import proofs.«131266_j69483980915102_2_alg».proof.Proof.Gen.Pre_finite_inputs
import proofs.«131266_j69483980915102_2_alg».proof.Proof.Bridge
import Idealize.ShloMosaic.Adequacy
import Idealize.ShloMosaic.Init

noncomputable section

namespace Cert.Proof

open Idealize.ShloMosaic Idealize.SL.Sem Cert.Kernel

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Final.run m ρ)

/-- Both programs end at the specification's two tables of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Rgat.ofTab (Cert.KernelIdeal.Final.spec m c).1, fun c => Cert.Rgat.ofTab (Cert.KernelIdeal.Final.spec m c).2,
    Cert.KernelIdeal.Final.run m ρ, ?_⟩
  refine (θ_run Cert.ReferenceIdeal.defs _ _).mono (fun r h c => ?_) (Cert.ReferenceIdeal.Final.run m' ρ')
  obtain ⟨h0, h1, h2, h3, h4, h5⟩ := hagree c
  refine ⟨(h c).1.trans ?_, (h c).2.1.trans ?_, (h c).2.2⟩
  · unfold Cert.ReferenceIdeal.Final.spec Cert.KernelIdeal.Final.spec; rw [h0, h1, h2, h3, h4, h5]
  · unfold Cert.ReferenceIdeal.Final.spec Cert.KernelIdeal.Final.spec; rw [h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
